-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2x4x480x640 : Shape := ⟨6, ![4, 8, 2, 4, 480, 640]⟩
abbrev S_ : Shape := ⟨0, ![]⟩

class Facts : Prop where
  bcast_S_S4x8x2x4x480x640 : S_.BroadcastsInDim S4x8x2x4x480x640 (![] : Fin 0 → Fin S4x8x2x4x480x640.rank)
  reducesTo_S4x8x2x4x480x640_S_d0_1_2_3_4_5 : S4x8x2x4x480x640.ReducesTo [0, 1, 2, 3, 4, 5] S_
  h_S_ : 0 < S_.numel

variable [Facts]

def fn {F : FTy → Type} [FloatOps F] (main_arg0 : FVec F S4x8x2x4x480x640 .f32) : IVec S_ 1 :=
  let main_v0 : FVec F S4x8x2x4x480x640 .f32 := Host.absf main_arg0
  let main_cst : FVec F S_ .f32 := constant S_ .f32 0x7F800000#32
  let main_v1 : FVec F S4x8x2x4x480x640 .f32 := broadcastInDim S4x8x2x4x480x640 ![] bcast_S_S4x8x2x4x480x640 main_cst
  let main_v2 : IVec S4x8x2x4x480x640 1 := cmpf .olt main_v0 main_v1
  let main_c : IVec S_ 1 := constantI S_ 1 1#1
  let main_v3 : IVec S_ 1 := (fun x v => Host.reduce IntOp.andi x v reducesTo_S4x8x2x4x480x640_S_d0_1_2_3_4_5 h_S_) main_v2 main_c
  main_v3
-- ==== Kernel.lean ====
abbrev S4x8x2x4x480x640 : Shape := ⟨6, ![4, 8, 2, 4, 480, 640]⟩
abbrev S32x8x480x640 : Shape := ⟨4, ![32, 8, 480, 640]⟩
abbrev S32x480x640 : Shape := ⟨3, ![32, 480, 640]⟩
abbrev S1x8x480x640 : Shape := ⟨4, ![1, 8, 480, 640]⟩
abbrev S1x480x640 : Shape := ⟨3, ![1, 480, 640]⟩
abbrev S_ : Shape := ⟨0, ![]⟩
abbrev S9830400 : Shape := ⟨1, ![9830400]⟩
abbrev S200000 : Shape := ⟨1, ![200000]⟩
abbrev S9830400x1 : Shape := ⟨2, ![9830400, 1]⟩
abbrev S200000x1 : Shape := ⟨2, ![200000, 1]⟩
abbrev S200000x4 : Shape := ⟨2, ![200000, 4]⟩
abbrev S200000x3 : Shape := ⟨2, ![200000, 3]⟩
abbrev S200000x8 : Shape := ⟨2, ![200000, 8]⟩

abbrev nBuf : Space → Nat
  | .hbm => 258
  | .vmem => 4
  | .smem => 0
  | _ => 0

abbrev hbmTy0_0 (i : Nat) : BufTy := match i % 128 with
  | 0 => ⟨S4x8x2x4x480x640, .f32⟩
  | 1 => ⟨S32x8x480x640, .f32⟩
  | 2 => ⟨S32x480x640, .i32⟩
  | 3 => ⟨S_, .i32⟩
  | 4 => ⟨S32x480x640, .i32⟩
  | 5 => ⟨S32x480x640, .i1⟩
  | 6 => ⟨S32x480x640, .i1⟩
  | 7 => ⟨S9830400, .i1⟩
  | 8 => ⟨S9830400, .i32⟩
  | 9 => ⟨S_, .i32⟩
  | 10 => ⟨S_, .i32⟩
  | 11 => ⟨S9830400, .i32⟩
  | 12 => ⟨S_, .i32⟩
  | 13 => ⟨S200000, .i32⟩
  | 14 => ⟨S_, .i32⟩
  | 15 => ⟨S_, .i32⟩
  | 16 => ⟨S9830400, .i32⟩
  | 17 => ⟨S9830400, .i32⟩
  | 18 => ⟨S_, .i32⟩
  | 19 => ⟨S9830400, .i32⟩
  | 20 => ⟨S9830400, .i1⟩
  | 21 => ⟨S_, .i32⟩
  | 22 => ⟨S9830400, .i32⟩
  | 23 => ⟨S9830400, .i32⟩
  | 24 => ⟨S9830400, .i32⟩
  | 25 => ⟨S9830400x1, .i32⟩
  | 26 => ⟨S_, .i32⟩
  | 27 => ⟨S9830400, .i32⟩
  | 28 => ⟨S200000, .i32⟩
  | 29 => ⟨S_, .i32⟩
  | 30 => ⟨S_, .i32⟩
  | 31 => ⟨S200000, .i32⟩
  | 32 => ⟨S_, .i32⟩
  | 33 => ⟨S200000, .i32⟩
  | 34 => ⟨S200000, .i32⟩
  | 35 => ⟨S200000, .i32⟩
  | 36 => ⟨S_, .i32⟩
  | 37 => ⟨S200000, .i32⟩
  | 38 => ⟨S200000, .i1⟩
  | 39 => ⟨S200000, .i32⟩
  | 40 => ⟨S200000, .i32⟩
  | 41 => ⟨S_, .i32⟩
  | 42 => ⟨S200000, .i32⟩
  | 43 => ⟨S200000, .i1⟩
  | 44 => ⟨S200000, .i1⟩
  | 45 => ⟨S_, .i32⟩
  | 46 => ⟨S200000, .i32⟩
  | 47 => ⟨S200000, .i32⟩
  | 48 => ⟨S200000, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S200000, .i32⟩
  | 56 => ⟨S200000, .i32⟩
  | 57 => ⟨S_, .i32⟩
  | 58 => ⟨S200000, .i32⟩
  | 59 => ⟨S200000, .i1⟩
  | 60 => ⟨S_, .i32⟩
  | 61 => ⟨S200000, .i32⟩
  | 62 => ⟨S200000, .i1⟩
  | 63 => ⟨S_, .i32⟩
  | 64 => ⟨S_, .i1⟩
  | 65 => ⟨S200000, .i1⟩
  | 66 => ⟨S200000, .i1⟩
  | 67 => ⟨S200000, .i1⟩
  | 68 => ⟨S200000, .i32⟩
  | 69 => ⟨S200000, .i32⟩
  | 70 => ⟨S200000, .i32⟩
  | 71 => ⟨S_, .i32⟩
  | 72 => ⟨S200000, .i32⟩
  | 73 => ⟨S200000, .i32⟩
  | 74 => ⟨S200000, .i32⟩
  | 75 => ⟨S_, .i32⟩
  | 76 => ⟨S200000, .i32⟩
  | 77 => ⟨S200000, .i1⟩
  | 78 => ⟨S200000, .i32⟩
  | 79 => ⟨S200000, .i32⟩
  | 80 => ⟨S_, .i32⟩
  | 81 => ⟨S200000, .i32⟩
  | 82 => ⟨S200000, .i1⟩
  | 83 => ⟨S200000, .i1⟩
  | 84 => ⟨S_, .i32⟩
  | 85 => ⟨S200000, .i32⟩
  | 86 => ⟨S200000, .i32⟩
  | 87 => ⟨S200000, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S200000, .i32⟩
  | 95 => ⟨S200000, .i32⟩
  | 96 => ⟨S_, .i32⟩
  | 97 => ⟨S200000, .i32⟩
  | 98 => ⟨S200000, .i1⟩
  | 99 => ⟨S_, .i32⟩
  | 100 => ⟨S200000, .i32⟩
  | 101 => ⟨S200000, .i1⟩
  | 102 => ⟨S_, .i32⟩
  | 103 => ⟨S_, .i1⟩
  | 104 => ⟨S200000, .i1⟩
  | 105 => ⟨S200000, .i1⟩
  | 106 => ⟨S200000, .i1⟩
  | 107 => ⟨S200000, .i32⟩
  | 108 => ⟨S200000, .i32⟩
  | 109 => ⟨S200000, .i32⟩
  | 110 => ⟨S_, .i32⟩
  | 111 => ⟨S200000, .i32⟩
  | 112 => ⟨S200000, .i32⟩
  | 113 => ⟨S200000, .i32⟩
  | 114 => ⟨S_, .i32⟩
  | 115 => ⟨S200000, .i32⟩
  | 116 => ⟨S200000, .i1⟩
  | 117 => ⟨S200000, .i32⟩
  | 118 => ⟨S200000, .i32⟩
  | 119 => ⟨S_, .i32⟩
  | 120 => ⟨S200000, .i32⟩
  | 121 => ⟨S200000, .i1⟩
  | 122 => ⟨S200000, .i1⟩
  | 123 => ⟨S_, .i32⟩
  | 124 => ⟨S200000, .i32⟩
  | 125 => ⟨S200000, .i32⟩
  | 126 => ⟨S200000, .i32⟩
  | 127 => ⟨S_, .i32⟩
  | _ => ⟨S4x8x2x4x480x640, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i1⟩
  | 13 => ⟨S_, .i32⟩
  | 14 => ⟨S_, .i1⟩
  | 15 => ⟨S200000, .i1⟩
  | 16 => ⟨S200000, .i1⟩
  | 17 => ⟨S200000, .i1⟩
  | 18 => ⟨S200000, .i32⟩
  | 19 => ⟨S200000, .i32⟩
  | 20 => ⟨S200000, .i32⟩
  | 21 => ⟨S200000, .i32⟩
  | 22 => ⟨S32x480x640, .i32⟩
  | 23 => ⟨S_, .i32⟩
  | 24 => ⟨S_, .i32⟩
  | 25 => ⟨S200000, .i32⟩
  | 26 => ⟨S200000, .i1⟩
  | 27 => ⟨S_, .i32⟩
  | 28 => ⟨S_, .i32⟩
  | 29 => ⟨S200000, .i32⟩
  | 30 => ⟨S200000, .i32⟩
  | 31 => ⟨S_, .i32⟩
  | 32 => ⟨S_, .i32⟩
  | 33 => ⟨S200000, .i32⟩
  | 34 => ⟨S200000, .i32⟩
  | 35 => ⟨S_, .i32⟩
  | 36 => ⟨S_, .i32⟩
  | 37 => ⟨S200000, .i32⟩
  | 38 => ⟨S200000, .i32⟩
  | 39 => ⟨S32x480x640, .i32⟩
  | 40 => ⟨S_, .i32⟩
  | 41 => ⟨S_, .i32⟩
  | 42 => ⟨S_, .i32⟩
  | 43 => ⟨S_, .i32⟩
  | 44 => ⟨S200000, .i32⟩
  | 45 => ⟨S200000, .i32⟩
  | 46 => ⟨S200000, .i1⟩
  | 47 => ⟨S_, .i32⟩
  | 48 => ⟨S_, .i32⟩
  | 49 => ⟨S200000, .i32⟩
  | 50 => ⟨S200000, .i32⟩
  | 51 => ⟨S200000, .i32⟩
  | 52 => ⟨S_, .i32⟩
  | 53 => ⟨S200000, .i32⟩
  | 54 => ⟨S200000, .i1⟩
  | 55 => ⟨S200000, .i32⟩
  | 56 => ⟨S200000, .i32⟩
  | 57 => ⟨S_, .i32⟩
  | 58 => ⟨S200000, .i32⟩
  | 59 => ⟨S200000, .i1⟩
  | 60 => ⟨S200000, .i1⟩
  | 61 => ⟨S_, .i32⟩
  | 62 => ⟨S200000, .i32⟩
  | 63 => ⟨S200000, .i32⟩
  | 64 => ⟨S200000, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S200000, .i32⟩
  | 72 => ⟨S200000, .i32⟩
  | 73 => ⟨S_, .i32⟩
  | 74 => ⟨S200000, .i32⟩
  | 75 => ⟨S200000, .i1⟩
  | 76 => ⟨S_, .i32⟩
  | 77 => ⟨S200000, .i32⟩
  | 78 => ⟨S200000, .i1⟩
  | 79 => ⟨S_, .i32⟩
  | 80 => ⟨S_, .i1⟩
  | 81 => ⟨S200000, .i1⟩
  | 82 => ⟨S200000, .i1⟩
  | 83 => ⟨S200000, .i1⟩
  | 84 => ⟨S200000, .i32⟩
  | 85 => ⟨S200000, .i32⟩
  | 86 => ⟨S200000, .i32⟩
  | 87 => ⟨S200000x1, .i32⟩
  | 88 => ⟨S200000x1, .i32⟩
  | 89 => ⟨S200000x1, .i32⟩
  | 90 => ⟨S200000x1, .i32⟩
  | 91 => ⟨S200000x4, .i32⟩
  | 92 => ⟨S200000x1, .i1⟩
  | 93 => ⟨S_, .i32⟩
  | 94 => ⟨S_, .i32⟩
  | 95 => ⟨S200000x4, .i1⟩
  | 96 => ⟨S200000x4, .i32⟩
  | 97 => ⟨S200000x4, .i32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x1, .i32⟩
  | 121 => ⟨S200000x1, .i32⟩
  | 122 => ⟨S200000x3, .i32⟩
  | 123 => ⟨S200000x8, .f32⟩
  | 124 => ⟨S200000x1, .i1⟩
  | 125 => ⟨S_, .f32⟩
  | 126 => ⟨S_, .f32⟩
  | 127 => ⟨S200000x8, .i1⟩
  | _ => ⟨S4x8x2x4x480x640, .f32⟩

abbrev hbmTy0_2 (i : Nat) : BufTy := match i % 128 with
  | 0 => ⟨S200000x8, .f32⟩
  | 1 => ⟨S200000x8, .f32⟩
  | _ => ⟨S4x8x2x4x480x640, .f32⟩

abbrev hbmTy (i : Nat) : BufTy := match i / 128 with
  | 0 => hbmTy0_0 i
  | 1 => hbmTy0_1 i
  | 2 => hbmTy0_2 i
  | _ => ⟨S4x8x2x4x480x640, .f32⟩

abbrev bufTy : (tb : Table) → Fin (tcTables nBuf tb) → BufTy
  | .hbm, ⟨i, _⟩ => hbmTy i
  | .local _ .vmem, ⟨0, _⟩ => ⟨S1x8x480x640, .f32⟩
  | .local _ .vmem, ⟨1, _⟩ => ⟨S1x8x480x640, .f32⟩
  | .local _ .vmem, ⟨2, _⟩ => ⟨S1x480x640, .i32⟩
  | .local _ .vmem, ⟨3, _⟩ => ⟨S1x480x640, .i32⟩
  | _, _ => ⟨S4x8x2x4x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_call2_call0_c : Ref sig .tc := ⟨.hbm, 29, rfl⟩
abbrev main_call2_call0_v0 : Ref sig .tc := ⟨.hbm, 30, rfl⟩
abbrev main_v16 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v17 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v18 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v19 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v20 : Ref sig .tc := ⟨.hbm, 109, rfl⟩
abbrev main_c_9 : Ref sig .tc := ⟨.hbm, 110, rfl⟩
abbrev main_call7_v0 : Ref sig .tc := ⟨.hbm, 111, rfl⟩
abbrev main_call7_v1 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_v5 : Ref sig .tc := ⟨.hbm, 116, rfl⟩
abbrev main_call7_v6 : Ref sig .tc := ⟨.hbm, 117, rfl⟩
abbrev main_call7_v7 : Ref sig .tc := ⟨.hbm, 118, rfl⟩
abbrev main_call7_c : Ref sig .tc := ⟨.hbm, 119, rfl⟩
abbrev main_call7_v8 : Ref sig .tc := ⟨.hbm, 120, rfl⟩
abbrev main_call7_v9 : Ref sig .tc := ⟨.hbm, 121, rfl⟩
abbrev main_call7_v10 : Ref sig .tc := ⟨.hbm, 122, rfl⟩
abbrev main_call7_c_0 : Ref sig .tc := ⟨.hbm, 123, rfl⟩
abbrev main_call7_v11 : Ref sig .tc := ⟨.hbm, 124, rfl⟩
abbrev main_call7_v12 : Ref sig .tc := ⟨.hbm, 125, rfl⟩
abbrev main_v21 : Ref sig .tc := ⟨.hbm, 126, rfl⟩
abbrev main_c_10 : Ref sig .tc := ⟨.hbm, 127, rfl⟩
abbrev main_call8_v0 : Ref sig .tc := ⟨.hbm, 128, rfl⟩
abbrev main_call8_c : Ref sig .tc := ⟨.hbm, 129, rfl⟩
abbrev main_call8_v1 : Ref sig .tc := ⟨.hbm, 130, rfl⟩
abbrev main_call8_c_0 : Ref sig .tc := ⟨.hbm, 131, rfl⟩
abbrev main_call8_v2 : Ref sig .tc := ⟨.hbm, 132, rfl⟩
abbrev main_call8_v3 : Ref sig .tc := ⟨.hbm, 133, rfl⟩
abbrev main_call8_v4 : Ref sig .tc := ⟨.hbm, 134, rfl⟩
abbrev main_call8_c_1 : Ref sig .tc := ⟨.hbm, 135, rfl⟩
abbrev main_call8_v5 : Ref sig .tc := ⟨.hbm, 136, rfl⟩
abbrev main_call8_v6 : Ref sig .tc := ⟨.hbm, 137, rfl⟩
abbrev main_call8_c_2 : Ref sig .tc := ⟨.hbm, 138, rfl⟩
abbrev main_call8_v7 : Ref sig .tc := ⟨.hbm, 139, rfl⟩
abbrev main_call8_v8 : Ref sig .tc := ⟨.hbm, 140, rfl⟩
abbrev main_call8_c_3 : Ref sig .tc := ⟨.hbm, 141, rfl⟩
abbrev main_call8_v9 : Ref sig .tc := ⟨.hbm, 142, rfl⟩
abbrev main_call8_v10 : Ref sig .tc := ⟨.hbm, 143, rfl⟩
abbrev main_call8_v11 : Ref sig .tc := ⟨.hbm, 144, rfl⟩
abbrev main_call8_v12 : Ref sig .tc := ⟨.hbm, 145, rfl⟩
abbrev main_call8_v13 : Ref sig .tc := ⟨.hbm, 146, rfl⟩
abbrev main_call8_v14 : Ref sig .tc := ⟨.hbm, 147, rfl⟩
abbrev main_v22 : Ref sig .tc := ⟨.hbm, 148, rfl⟩
abbrev main_v23 : Ref sig .tc := ⟨.hbm, 149, rfl⟩
abbrev main_v24 : Ref sig .tc := ⟨.hbm, 150, rfl⟩
abbrev main_c_11 : Ref sig .tc := ⟨.hbm, 151, rfl⟩
abbrev main_v25 : Ref sig .tc := ⟨.hbm, 152, rfl⟩
abbrev main_v26 : Ref sig .tc := ⟨.hbm, 153, rfl⟩
abbrev main_v27 : Ref sig .tc := ⟨.hbm, 154, rfl⟩
abbrev main_c_12 : Ref sig .tc := ⟨.hbm, 155, rfl⟩
abbrev main_call9_v0 : Ref sig .tc := ⟨.hbm, 156, rfl⟩
abbrev main_call9_v1 : Ref sig .tc := ⟨.hbm, 157, rfl⟩
abbrev main_v28 : Ref sig .tc := ⟨.hbm, 158, rfl⟩
abbrev main_c_13 : Ref sig .tc := ⟨.hbm, 159, rfl⟩
abbrev main_call10_v0 : Ref sig .tc := ⟨.hbm, 160, rfl⟩
abbrev main_call10_v1 : Ref sig .tc := ⟨.hbm, 161, rfl⟩
abbrev main_v29 : Ref sig .tc := ⟨.hbm, 162, rfl⟩
abbrev main_c_14 : Ref sig .tc := ⟨.hbm, 163, rfl⟩
abbrev main_call11_v0 : Ref sig .tc := ⟨.hbm, 164, rfl⟩
abbrev main_call11_v1 : Ref sig .tc := ⟨.hbm, 165, rfl⟩
abbrev main_v30 : Ref sig .tc := ⟨.hbm, 166, rfl⟩
abbrev main_v31 : Ref sig .tc := ⟨.hbm, 167, rfl⟩
abbrev main_c_15 : Ref sig .tc := ⟨.hbm, 168, rfl⟩
abbrev main_v32 : Ref sig .tc := ⟨.hbm, 169, rfl⟩
abbrev main_c_16 : Ref sig .tc := ⟨.hbm, 170, rfl⟩
abbrev main_v33 : Ref sig .tc := ⟨.hbm, 171, rfl⟩
abbrev main_v34 : Ref sig .tc := ⟨.hbm, 172, rfl⟩
abbrev main_v35 : Ref sig .tc := ⟨.hbm, 173, rfl⟩
abbrev main_v36 : Ref sig .tc := ⟨.hbm, 174, rfl⟩
abbrev main_c_17 : Ref sig .tc := ⟨.hbm, 175, rfl⟩
abbrev main_call12_v0 : Ref sig .tc := ⟨.hbm, 176, rfl⟩
abbrev main_call12_v1 : Ref sig .tc := ⟨.hbm, 177, rfl⟩
abbrev main_call12_v2 : Ref sig .tc := ⟨.hbm, 178, rfl⟩
abbrev main_call12_v3 : Ref sig .tc := ⟨.hbm, 179, rfl⟩
abbrev main_call12_v4 : Ref sig .tc := ⟨.hbm, 180, rfl⟩
abbrev main_call12_v5 : Ref sig .tc := ⟨.hbm, 181, rfl⟩
abbrev main_call12_v6 : Ref sig .tc := ⟨.hbm, 182, rfl⟩
abbrev main_call12_v7 : Ref sig .tc := ⟨.hbm, 183, rfl⟩
abbrev main_call12_v8 : Ref sig .tc := ⟨.hbm, 184, rfl⟩
abbrev main_call12_c : Ref sig .tc := ⟨.hbm, 185, rfl⟩
abbrev main_call12_v9 : Ref sig .tc := ⟨.hbm, 186, rfl⟩
abbrev main_call12_v10 : Ref sig .tc := ⟨.hbm, 187, rfl⟩
abbrev main_call12_v11 : Ref sig .tc := ⟨.hbm, 188, rfl⟩
abbrev main_call12_c_0 : Ref sig .tc := ⟨.hbm, 189, rfl⟩
abbrev main_call12_v12 : Ref sig .tc := ⟨.hbm, 190, rfl⟩
abbrev main_call12_v13 : Ref sig .tc := ⟨.hbm, 191, rfl⟩
abbrev main_v37 : Ref sig .tc := ⟨.hbm, 192, rfl⟩
abbrev main_c_18 : Ref sig .tc := ⟨.hbm, 193, rfl⟩
abbrev main_call13_v0 : Ref sig .tc := ⟨.hbm, 194, rfl⟩
abbrev main_call13_c : Ref sig .tc := ⟨.hbm, 195, rfl⟩
abbrev main_call13_v1 : Ref sig .tc := ⟨.hbm, 196, rfl⟩
abbrev main_call13_c_0 : Ref sig .tc := ⟨.hbm, 197, rfl⟩
abbrev main_call13_v2 : Ref sig .tc := ⟨.hbm, 198, rfl⟩
abbrev main_call13_v3 : Ref sig .tc := ⟨.hbm, 199, rfl⟩
abbrev main_call13_v4 : Ref sig .tc := ⟨.hbm, 200, rfl⟩
abbrev main_call13_c_1 : Ref sig .tc := ⟨.hbm, 201, rfl⟩
abbrev main_call13_v5 : Ref sig .tc := ⟨.hbm, 202, rfl⟩
abbrev main_call13_v6 : Ref sig .tc := ⟨.hbm, 203, rfl⟩
abbrev main_call13_c_2 : Ref sig .tc := ⟨.hbm, 204, rfl⟩
abbrev main_call13_v7 : Ref sig .tc := ⟨.hbm, 205, rfl⟩
abbrev main_call13_v8 : Ref sig .tc := ⟨.hbm, 206, rfl⟩
abbrev main_call13_c_3 : Ref sig .tc := ⟨.hbm, 207, rfl⟩
abbrev main_call13_v9 : Ref sig .tc := ⟨.hbm, 208, rfl⟩
abbrev main_call13_v10 : Ref sig .tc := ⟨.hbm, 209, rfl⟩
abbrev main_call13_v11 : Ref sig .tc := ⟨.hbm, 210, rfl⟩
abbrev main_call13_v12 : Ref sig .tc := ⟨.hbm, 211, rfl⟩
abbrev main_call13_v13 : Ref sig .tc := ⟨.hbm, 212, rfl⟩
abbrev main_call13_v14 : Ref sig .tc := ⟨.hbm, 213, rfl⟩
abbrev main_v38 : Ref sig .tc := ⟨.hbm, 214, rfl⟩
abbrev main_v39 : Ref sig .tc := ⟨.hbm, 215, rfl⟩
abbrev main_v40 : Ref sig .tc := ⟨.hbm, 216, rfl⟩
abbrev main_v41 : Ref sig .tc := ⟨.hbm, 217, rfl⟩
abbrev main_v42 : Ref sig .tc := ⟨.hbm, 218, rfl⟩
abbrev main_v43 : Ref sig .tc := ⟨.hbm, 219, rfl⟩
abbrev main_v44 : Ref sig .tc := ⟨.hbm, 220, rfl⟩
abbrev main_c_19 : Ref sig .tc := ⟨.hbm, 221, rfl⟩
abbrev main_call14_v0 : Ref sig .tc := ⟨.hbm, 222, rfl⟩
abbrev main_call14_v1 : Ref sig .tc := ⟨.hbm, 223, rfl⟩
abbrev main_call14_v2 : Ref sig .tc := ⟨.hbm, 224, rfl⟩
abbrev main_v45 : Ref sig .tc := ⟨.hbm, 225, rfl⟩
abbrev main_c_20 : Ref sig .tc := ⟨.hbm, 226, rfl⟩
abbrev main_v46 : Ref sig .tc := ⟨.hbm, 227, rfl⟩
abbrev main_v47 : Ref sig .tc := ⟨.hbm, 228, rfl⟩
abbrev main_c_21 : Ref sig .tc := ⟨.hbm, 229, rfl⟩
abbrev main_v48 : Ref sig .tc := ⟨.hbm, 230, rfl⟩
abbrev main_v49 : Ref sig .tc := ⟨.hbm, 231, rfl⟩
abbrev main_v50 : Ref sig .tc := ⟨.hbm, 232, rfl⟩
abbrev main_c_22 : Ref sig .tc := ⟨.hbm, 233, rfl⟩
abbrev main_v51 : Ref sig .tc := ⟨.hbm, 234, rfl⟩
abbrev main_v52 : Ref sig .tc := ⟨.hbm, 235, rfl⟩
abbrev main_c_23 : Ref sig .tc := ⟨.hbm, 236, rfl⟩
abbrev main_v53 : Ref sig .tc := ⟨.hbm, 237, rfl⟩
abbrev main_v54 : Ref sig .tc := ⟨.hbm, 238, rfl⟩
abbrev main_v55 : Ref sig .tc := ⟨.hbm, 239, rfl⟩
abbrev main_c_24 : Ref sig .tc := ⟨.hbm, 240, rfl⟩
abbrev main_v56 : Ref sig .tc := ⟨.hbm, 241, rfl⟩
abbrev main_v57 : Ref sig .tc := ⟨.hbm, 242, rfl⟩
abbrev main_c_25 : Ref sig .tc := ⟨.hbm, 243, rfl⟩
abbrev main_v58 : Ref sig .tc := ⟨.hbm, 244, rfl⟩
abbrev main_v59 : Ref sig .tc := ⟨.hbm, 245, rfl⟩
abbrev main_v60 : Ref sig .tc := ⟨.hbm, 246, rfl⟩
abbrev main_v61 : Ref sig .tc := ⟨.hbm, 247, rfl⟩
abbrev main_v62 : Ref sig .tc := ⟨.hbm, 248, rfl⟩
abbrev main_v63 : Ref sig .tc := ⟨.hbm, 249, rfl⟩
abbrev main_v64 : Ref sig .tc := ⟨.hbm, 250, rfl⟩
abbrev main_v65 : Ref sig .tc := ⟨.hbm, 251, rfl⟩
abbrev main_v66 : Ref sig .tc := ⟨.hbm, 252, rfl⟩
abbrev main_cst : Ref sig .tc := ⟨.hbm, 253, rfl⟩
abbrev main_call15_v0 : Ref sig .tc := ⟨.hbm, 254, rfl⟩
abbrev main_call15_v1 : Ref sig .tc := ⟨.hbm, 255, rfl⟩
abbrev main_call15_v2 : Ref sig .tc := ⟨.hbm, 256, rfl⟩
abbrev main_v67 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x480x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x480x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x8x2x4x480x640_S32x8x480x640 : S4x8x2x4x480x640.ShapeCasts S32x8x480x640
  inb_S1x8x480x640_S1x8x480x640_0_0_0_0 : ∀ a, (![0, 0, 0, 0] : Fin 4 → Nat) a + S1x8x480x640.size a ≤ S1x8x480x640.size a
  h_S1x8x480x640 : 0 < S1x8x480x640.numel
  shapeCasts_S1x8x480x640_S1x8x480x640 : S1x8x480x640.ShapeCasts S1x8x480x640
  reduces_S1x8x480x640_S1x480x640 : S1x8x480x640.Reduces [1] S1x480x640
  natLt_1_32 : 1 < 32
  inb_S1x480x640_S1x480x640_0_0_0 : ∀ a, (![0, 0, 0] : Fin 3 → Nat) a + S1x480x640.size a ≤ S1x480x640.size a
  h_S1x480x640 : 0 < S1x480x640.numel
  bcast_S_S32x480x640 : S_.BroadcastsInDim S32x480x640 (![] : Fin 0 → Fin S32x480x640.rank)
  shapeCasts_S32x480x640_S9830400 : S32x480x640.ShapeCasts S9830400
  bcast_S_S_ : S_.BroadcastsInDim S_ (![] : Fin 0 → Fin S_.rank)
  reduceWindows_S9830400_S9830400_w9830400s1p9830399_0 : S9830400.ReduceWindows (![9830400] : Fin 1 → Nat) ![1] ![9830399] ![0] S9830400
  h_S_ : 0 < S_.numel
  bcast_S_S200000 : S_.BroadcastsInDim S200000 (![] : Fin 0 → Fin S200000.rank)
  bcast_S_S9830400 : S_.BroadcastsInDim S9830400 (![] : Fin 0 → Fin S9830400.rank)
  bcast_S9830400_S9830400x1_0 : S9830400.BroadcastsInDim S9830400x1 (![0] : Fin 1 → Fin S9830400x1.rank)
  reduceWindows_S200000_S200000_w200000s1p199999_0 : S200000.ReduceWindows (![200000] : Fin 1 → Nat) ![1] ![199999] ![0] S200000
  reducesTo_S32x480x640_S_d0_1_2 : S32x480x640.ReducesTo [0, 1, 2] S_
  bcast_S200000_S200000x1_0 : S200000.BroadcastsInDim S200000x1 (![0] : Fin 1 → Fin S200000x1.rank)
  concatenates_S200000x1_S200000x1_S200000x1_S200000x1_S200000x4_d1 : Shape.Concatenates [S200000x1, S200000x1, S200000x1, S200000x1] S200000x4 1
  bcast_S200000x1_S200000x4_0_1 : S200000x1.BroadcastsInDim S200000x4 (![0, 1] : Fin 2 → Fin S200000x4.rank)
  bcast_S_S200000x4 : S_.BroadcastsInDim S200000x4 (![] : Fin 0 → Fin S200000x4.rank)
  concatenates_S200000x1_S200000x1_S200000x1_S200000x3_d1 : Shape.Concatenates [S200000x1, S200000x1, S200000x1] S200000x3 1
  bcast_S200000x1_S200000x8_0_1 : S200000x1.BroadcastsInDim S200000x8 (![0, 1] : Fin 2 → Fin S200000x8.rank)
  bcast_S_S200000x8 : S_.BroadcastsInDim S200000x8 (![] : Fin 0 → Fin S200000x8.rank)
  scatter_S200000_S9830400x1_S9830400_n_0_0_1_wf : ScatterDims.WF S200000 S9830400x1 S9830400 [] [0] [0] 1
  gather_S32x8x480x640_S200000x3_S200000x8_1_023_n_n_023_1_1811_wf : GatherDims.WF S32x8x480x640 S200000x3 S200000x8 [1] [0, 2, 3] [] [0, 2, 3] [] 1 ![1, 8, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x480x640.size a ≤ S32x8x480x640.size a
  hwx0_0 : ∀ i : grid0.Coords, EltTy.bits .f32 = 32 ∨ (Rect.block (s := S32x8x480x640) S1x8x480x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x480x640.size a ≤ S32x480x640.size a
  hwx0_1 : ∀ i : grid0.Coords, EltTy.bits .i32 = 32 ∨ (Rect.block (s := S32x480x640) S1x480x640.size (cc0_transform_1 i) (hinb0_1 i)).WholeWords (EltTy.packing .i32)

variable [Facts₀]

def scatter_S200000_S9830400x1_S9830400_n_0_0_1 : ScatterDims S200000 S9830400x1 S9830400 where
  updateWindowDims := []
  insertedWindowDims := [0]
  scatterDimsToOperandDims := [0]
  indexVectorDim := 1
  wf := scatter_S200000_S9830400x1_S9830400_n_0_0_1_wf
def gather_S32x8x480x640_S200000x3_S200000x8_1_023_n_n_023_1_1811 : GatherDims S32x8x480x640 S200000x3 S200000x8 where
  offsetDims := [1]
  collapsedSliceDims := [0, 2, 3]
  operandBatchingDims := []
  startIndicesBatchingDims := []
  startIndexMap := [0, 2, 3]
  indexVectorDim := 1
  sliceSizes := ![1, 8, 1, 1]
  wf := gather_S32x8x480x640_S200000x3_S200000x8_1_023_n_n_023_1_1811_wf

abbrev win0_0 : Pipeline.Window sig grid0 :=
  Pipeline.Window.ofSpec (Memref.whole main_v0) S1x8x480x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x480x640.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8x2x4x480x640 : Shape := ⟨6, ![4, 8, 2, 4, 480, 640]⟩
abbrev S32x8x480x640 : Shape := ⟨4, ![32, 8, 480, 640]⟩
abbrev S_ : Shape := ⟨0, ![]⟩
abbrev S32x480x640 : Shape := ⟨3, ![32, 480, 640]⟩
abbrev S9830400 : Shape := ⟨1, ![9830400]⟩
abbrev S200000 : Shape := ⟨1, ![200000]⟩
abbrev S9830400x1 : Shape := ⟨2, ![9830400, 1]⟩
abbrev S200000x1 : Shape := ⟨2, ![200000, 1]⟩
abbrev S200000x4 : Shape := ⟨2, ![200000, 4]⟩
abbrev S200000x3 : Shape := ⟨2, ![200000, 3]⟩
abbrev S200000x8 : Shape := ⟨2, ![200000, 8]⟩

abbrev nBuf : Space → Nat
  | .hbm => 259
  | .vmem => 0
  | .smem => 0
  | _ => 0

abbrev hbmTy0_0 (i : Nat) : BufTy := match i % 128 with
  | 0 => ⟨S4x8x2x4x480x640, .f32⟩
  | 1 => ⟨S32x8x480x640, .f32⟩
  | 2 => ⟨S32x8x480x640, .f32⟩
  | 3 => ⟨S_, .f32⟩
  | 4 => ⟨S32x480x640, .f32⟩
  | 5 => ⟨S_, .f32⟩
  | 6 => ⟨S32x480x640, .f32⟩
  | 7 => ⟨S32x480x640, .i1⟩
  | 8 => ⟨S9830400, .i1⟩
  | 9 => ⟨S9830400, .i32⟩
  | 10 => ⟨S_, .i32⟩
  | 11 => ⟨S_, .i32⟩
  | 12 => ⟨S9830400, .i32⟩
  | 13 => ⟨S_, .i32⟩
  | 14 => ⟨S200000, .i32⟩
  | 15 => ⟨S_, .i32⟩
  | 16 => ⟨S_, .i32⟩
  | 17 => ⟨S9830400, .i32⟩
  | 18 => ⟨S9830400, .i32⟩
  | 19 => ⟨S_, .i32⟩
  | 20 => ⟨S9830400, .i32⟩
  | 21 => ⟨S9830400, .i1⟩
  | 22 => ⟨S_, .i32⟩
  | 23 => ⟨S9830400, .i32⟩
  | 24 => ⟨S9830400, .i32⟩
  | 25 => ⟨S9830400, .i32⟩
  | 26 => ⟨S9830400x1, .i32⟩
  | 27 => ⟨S_, .i32⟩
  | 28 => ⟨S9830400, .i32⟩
  | 29 => ⟨S200000, .i32⟩
  | 30 => ⟨S_, .i32⟩
  | 31 => ⟨S_, .i32⟩
  | 32 => ⟨S200000, .i32⟩
  | 33 => ⟨S_, .i32⟩
  | 34 => ⟨S200000, .i32⟩
  | 35 => ⟨S200000, .i32⟩
  | 36 => ⟨S200000, .i32⟩
  | 37 => ⟨S_, .i32⟩
  | 38 => ⟨S200000, .i32⟩
  | 39 => ⟨S200000, .i1⟩
  | 40 => ⟨S200000, .i32⟩
  | 41 => ⟨S200000, .i32⟩
  | 42 => ⟨S_, .i32⟩
  | 43 => ⟨S200000, .i32⟩
  | 44 => ⟨S200000, .i1⟩
  | 45 => ⟨S200000, .i1⟩
  | 46 => ⟨S_, .i32⟩
  | 47 => ⟨S200000, .i32⟩
  | 48 => ⟨S200000, .i32⟩
  | 49 => ⟨S200000, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S200000, .i32⟩
  | 57 => ⟨S200000, .i32⟩
  | 58 => ⟨S_, .i32⟩
  | 59 => ⟨S200000, .i32⟩
  | 60 => ⟨S200000, .i1⟩
  | 61 => ⟨S_, .i32⟩
  | 62 => ⟨S200000, .i32⟩
  | 63 => ⟨S200000, .i1⟩
  | 64 => ⟨S_, .i32⟩
  | 65 => ⟨S_, .i1⟩
  | 66 => ⟨S200000, .i1⟩
  | 67 => ⟨S200000, .i1⟩
  | 68 => ⟨S200000, .i1⟩
  | 69 => ⟨S200000, .i32⟩
  | 70 => ⟨S200000, .i32⟩
  | 71 => ⟨S200000, .i32⟩
  | 72 => ⟨S_, .i32⟩
  | 73 => ⟨S200000, .i32⟩
  | 74 => ⟨S200000, .i32⟩
  | 75 => ⟨S200000, .i32⟩
  | 76 => ⟨S_, .i32⟩
  | 77 => ⟨S200000, .i32⟩
  | 78 => ⟨S200000, .i1⟩
  | 79 => ⟨S200000, .i32⟩
  | 80 => ⟨S200000, .i32⟩
  | 81 => ⟨S_, .i32⟩
  | 82 => ⟨S200000, .i32⟩
  | 83 => ⟨S200000, .i1⟩
  | 84 => ⟨S200000, .i1⟩
  | 85 => ⟨S_, .i32⟩
  | 86 => ⟨S200000, .i32⟩
  | 87 => ⟨S200000, .i32⟩
  | 88 => ⟨S200000, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S200000, .i32⟩
  | 96 => ⟨S200000, .i32⟩
  | 97 => ⟨S_, .i32⟩
  | 98 => ⟨S200000, .i32⟩
  | 99 => ⟨S200000, .i1⟩
  | 100 => ⟨S_, .i32⟩
  | 101 => ⟨S200000, .i32⟩
  | 102 => ⟨S200000, .i1⟩
  | 103 => ⟨S_, .i32⟩
  | 104 => ⟨S_, .i1⟩
  | 105 => ⟨S200000, .i1⟩
  | 106 => ⟨S200000, .i1⟩
  | 107 => ⟨S200000, .i1⟩
  | 108 => ⟨S200000, .i32⟩
  | 109 => ⟨S200000, .i32⟩
  | 110 => ⟨S200000, .i32⟩
  | 111 => ⟨S_, .i32⟩
  | 112 => ⟨S200000, .i32⟩
  | 113 => ⟨S200000, .i32⟩
  | 114 => ⟨S200000, .i32⟩
  | 115 => ⟨S_, .i32⟩
  | 116 => ⟨S200000, .i32⟩
  | 117 => ⟨S200000, .i1⟩
  | 118 => ⟨S200000, .i32⟩
  | 119 => ⟨S200000, .i32⟩
  | 120 => ⟨S_, .i32⟩
  | 121 => ⟨S200000, .i32⟩
  | 122 => ⟨S200000, .i1⟩
  | 123 => ⟨S200000, .i1⟩
  | 124 => ⟨S_, .i32⟩
  | 125 => ⟨S200000, .i32⟩
  | 126 => ⟨S200000, .i32⟩
  | 127 => ⟨S200000, .i32⟩
  | _ => ⟨S4x8x2x4x480x640, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S200000, .i32⟩
  | 7 => ⟨S200000, .i32⟩
  | 8 => ⟨S_, .i32⟩
  | 9 => ⟨S200000, .i32⟩
  | 10 => ⟨S200000, .i1⟩
  | 11 => ⟨S_, .i32⟩
  | 12 => ⟨S200000, .i32⟩
  | 13 => ⟨S200000, .i1⟩
  | 14 => ⟨S_, .i32⟩
  | 15 => ⟨S_, .i1⟩
  | 16 => ⟨S200000, .i1⟩
  | 17 => ⟨S200000, .i1⟩
  | 18 => ⟨S200000, .i1⟩
  | 19 => ⟨S200000, .i32⟩
  | 20 => ⟨S200000, .i32⟩
  | 21 => ⟨S200000, .i32⟩
  | 22 => ⟨S200000, .i32⟩
  | 23 => ⟨S32x480x640, .i32⟩
  | 24 => ⟨S_, .i32⟩
  | 25 => ⟨S_, .i32⟩
  | 26 => ⟨S200000, .i32⟩
  | 27 => ⟨S200000, .i1⟩
  | 28 => ⟨S_, .i32⟩
  | 29 => ⟨S_, .i32⟩
  | 30 => ⟨S200000, .i32⟩
  | 31 => ⟨S200000, .i32⟩
  | 32 => ⟨S_, .i32⟩
  | 33 => ⟨S_, .i32⟩
  | 34 => ⟨S200000, .i32⟩
  | 35 => ⟨S200000, .i32⟩
  | 36 => ⟨S_, .i32⟩
  | 37 => ⟨S_, .i32⟩
  | 38 => ⟨S200000, .i32⟩
  | 39 => ⟨S200000, .i32⟩
  | 40 => ⟨S32x480x640, .i32⟩
  | 41 => ⟨S_, .i32⟩
  | 42 => ⟨S_, .i32⟩
  | 43 => ⟨S_, .i32⟩
  | 44 => ⟨S_, .i32⟩
  | 45 => ⟨S200000, .i32⟩
  | 46 => ⟨S200000, .i32⟩
  | 47 => ⟨S200000, .i1⟩
  | 48 => ⟨S_, .i32⟩
  | 49 => ⟨S_, .i32⟩
  | 50 => ⟨S200000, .i32⟩
  | 51 => ⟨S200000, .i32⟩
  | 52 => ⟨S200000, .i32⟩
  | 53 => ⟨S_, .i32⟩
  | 54 => ⟨S200000, .i32⟩
  | 55 => ⟨S200000, .i1⟩
  | 56 => ⟨S200000, .i32⟩
  | 57 => ⟨S200000, .i32⟩
  | 58 => ⟨S_, .i32⟩
  | 59 => ⟨S200000, .i32⟩
  | 60 => ⟨S200000, .i1⟩
  | 61 => ⟨S200000, .i1⟩
  | 62 => ⟨S_, .i32⟩
  | 63 => ⟨S200000, .i32⟩
  | 64 => ⟨S200000, .i32⟩
  | 65 => ⟨S200000, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S200000, .i32⟩
  | 73 => ⟨S200000, .i32⟩
  | 74 => ⟨S_, .i32⟩
  | 75 => ⟨S200000, .i32⟩
  | 76 => ⟨S200000, .i1⟩
  | 77 => ⟨S_, .i32⟩
  | 78 => ⟨S200000, .i32⟩
  | 79 => ⟨S200000, .i1⟩
  | 80 => ⟨S_, .i32⟩
  | 81 => ⟨S_, .i1⟩
  | 82 => ⟨S200000, .i1⟩
  | 83 => ⟨S200000, .i1⟩
  | 84 => ⟨S200000, .i1⟩
  | 85 => ⟨S200000, .i32⟩
  | 86 => ⟨S200000, .i32⟩
  | 87 => ⟨S200000, .i32⟩
  | 88 => ⟨S200000x1, .i32⟩
  | 89 => ⟨S200000x1, .i32⟩
  | 90 => ⟨S200000x1, .i32⟩
  | 91 => ⟨S200000x1, .i32⟩
  | 92 => ⟨S200000x4, .i32⟩
  | 93 => ⟨S200000x1, .i1⟩
  | 94 => ⟨S_, .i32⟩
  | 95 => ⟨S_, .i32⟩
  | 96 => ⟨S200000x4, .i1⟩
  | 97 => ⟨S200000x4, .i32⟩
  | 98 => ⟨S200000x4, .i32⟩
  | 99 => ⟨S_, .i32⟩
  | 100 => ⟨S200000, .i32⟩
  | 101 => ⟨S200000, .i1⟩
  | 102 => ⟨S_, .i32⟩
  | 103 => ⟨S200000, .i32⟩
  | 104 => ⟨S200000, .i32⟩
  | 105 => ⟨S200000, .i32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x1, .i32⟩
  | 122 => ⟨S200000x1, .i32⟩
  | 123 => ⟨S200000x3, .i32⟩
  | 124 => ⟨S200000x8, .f32⟩
  | 125 => ⟨S200000x1, .i1⟩
  | 126 => ⟨S_, .f32⟩
  | 127 => ⟨S_, .f32⟩
  | _ => ⟨S4x8x2x4x480x640, .f32⟩

abbrev hbmTy0_2 (i : Nat) : BufTy := match i % 128 with
  | 0 => ⟨S200000x8, .i1⟩
  | 1 => ⟨S200000x8, .f32⟩
  | 2 => ⟨S200000x8, .f32⟩
  | _ => ⟨S4x8x2x4x480x640, .f32⟩

abbrev hbmTy (i : Nat) : BufTy := match i / 128 with
  | 0 => hbmTy0_0 i
  | 1 => hbmTy0_1 i
  | 2 => hbmTy0_2 i
  | _ => ⟨S4x8x2x4x480x640, .f32⟩

abbrev bufTy : (tb : Table) → Fin (tcTables nBuf tb) → BufTy
  | .hbm, ⟨i, _⟩ => hbmTy i
  | _, _ => ⟨S4x8x2x4x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_call2_call0_c : Ref sig .tc := ⟨.hbm, 30, rfl⟩
abbrev main_call2_call0_v0 : Ref sig .tc := ⟨.hbm, 31, rfl⟩
abbrev main_v16 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v17 : Ref sig .tc := ⟨.hbm, 49, rfl⟩
abbrev main_c_6 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v18 : Ref sig .tc := ⟨.hbm, 71, rfl⟩
abbrev main_c_7 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_v6 : Ref sig .tc := ⟨.hbm, 79, rfl⟩
abbrev main_call5_v7 : Ref sig .tc := ⟨.hbm, 80, rfl⟩
abbrev main_call5_c : Ref sig .tc := ⟨.hbm, 81, rfl⟩
abbrev main_call5_v8 : Ref sig .tc := ⟨.hbm, 82, rfl⟩
abbrev main_call5_v9 : Ref sig .tc := ⟨.hbm, 83, rfl⟩
abbrev main_call5_v10 : Ref sig .tc := ⟨.hbm, 84, rfl⟩
abbrev main_call5_c_0 : Ref sig .tc := ⟨.hbm, 85, rfl⟩
abbrev main_call5_v11 : Ref sig .tc := ⟨.hbm, 86, rfl⟩
abbrev main_call5_v12 : Ref sig .tc := ⟨.hbm, 87, rfl⟩
abbrev main_v19 : Ref sig .tc := ⟨.hbm, 88, rfl⟩
abbrev main_c_8 : Ref sig .tc := ⟨.hbm, 89, rfl⟩
abbrev main_call6_v0 : Ref sig .tc := ⟨.hbm, 90, rfl⟩
abbrev main_call6_c : Ref sig .tc := ⟨.hbm, 91, rfl⟩
abbrev main_call6_v1 : Ref sig .tc := ⟨.hbm, 92, rfl⟩
abbrev main_call6_c_0 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_c_1 : Ref sig .tc := ⟨.hbm, 97, rfl⟩
abbrev main_call6_v5 : Ref sig .tc := ⟨.hbm, 98, rfl⟩
abbrev main_call6_v6 : Ref sig .tc := ⟨.hbm, 99, rfl⟩
abbrev main_call6_c_2 : Ref sig .tc := ⟨.hbm, 100, rfl⟩
abbrev main_call6_v7 : Ref sig .tc := ⟨.hbm, 101, rfl⟩
abbrev main_call6_v8 : Ref sig .tc := ⟨.hbm, 102, rfl⟩
abbrev main_call6_c_3 : Ref sig .tc := ⟨.hbm, 103, rfl⟩
abbrev main_call6_v9 : Ref sig .tc := ⟨.hbm, 104, rfl⟩
abbrev main_call6_v10 : Ref sig .tc := ⟨.hbm, 105, rfl⟩
abbrev main_call6_v11 : Ref sig .tc := ⟨.hbm, 106, rfl⟩
abbrev main_call6_v12 : Ref sig .tc := ⟨.hbm, 107, rfl⟩
abbrev main_call6_v13 : Ref sig .tc := ⟨.hbm, 108, rfl⟩
abbrev main_call6_v14 : Ref sig .tc := ⟨.hbm, 109, rfl⟩
abbrev main_v20 : Ref sig .tc := ⟨.hbm, 110, rfl⟩
abbrev main_c_9 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_v5 : Ref sig .tc := ⟨.hbm, 117, rfl⟩
abbrev main_call7_v6 : Ref sig .tc := ⟨.hbm, 118, rfl⟩
abbrev main_call7_v7 : Ref sig .tc := ⟨.hbm, 119, rfl⟩
abbrev main_call7_c : Ref sig .tc := ⟨.hbm, 120, rfl⟩
abbrev main_call7_v8 : Ref sig .tc := ⟨.hbm, 121, rfl⟩
abbrev main_call7_v9 : Ref sig .tc := ⟨.hbm, 122, rfl⟩
abbrev main_call7_v10 : Ref sig .tc := ⟨.hbm, 123, rfl⟩
abbrev main_call7_c_0 : Ref sig .tc := ⟨.hbm, 124, rfl⟩
abbrev main_call7_v11 : Ref sig .tc := ⟨.hbm, 125, rfl⟩
abbrev main_call7_v12 : Ref sig .tc := ⟨.hbm, 126, rfl⟩
abbrev main_v21 : Ref sig .tc := ⟨.hbm, 127, rfl⟩
abbrev main_c_10 : Ref sig .tc := ⟨.hbm, 128, rfl⟩
abbrev main_call8_v0 : Ref sig .tc := ⟨.hbm, 129, rfl⟩
abbrev main_call8_c : Ref sig .tc := ⟨.hbm, 130, rfl⟩
abbrev main_call8_v1 : Ref sig .tc := ⟨.hbm, 131, rfl⟩
abbrev main_call8_c_0 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_call8_c_1 : Ref sig .tc := ⟨.hbm, 136, rfl⟩
abbrev main_call8_v5 : Ref sig .tc := ⟨.hbm, 137, rfl⟩
abbrev main_call8_v6 : Ref sig .tc := ⟨.hbm, 138, rfl⟩
abbrev main_call8_c_2 : Ref sig .tc := ⟨.hbm, 139, rfl⟩
abbrev main_call8_v7 : Ref sig .tc := ⟨.hbm, 140, rfl⟩
abbrev main_call8_v8 : Ref sig .tc := ⟨.hbm, 141, rfl⟩
abbrev main_call8_c_3 : Ref sig .tc := ⟨.hbm, 142, rfl⟩
abbrev main_call8_v9 : Ref sig .tc := ⟨.hbm, 143, rfl⟩
abbrev main_call8_v10 : Ref sig .tc := ⟨.hbm, 144, rfl⟩
abbrev main_call8_v11 : Ref sig .tc := ⟨.hbm, 145, rfl⟩
abbrev main_call8_v12 : Ref sig .tc := ⟨.hbm, 146, rfl⟩
abbrev main_call8_v13 : Ref sig .tc := ⟨.hbm, 147, rfl⟩
abbrev main_call8_v14 : Ref sig .tc := ⟨.hbm, 148, rfl⟩
abbrev main_v22 : Ref sig .tc := ⟨.hbm, 149, rfl⟩
abbrev main_v23 : Ref sig .tc := ⟨.hbm, 150, rfl⟩
abbrev main_v24 : Ref sig .tc := ⟨.hbm, 151, rfl⟩
abbrev main_c_11 : Ref sig .tc := ⟨.hbm, 152, rfl⟩
abbrev main_v25 : Ref sig .tc := ⟨.hbm, 153, rfl⟩
abbrev main_v26 : Ref sig .tc := ⟨.hbm, 154, rfl⟩
abbrev main_v27 : Ref sig .tc := ⟨.hbm, 155, rfl⟩
abbrev main_c_12 : Ref sig .tc := ⟨.hbm, 156, rfl⟩
abbrev main_call9_v0 : Ref sig .tc := ⟨.hbm, 157, rfl⟩
abbrev main_call9_v1 : Ref sig .tc := ⟨.hbm, 158, rfl⟩
abbrev main_v28 : Ref sig .tc := ⟨.hbm, 159, rfl⟩
abbrev main_c_13 : Ref sig .tc := ⟨.hbm, 160, rfl⟩
abbrev main_call10_v0 : Ref sig .tc := ⟨.hbm, 161, rfl⟩
abbrev main_call10_v1 : Ref sig .tc := ⟨.hbm, 162, rfl⟩
abbrev main_v29 : Ref sig .tc := ⟨.hbm, 163, rfl⟩
abbrev main_c_14 : Ref sig .tc := ⟨.hbm, 164, rfl⟩
abbrev main_call11_v0 : Ref sig .tc := ⟨.hbm, 165, rfl⟩
abbrev main_call11_v1 : Ref sig .tc := ⟨.hbm, 166, rfl⟩
abbrev main_v30 : Ref sig .tc := ⟨.hbm, 167, rfl⟩
abbrev main_v31 : Ref sig .tc := ⟨.hbm, 168, rfl⟩
abbrev main_c_15 : Ref sig .tc := ⟨.hbm, 169, rfl⟩
abbrev main_v32 : Ref sig .tc := ⟨.hbm, 170, rfl⟩
abbrev main_c_16 : Ref sig .tc := ⟨.hbm, 171, rfl⟩
abbrev main_v33 : Ref sig .tc := ⟨.hbm, 172, rfl⟩
abbrev main_v34 : Ref sig .tc := ⟨.hbm, 173, rfl⟩
abbrev main_v35 : Ref sig .tc := ⟨.hbm, 174, rfl⟩
abbrev main_v36 : Ref sig .tc := ⟨.hbm, 175, rfl⟩
abbrev main_c_17 : Ref sig .tc := ⟨.hbm, 176, rfl⟩
abbrev main_call12_v0 : Ref sig .tc := ⟨.hbm, 177, rfl⟩
abbrev main_call12_v1 : Ref sig .tc := ⟨.hbm, 178, rfl⟩
abbrev main_call12_v2 : Ref sig .tc := ⟨.hbm, 179, rfl⟩
abbrev main_call12_v3 : Ref sig .tc := ⟨.hbm, 180, rfl⟩
abbrev main_call12_v4 : Ref sig .tc := ⟨.hbm, 181, rfl⟩
abbrev main_call12_v5 : Ref sig .tc := ⟨.hbm, 182, rfl⟩
abbrev main_call12_v6 : Ref sig .tc := ⟨.hbm, 183, rfl⟩
abbrev main_call12_v7 : Ref sig .tc := ⟨.hbm, 184, rfl⟩
abbrev main_call12_v8 : Ref sig .tc := ⟨.hbm, 185, rfl⟩
abbrev main_call12_c : Ref sig .tc := ⟨.hbm, 186, rfl⟩
abbrev main_call12_v9 : Ref sig .tc := ⟨.hbm, 187, rfl⟩
abbrev main_call12_v10 : Ref sig .tc := ⟨.hbm, 188, rfl⟩
abbrev main_call12_v11 : Ref sig .tc := ⟨.hbm, 189, rfl⟩
abbrev main_call12_c_0 : Ref sig .tc := ⟨.hbm, 190, rfl⟩
abbrev main_call12_v12 : Ref sig .tc := ⟨.hbm, 191, rfl⟩
abbrev main_call12_v13 : Ref sig .tc := ⟨.hbm, 192, rfl⟩
abbrev main_v37 : Ref sig .tc := ⟨.hbm, 193, rfl⟩
abbrev main_c_18 : Ref sig .tc := ⟨.hbm, 194, rfl⟩
abbrev main_call13_v0 : Ref sig .tc := ⟨.hbm, 195, rfl⟩
abbrev main_call13_c : Ref sig .tc := ⟨.hbm, 196, rfl⟩
abbrev main_call13_v1 : Ref sig .tc := ⟨.hbm, 197, rfl⟩
abbrev main_call13_c_0 : Ref sig .tc := ⟨.hbm, 198, rfl⟩
abbrev main_call13_v2 : Ref sig .tc := ⟨.hbm, 199, rfl⟩
abbrev main_call13_v3 : Ref sig .tc := ⟨.hbm, 200, rfl⟩
abbrev main_call13_v4 : Ref sig .tc := ⟨.hbm, 201, rfl⟩
abbrev main_call13_c_1 : Ref sig .tc := ⟨.hbm, 202, rfl⟩
abbrev main_call13_v5 : Ref sig .tc := ⟨.hbm, 203, rfl⟩
abbrev main_call13_v6 : Ref sig .tc := ⟨.hbm, 204, rfl⟩
abbrev main_call13_c_2 : Ref sig .tc := ⟨.hbm, 205, rfl⟩
abbrev main_call13_v7 : Ref sig .tc := ⟨.hbm, 206, rfl⟩
abbrev main_call13_v8 : Ref sig .tc := ⟨.hbm, 207, rfl⟩
abbrev main_call13_c_3 : Ref sig .tc := ⟨.hbm, 208, rfl⟩
abbrev main_call13_v9 : Ref sig .tc := ⟨.hbm, 209, rfl⟩
abbrev main_call13_v10 : Ref sig .tc := ⟨.hbm, 210, rfl⟩
abbrev main_call13_v11 : Ref sig .tc := ⟨.hbm, 211, rfl⟩
abbrev main_call13_v12 : Ref sig .tc := ⟨.hbm, 212, rfl⟩
abbrev main_call13_v13 : Ref sig .tc := ⟨.hbm, 213, rfl⟩
abbrev main_call13_v14 : Ref sig .tc := ⟨.hbm, 214, rfl⟩
abbrev main_v38 : Ref sig .tc := ⟨.hbm, 215, rfl⟩
abbrev main_v39 : Ref sig .tc := ⟨.hbm, 216, rfl⟩
abbrev main_v40 : Ref sig .tc := ⟨.hbm, 217, rfl⟩
abbrev main_v41 : Ref sig .tc := ⟨.hbm, 218, rfl⟩
abbrev main_v42 : Ref sig .tc := ⟨.hbm, 219, rfl⟩
abbrev main_v43 : Ref sig .tc := ⟨.hbm, 220, rfl⟩
abbrev main_v44 : Ref sig .tc := ⟨.hbm, 221, rfl⟩
abbrev main_c_19 : Ref sig .tc := ⟨.hbm, 222, rfl⟩
abbrev main_call14_v0 : Ref sig .tc := ⟨.hbm, 223, rfl⟩
abbrev main_call14_v1 : Ref sig .tc := ⟨.hbm, 224, rfl⟩
abbrev main_call14_v2 : Ref sig .tc := ⟨.hbm, 225, rfl⟩
abbrev main_v45 : Ref sig .tc := ⟨.hbm, 226, rfl⟩
abbrev main_c_20 : Ref sig .tc := ⟨.hbm, 227, rfl⟩
abbrev main_v46 : Ref sig .tc := ⟨.hbm, 228, rfl⟩
abbrev main_v47 : Ref sig .tc := ⟨.hbm, 229, rfl⟩
abbrev main_c_21 : Ref sig .tc := ⟨.hbm, 230, rfl⟩
abbrev main_v48 : Ref sig .tc := ⟨.hbm, 231, rfl⟩
abbrev main_v49 : Ref sig .tc := ⟨.hbm, 232, rfl⟩
abbrev main_v50 : Ref sig .tc := ⟨.hbm, 233, rfl⟩
abbrev main_c_22 : Ref sig .tc := ⟨.hbm, 234, rfl⟩
abbrev main_v51 : Ref sig .tc := ⟨.hbm, 235, rfl⟩
abbrev main_v52 : Ref sig .tc := ⟨.hbm, 236, rfl⟩
abbrev main_c_23 : Ref sig .tc := ⟨.hbm, 237, rfl⟩
abbrev main_v53 : Ref sig .tc := ⟨.hbm, 238, rfl⟩
abbrev main_v54 : Ref sig .tc := ⟨.hbm, 239, rfl⟩
abbrev main_v55 : Ref sig .tc := ⟨.hbm, 240, rfl⟩
abbrev main_c_24 : Ref sig .tc := ⟨.hbm, 241, rfl⟩
abbrev main_v56 : Ref sig .tc := ⟨.hbm, 242, rfl⟩
abbrev main_v57 : Ref sig .tc := ⟨.hbm, 243, rfl⟩
abbrev main_c_25 : Ref sig .tc := ⟨.hbm, 244, rfl⟩
abbrev main_v58 : Ref sig .tc := ⟨.hbm, 245, rfl⟩
abbrev main_v59 : Ref sig .tc := ⟨.hbm, 246, rfl⟩
abbrev main_v60 : Ref sig .tc := ⟨.hbm, 247, rfl⟩
abbrev main_v61 : Ref sig .tc := ⟨.hbm, 248, rfl⟩
abbrev main_v62 : Ref sig .tc := ⟨.hbm, 249, rfl⟩
abbrev main_v63 : Ref sig .tc := ⟨.hbm, 250, rfl⟩
abbrev main_v64 : Ref sig .tc := ⟨.hbm, 251, rfl⟩
abbrev main_v65 : Ref sig .tc := ⟨.hbm, 252, rfl⟩
abbrev main_v66 : Ref sig .tc := ⟨.hbm, 253, rfl⟩
abbrev main_cst_26 : Ref sig .tc := ⟨.hbm, 254, rfl⟩
abbrev main_call15_v0 : Ref sig .tc := ⟨.hbm, 255, rfl⟩
abbrev main_call15_v1 : Ref sig .tc := ⟨.hbm, 256, rfl⟩
abbrev main_call15_v2 : Ref sig .tc := ⟨.hbm, 257, rfl⟩
abbrev main_v67 : Ref sig .tc := ⟨.hbm, 258, rfl⟩

abbrev nD : Nat := 1
abbrev τ : Topo := Topo.v7x

variable {F : FTy → Type} [FloatOps F]

class Facts₀ : Prop where
  shapeCasts_S4x8x2x4x480x640_S32x8x480x640 : S4x8x2x4x480x640.ShapeCasts S32x8x480x640
  reducesTo_S32x8x480x640_S32x480x640_d1 : S32x8x480x640.ReducesTo [1] S32x480x640
  h_S_ : 0 < S_.numel
  bcast_S_S32x480x640 : S_.BroadcastsInDim S32x480x640 (![] : Fin 0 → Fin S32x480x640.rank)
  shapeCasts_S32x480x640_S9830400 : S32x480x640.ShapeCasts S9830400
  natLt_1_32 : 1 < 32
  bcast_S_S_ : S_.BroadcastsInDim S_ (![] : Fin 0 → Fin S_.rank)
  reduceWindows_S9830400_S9830400_w9830400s1p9830399_0 : S9830400.ReduceWindows (![9830400] : Fin 1 → Nat) ![1] ![9830399] ![0] S9830400
  bcast_S_S200000 : S_.BroadcastsInDim S200000 (![] : Fin 0 → Fin S200000.rank)
  bcast_S_S9830400 : S_.BroadcastsInDim S9830400 (![] : Fin 0 → Fin S9830400.rank)
  bcast_S9830400_S9830400x1_0 : S9830400.BroadcastsInDim S9830400x1 (![0] : Fin 1 → Fin S9830400x1.rank)
  reduceWindows_S200000_S200000_w200000s1p199999_0 : S200000.ReduceWindows (![200000] : Fin 1 → Nat) ![1] ![199999] ![0] S200000
  reducesTo_S32x480x640_S_d0_1_2 : S32x480x640.ReducesTo [0, 1, 2] S_
  bcast_S200000_S200000x1_0 : S200000.BroadcastsInDim S200000x1 (![0] : Fin 1 → Fin S200000x1.rank)
  concatenates_S200000x1_S200000x1_S200000x1_S200000x1_S200000x4_d1 : Shape.Concatenates [S200000x1, S200000x1, S200000x1, S200000x1] S200000x4 1
  bcast_S200000x1_S200000x4_0_1 : S200000x1.BroadcastsInDim S200000x4 (![0, 1] : Fin 2 → Fin S200000x4.rank)
  bcast_S_S200000x4 : S_.BroadcastsInDim S200000x4 (![] : Fin 0 → Fin S200000x4.rank)
  concatenates_S200000x1_S200000x1_S200000x1_S200000x3_d1 : Shape.Concatenates [S200000x1, S200000x1, S200000x1] S200000x3 1
  bcast_S200000x1_S200000x8_0_1 : S200000x1.BroadcastsInDim S200000x8 (![0, 1] : Fin 2 → Fin S200000x8.rank)
  bcast_S_S200000x8 : S_.BroadcastsInDim S200000x8 (![] : Fin 0 → Fin S200000x8.rank)
  scatter_S200000_S9830400x1_S9830400_n_0_0_1_wf : ScatterDims.WF S200000 S9830400x1 S9830400 [] [0] [0] 1
  gather_S32x8x480x640_S200000x3_S200000x8_1_023_n_n_023_1_1811_wf : GatherDims.WF S32x8x480x640 S200000x3 S200000x8 [1] [0, 2, 3] [] [0, 2, 3] [] 1 ![1, 8, 1, 1]

variable [Facts₀]

def scatter_S200000_S9830400x1_S9830400_n_0_0_1 : ScatterDims S200000 S9830400x1 S9830400 where
  updateWindowDims := []
  insertedWindowDims := [0]
  scatterDimsToOperandDims := [0]
  indexVectorDim := 1
  wf := scatter_S200000_S9830400x1_S9830400_n_0_0_1_wf
def gather_S32x8x480x640_S200000x3_S200000x8_1_023_n_n_023_1_1811 : GatherDims S32x8x480x640 S200000x3 S200000x8 where
  offsetDims := [1]
  collapsedSliceDims := [0, 2, 3]
  operandBatchingDims := []
  startIndicesBatchingDims := []
  startIndexMap := [0, 2, 3]
  indexVectorDim := 1
  sliceSizes := ![1, 8, 1, 1]
  wf := gather_S32x8x480x640_S200000x3_S200000x8_1_023_n_n_023_1_1811_wf

class Facts : Prop extends Facts₀ where

variable [Facts]
-- ==== Proof.KbTail.lean ====
/-
  The host lines of the program around its one launched region: one reshape before it, and after it the thirty-two
  stretches that turn the region's 0/1 words into the list of the first 200000 marked positions, their coordinates and
  the features gathered there.

  What is shown here, for any float values: the program is the line before, the region, the lines after; every later line
  touches only buffers that bypass the region or the region's two arrays, allocates nothing, and writes neither array; and
  the argument array is written by no line at all, so it ends as launched.
-/
import proofs.«133728_j60172491817011_1_alg».proof.Proof.Gen.Kernel.Launch
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of host lines after the region, in order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31]

/-- A core's buffer contents when the region is entered: the launch contents after the one reshape. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-! ## No line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor
theorem hostOps1_27_fresh : (hostOps1_27 : List (HloOp τ sig (Elt F))).Forall fun op => op.fresh = ∅ := by
  simp only [List.Forall]; repeat' constructor
theorem hostOps1_28_fresh : (hostOps1_28 : List (HloOp τ sig (Elt F))).Forall fun op => op.fresh = ∅ := by
  simp only [List.Forall]; repeat' constructor
theorem hostOps1_29_fresh : (hostOps1_29 : List (HloOp τ sig (Elt F))).Forall fun op => op.fresh = ∅ := by
  simp only [List.Forall]; repeat' constructor
theorem hostOps1_30_fresh : (hostOps1_30 : List (HloOp τ sig (Elt F))).Forall fun op => op.fresh = ∅ := by
  simp only [List.Forall]; repeat' constructor
theorem hostOps1_31_fresh : (hostOps1_31 : List (HloOp τ sig (Elt F))).Forall fun op => op.fresh = ∅ := by
  simp only [List.Forall]; repeat' constructor

/-! ## No later line writes an array of the region -/

theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_14_keeps : (hostOps1_14 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_15_keeps : (hostOps1_15 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_16_keeps : (hostOps1_16 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_17_keeps : (hostOps1_17 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_18_keeps : (hostOps1_18 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_19_keeps : (hostOps1_19 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_20_keeps : (hostOps1_20 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_21_keeps : (hostOps1_21 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_22_keeps : (hostOps1_22 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_23_keeps : (hostOps1_23 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_24_keeps : (hostOps1_24 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_25_keeps : (hostOps1_25 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_26_keeps : (hostOps1_26 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_27_keeps : (hostOps1_27 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_28_keeps : (hostOps1_28 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_29_keeps : (hostOps1_29 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_30_keeps : (hostOps1_30 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_31_keeps : (hostOps1_31 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))

/-! ## No line writes the argument -/

theorem hostOps1_arg : (hostOps1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_1_arg : (hostOps1_1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_2_arg : (hostOps1_2 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_3_arg : (hostOps1_3 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_4_arg : (hostOps1_4 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_5_arg : (hostOps1_5 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_6_arg : (hostOps1_6 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_7_arg : (hostOps1_7 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_8_arg : (hostOps1_8 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_9_arg : (hostOps1_9 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_10_arg : (hostOps1_10 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_11_arg : (hostOps1_11 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_12_arg : (hostOps1_12 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_13_arg : (hostOps1_13 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_14_arg : (hostOps1_14 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_15_arg : (hostOps1_15 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_16_arg : (hostOps1_16 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_17_arg : (hostOps1_17 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_18_arg : (hostOps1_18 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_19_arg : (hostOps1_19 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_20_arg : (hostOps1_20 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_21_arg : (hostOps1_21 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_22_arg : (hostOps1_22 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_23_arg : (hostOps1_23 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_24_arg : (hostOps1_24 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_25_arg : (hostOps1_25 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_26_arg : (hostOps1_26 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_27_arg : (hostOps1_27 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_28_arg : (hostOps1_28 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_29_arg : (hostOps1_29 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_30_arg : (hostOps1_30 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_31_arg : (hostOps1_31 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The program is: the reshape, the region, the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- Membership in the list of stretches, spelt out. -/
theorem mem_tailOpss {ops : List (HloOp τ sig (Elt F))} (h : ops ∈ (tailOpss (F := F))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 ∨ ops = hostOps1_10 ∨ ops = hostOps1_11 ∨ ops = hostOps1_12 ∨ ops = hostOps1_13 ∨ ops = hostOps1_14 ∨ ops = hostOps1_15 ∨ ops = hostOps1_16 ∨ ops = hostOps1_17 ∨ ops = hostOps1_18 ∨ ops = hostOps1_19 ∨ ops = hostOps1_20 ∨ ops = hostOps1_21 ∨ ops = hostOps1_22 ∨ ops = hostOps1_23 ∨ ops = hostOps1_24 ∨ ops = hostOps1_25 ∨ ops = hostOps1_26 ∨ ops = hostOps1_27 ∨ ops = hostOps1_28 ∨ ops = hostOps1_29 ∨ ops = hostOps1_30 ∨ ops = hostOps1_31 := by
  simpa only [tailOpss, List.mem_cons, List.mem_nil_iff, or_false] using h

/-- The later lines touch the region's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)
  · exact Pipeline.sub_ucRefs op ((List.forall_iff_forall_mem.mp hostOps1_24_sub) op hop)
  · exact Pipeline.sub_ucRefs op ((List.forall_iff_forall_mem.mp hostOps1_25_sub) op hop)
  · exact Pipeline.sub_ucRefs op ((List.forall_iff_forall_mem.mp hostOps1_26_sub) op hop)
  · exact Pipeline.sub_ucRefs op ((List.forall_iff_forall_mem.mp hostOps1_27_sub) op hop)
  · exact Pipeline.sub_ucRefs op ((List.forall_iff_forall_mem.mp hostOps1_28_sub) op hop)
  · exact Pipeline.sub_ucRefs op ((List.forall_iff_forall_mem.mp hostOps1_29_sub) op hop)
  · exact Pipeline.sub_ucRefs op ((List.forall_iff_forall_mem.mp hostOps1_30_sub) op hop)
  · exact Pipeline.sub_ucRefs op ((List.forall_iff_forall_mem.mp hostOps1_31_sub) op hop)

/-- They allocate nothing. -/
theorem sfx_fresh : ∀ ops ∈ (tailOpss : List (List (HloOp τ sig (Elt F)))), ∀ op ∈ ops, op.fresh = ∅ := by
  intro ops hops op hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop
  · exact (List.forall_iff_forall_mem.mp hostOps1_24_fresh) op hop
  · exact (List.forall_iff_forall_mem.mp hostOps1_25_fresh) op hop
  · exact (List.forall_iff_forall_mem.mp hostOps1_26_fresh) op hop
  · exact (List.forall_iff_forall_mem.mp hostOps1_27_fresh) op hop
  · exact (List.forall_iff_forall_mem.mp hostOps1_28_fresh) op hop
  · exact (List.forall_iff_forall_mem.mp hostOps1_29_fresh) op hop
  · exact (List.forall_iff_forall_mem.mp hostOps1_30_fresh) op hop
  · exact (List.forall_iff_forall_mem.mp hostOps1_31_fresh) op hop

/-- They write no array of the region. -/
theorem sfx_keeps : ∀ ops ∈ (tailOpss : List (List (HloOp τ sig (Elt F)))), ∀ op ∈ ops,
    ∀ w, Proc.devRef .tc (Pipeline.arrRef spec0 w) ∉ op.writes := by
  intro ops hops op hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop
  · exact (List.forall_iff_forall_mem.mp hostOps1_22_keeps) op hop
  · exact (List.forall_iff_forall_mem.mp hostOps1_23_keeps) op hop
  · exact (List.forall_iff_forall_mem.mp hostOps1_24_keeps) op hop
  · exact (List.forall_iff_forall_mem.mp hostOps1_25_keeps) op hop
  · exact (List.forall_iff_forall_mem.mp hostOps1_26_keeps) op hop
  · exact (List.forall_iff_forall_mem.mp hostOps1_27_keeps) op hop
  · exact (List.forall_iff_forall_mem.mp hostOps1_28_keeps) op hop
  · exact (List.forall_iff_forall_mem.mp hostOps1_29_keeps) op hop
  · exact (List.forall_iff_forall_mem.mp hostOps1_30_keeps) op hop
  · exact (List.forall_iff_forall_mem.mp hostOps1_31_keeps) op hop

/-- No later line writes the argument. -/
theorem sfx_arg : ∀ op ∈ (tailOpss : List (List (HloOp τ sig (Elt F)))).flatten, Proc.devRef .tc main_arg0 ∉ op.writes := by
  intro op hop
  obtain ⟨ops, hops, hop⟩ := List.mem_flatten.mp hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_arg) op hop
  · exact (List.forall_iff_forall_mem.mp hostOps1_1_arg) op hop
  · exact (List.forall_iff_forall_mem.mp hostOps1_2_arg) op hop
  · exact (List.forall_iff_forall_mem.mp hostOps1_3_arg) op hop
  · exact (List.forall_iff_forall_mem.mp hostOps1_4_arg) op hop
  · exact (List.forall_iff_forall_mem.mp hostOps1_5_arg) op hop
  · exact (List.forall_iff_forall_mem.mp hostOps1_6_arg) op hop
  · exact (List.forall_iff_forall_mem.mp hostOps1_7_arg) op hop
  · exact (List.forall_iff_forall_mem.mp hostOps1_8_arg) op hop
  · exact (List.forall_iff_forall_mem.mp hostOps1_9_arg) op hop
  · exact (List.forall_iff_forall_mem.mp hostOps1_10_arg) op hop
  · exact (List.forall_iff_forall_mem.mp hostOps1_11_arg) op hop
  · exact (List.forall_iff_forall_mem.mp hostOps1_12_arg) op hop
  · exact (List.forall_iff_forall_mem.mp hostOps1_13_arg) op hop
  · exact (List.forall_iff_forall_mem.mp hostOps1_14_arg) op hop
  · exact (List.forall_iff_forall_mem.mp hostOps1_15_arg) op hop
  · exact (List.forall_iff_forall_mem.mp hostOps1_16_arg) op hop
  · exact (List.forall_iff_forall_mem.mp hostOps1_17_arg) op hop
  · exact (List.forall_iff_forall_mem.mp hostOps1_18_arg) op hop
  · exact (List.forall_iff_forall_mem.mp hostOps1_19_arg) op hop
  · exact (List.forall_iff_forall_mem.mp hostOps1_20_arg) op hop
  · exact (List.forall_iff_forall_mem.mp hostOps1_21_arg) op hop
  · exact (List.forall_iff_forall_mem.mp hostOps1_22_arg) op hop
  · exact (List.forall_iff_forall_mem.mp hostOps1_23_arg) op hop
  · exact (List.forall_iff_forall_mem.mp hostOps1_24_arg) op hop
  · exact (List.forall_iff_forall_mem.mp hostOps1_25_arg) op hop
  · exact (List.forall_iff_forall_mem.mp hostOps1_26_arg) op hop
  · exact (List.forall_iff_forall_mem.mp hostOps1_27_arg) op hop
  · exact (List.forall_iff_forall_mem.mp hostOps1_28_arg) op hop
  · exact (List.forall_iff_forall_mem.mp hostOps1_29_arg) op hop
  · exact (List.forall_iff_forall_mem.mp hostOps1_30_arg) op hop
  · exact (List.forall_iff_forall_mem.mp hostOps1_31_arg) op hop

/-- The reshape before the region does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    exact StableHlo.devRef_ne_of_ne (by decide)))

/-- The argument after the later lines, from any exit contents of the region's arrays, is the argument as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ sfx_arg,
    Pipeline.withArrays_of_ne _ c (V0 m c) _ main_arg0 (by exact (by decide : ∀ w, Pipeline.arrRef spec0 w ≠ main_arg0))]
  exact V_main_arg0 m c

/-- The frame from a frame run: the run's post read at the argument array. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

end Cert.Kernel.Hand

end
-- ==== Proof.KbBody.lean ====
/-
  The launched region's body, run once at a grid point: it loads the point's slab of eight channel planes, takes absolute
  values, the maximum over the eight channels, compares with 3, and stores the comparison's bit as a 32-bit word over the
  whole output plane (the plane's old contents are loaded first and not used). So after the body the output's staging
  buffer holds one function of the input slab, `planeOf`, whatever it held before; the input's buffer is unchanged.
  From this: the proof data of the region (each array as the region finds it, the input buffer at the point's slab, the
  output buffer at `planeOf` of it) and the body obligation at every point.
-/
import proofs.«133728_j60172491817011_1_alg».proof.Proof.KbTail
import proofs.«133728_j60172491817011_1_alg».proof.Proof.Gen.Kernel.Skeleton
import proofs.«133728_j60172491817011_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output plane -/

/-- The whole slab of eight planes, as the rectangle the body loads. -/
abbrev slab : Rect S1x8x480x640 := Rect.unit (s := S1x8x480x640) ![0, 0, 0, 0] S1x8x480x640.size inb_S1x8x480x640_S1x8x480x640_0_0_0_0
/-- The whole output plane, as the rectangle the body stores. -/
abbrev plane : Rect S1x480x640 := Rect.unit (s := S1x480x640) ![0, 0, 0] S1x480x640.size inb_S1x480x640_S1x480x640_0_0_0

/-- The output plane after the body, from the input slab: its one store, of the comparison words. -/
def planeOf (x0 : Vec F S1x8x480x640 .f32) : Vec F S1x480x640 .i32 :=
  View.canon [⟨plane, k0_pay1 (View.ld x0 slab)⟩]

/-- The one store covers the plane. -/
theorem plane_cover (p0 : Vec F S1x480x640 .i32) (y : S1x480x640.Idx) :
    ∃ pc ∈ ([⟨plane, p0⟩] : List (View.Piece (Elt F) S1x480x640 .i32)), y ∈ pc.1.set :=
  View.cover_of_tiled [⟨plane, p0⟩] S1x480x640.size (by rfl) y

set_option maxHeartbeats 1000000 in
/-- The body on whole staging buffers, the input's at contents `x0` and the output's at anything, runs to the
    continuation holding the input's as it was and the output's at `planeOf x0`. -/
theorem sound_kernel (c : Dev nD) (E : Set ℕ) (i : grid0.Coords) (arg1 : Memref sig .tc .vmem S1x8x480x640 .f32) (harg1 : arg1.IsWhole)
    (arg2 : Memref sig .tc .vmem S1x480x640 .i32) (harg2 : arg2.IsWhole)
    (x0 : Vec F S1x8x480x640 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (planeOf x0)) -∗ K ⟨⟩))
      ⊢ wp frame (wpE (defs₀ (F := F)) Variants.none c none) E (cc0__mask_kernel i arg1 harg1 arg2 harg2) K := by
  simp only [cc0__mask_kernel_eq_skeleton]; unfold cc0__mask_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (plane_cover _)

/-! ## The region's proof data -/

/-- The proof data of the region on core `c`: the arrays as the region finds them; after the body at point `t` the input's
    buffer at its slab and the output's at `planeOf` of it; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => planeOf (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = planeOf (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbFrame.lean ====
/-
  The program's run: the reshape, the region at its 32 grid points — each staging one slab of eight planes in and one
  plane of words out —, then the later host lines. Every weakly fair execution terminates without a fault; the region's
  output array ends at what the points wrote back, every other unscoped buffer at what the later lines leave of the
  region's exit contents; and the argument array, which no line writes, ends as launched.
-/
import proofs.«133728_j60172491817011_1_alg».proof.Proof.KbBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters: every weakly fair execution terminates, the region's arrays at what the proof
    data computes and every other unscoped buffer as the later lines leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.Hand

end
-- ==== Proof.KiTail.lean ====
/-
  The host lines of the program around its one launched region: one reshape before it, and after it the thirty-two
  stretches that turn the region's 0/1 words into the list of the first 200000 marked positions, their coordinates and
  the features gathered there.

  What is shown here, for any float values: the program is the line before, the region, the lines after; every later line
  touches only buffers that bypass the region or the region's two arrays, allocates nothing, and writes neither array; and
  the argument array is written by no line at all, so it ends as launched.
-/
import proofs.«133728_j60172491817011_1_alg».proof.Proof.Gen.KernelIdeal.Launch
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of host lines after the region, in order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31]

/-- A core's buffer contents when the region is entered: the launch contents after the one reshape. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-! ## No line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor
theorem hostOps1_27_fresh : (hostOps1_27 : List (HloOp τ sig (Elt F))).Forall fun op => op.fresh = ∅ := by
  simp only [List.Forall]; repeat' constructor
theorem hostOps1_28_fresh : (hostOps1_28 : List (HloOp τ sig (Elt F))).Forall fun op => op.fresh = ∅ := by
  simp only [List.Forall]; repeat' constructor
theorem hostOps1_29_fresh : (hostOps1_29 : List (HloOp τ sig (Elt F))).Forall fun op => op.fresh = ∅ := by
  simp only [List.Forall]; repeat' constructor
theorem hostOps1_30_fresh : (hostOps1_30 : List (HloOp τ sig (Elt F))).Forall fun op => op.fresh = ∅ := by
  simp only [List.Forall]; repeat' constructor
theorem hostOps1_31_fresh : (hostOps1_31 : List (HloOp τ sig (Elt F))).Forall fun op => op.fresh = ∅ := by
  simp only [List.Forall]; repeat' constructor

/-! ## No later line writes an array of the region -/

theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_14_keeps : (hostOps1_14 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_15_keeps : (hostOps1_15 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_16_keeps : (hostOps1_16 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_17_keeps : (hostOps1_17 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_18_keeps : (hostOps1_18 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_19_keeps : (hostOps1_19 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_20_keeps : (hostOps1_20 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_21_keeps : (hostOps1_21 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_22_keeps : (hostOps1_22 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_23_keeps : (hostOps1_23 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_24_keeps : (hostOps1_24 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_25_keeps : (hostOps1_25 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_26_keeps : (hostOps1_26 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_27_keeps : (hostOps1_27 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_28_keeps : (hostOps1_28 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_29_keeps : (hostOps1_29 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_30_keeps : (hostOps1_30 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))
theorem hostOps1_31_keeps : (hostOps1_31 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals (intro w; fin_cases w <;> exact StableHlo.devRef_ne_of_ne (by decide))

/-! ## No line writes the argument -/

theorem hostOps1_arg : (hostOps1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_1_arg : (hostOps1_1 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_2_arg : (hostOps1_2 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_3_arg : (hostOps1_3 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_4_arg : (hostOps1_4 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_5_arg : (hostOps1_5 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_6_arg : (hostOps1_6 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_7_arg : (hostOps1_7 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_8_arg : (hostOps1_8 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_9_arg : (hostOps1_9 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_10_arg : (hostOps1_10 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_11_arg : (hostOps1_11 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_12_arg : (hostOps1_12 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_13_arg : (hostOps1_13 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_14_arg : (hostOps1_14 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_15_arg : (hostOps1_15 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_16_arg : (hostOps1_16 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_17_arg : (hostOps1_17 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_18_arg : (hostOps1_18 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_19_arg : (hostOps1_19 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_20_arg : (hostOps1_20 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_21_arg : (hostOps1_21 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_22_arg : (hostOps1_22 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_23_arg : (hostOps1_23 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_24_arg : (hostOps1_24 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_25_arg : (hostOps1_25 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_26_arg : (hostOps1_26 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_27_arg : (hostOps1_27 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_28_arg : (hostOps1_28 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_29_arg : (hostOps1_29 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_30_arg : (hostOps1_30 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_31_arg : (hostOps1_31 : List (HloOp τ sig (Elt F))).Forall fun op => Proc.devRef .tc main_arg0 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The program is: the reshape, the region, the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- Membership in the list of stretches, spelt out. -/
theorem mem_tailOpss {ops : List (HloOp τ sig (Elt F))} (h : ops ∈ (tailOpss (F := F))) :
    ops = hostOps1 ∨ ops = hostOps1_1 ∨ ops = hostOps1_2 ∨ ops = hostOps1_3 ∨ ops = hostOps1_4 ∨ ops = hostOps1_5 ∨ ops = hostOps1_6 ∨ ops = hostOps1_7 ∨ ops = hostOps1_8 ∨ ops = hostOps1_9 ∨ ops = hostOps1_10 ∨ ops = hostOps1_11 ∨ ops = hostOps1_12 ∨ ops = hostOps1_13 ∨ ops = hostOps1_14 ∨ ops = hostOps1_15 ∨ ops = hostOps1_16 ∨ ops = hostOps1_17 ∨ ops = hostOps1_18 ∨ ops = hostOps1_19 ∨ ops = hostOps1_20 ∨ ops = hostOps1_21 ∨ ops = hostOps1_22 ∨ ops = hostOps1_23 ∨ ops = hostOps1_24 ∨ ops = hostOps1_25 ∨ ops = hostOps1_26 ∨ ops = hostOps1_27 ∨ ops = hostOps1_28 ∨ ops = hostOps1_29 ∨ ops = hostOps1_30 ∨ ops = hostOps1_31 := by
  simpa only [tailOpss, List.mem_cons, List.mem_nil_iff, or_false] using h

/-- The later lines touch the region's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)
  · exact Pipeline.sub_ucRefs op ((List.forall_iff_forall_mem.mp hostOps1_24_sub) op hop)
  · exact Pipeline.sub_ucRefs op ((List.forall_iff_forall_mem.mp hostOps1_25_sub) op hop)
  · exact Pipeline.sub_ucRefs op ((List.forall_iff_forall_mem.mp hostOps1_26_sub) op hop)
  · exact Pipeline.sub_ucRefs op ((List.forall_iff_forall_mem.mp hostOps1_27_sub) op hop)
  · exact Pipeline.sub_ucRefs op ((List.forall_iff_forall_mem.mp hostOps1_28_sub) op hop)
  · exact Pipeline.sub_ucRefs op ((List.forall_iff_forall_mem.mp hostOps1_29_sub) op hop)
  · exact Pipeline.sub_ucRefs op ((List.forall_iff_forall_mem.mp hostOps1_30_sub) op hop)
  · exact Pipeline.sub_ucRefs op ((List.forall_iff_forall_mem.mp hostOps1_31_sub) op hop)

/-- They allocate nothing. -/
theorem sfx_fresh : ∀ ops ∈ (tailOpss : List (List (HloOp τ sig (Elt F)))), ∀ op ∈ ops, op.fresh = ∅ := by
  intro ops hops op hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop
  · exact (List.forall_iff_forall_mem.mp hostOps1_24_fresh) op hop
  · exact (List.forall_iff_forall_mem.mp hostOps1_25_fresh) op hop
  · exact (List.forall_iff_forall_mem.mp hostOps1_26_fresh) op hop
  · exact (List.forall_iff_forall_mem.mp hostOps1_27_fresh) op hop
  · exact (List.forall_iff_forall_mem.mp hostOps1_28_fresh) op hop
  · exact (List.forall_iff_forall_mem.mp hostOps1_29_fresh) op hop
  · exact (List.forall_iff_forall_mem.mp hostOps1_30_fresh) op hop
  · exact (List.forall_iff_forall_mem.mp hostOps1_31_fresh) op hop

/-- They write no array of the region. -/
theorem sfx_keeps : ∀ ops ∈ (tailOpss : List (List (HloOp τ sig (Elt F)))), ∀ op ∈ ops,
    ∀ w, Proc.devRef .tc (Pipeline.arrRef spec0 w) ∉ op.writes := by
  intro ops hops op hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop
  · exact (List.forall_iff_forall_mem.mp hostOps1_22_keeps) op hop
  · exact (List.forall_iff_forall_mem.mp hostOps1_23_keeps) op hop
  · exact (List.forall_iff_forall_mem.mp hostOps1_24_keeps) op hop
  · exact (List.forall_iff_forall_mem.mp hostOps1_25_keeps) op hop
  · exact (List.forall_iff_forall_mem.mp hostOps1_26_keeps) op hop
  · exact (List.forall_iff_forall_mem.mp hostOps1_27_keeps) op hop
  · exact (List.forall_iff_forall_mem.mp hostOps1_28_keeps) op hop
  · exact (List.forall_iff_forall_mem.mp hostOps1_29_keeps) op hop
  · exact (List.forall_iff_forall_mem.mp hostOps1_30_keeps) op hop
  · exact (List.forall_iff_forall_mem.mp hostOps1_31_keeps) op hop

/-- No later line writes the argument. -/
theorem sfx_arg : ∀ op ∈ (tailOpss : List (List (HloOp τ sig (Elt F)))).flatten, Proc.devRef .tc main_arg0 ∉ op.writes := by
  intro op hop
  obtain ⟨ops, hops, hop⟩ := List.mem_flatten.mp hop
  rcases mem_tailOpss hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (List.forall_iff_forall_mem.mp hostOps1_arg) op hop
  · exact (List.forall_iff_forall_mem.mp hostOps1_1_arg) op hop
  · exact (List.forall_iff_forall_mem.mp hostOps1_2_arg) op hop
  · exact (List.forall_iff_forall_mem.mp hostOps1_3_arg) op hop
  · exact (List.forall_iff_forall_mem.mp hostOps1_4_arg) op hop
  · exact (List.forall_iff_forall_mem.mp hostOps1_5_arg) op hop
  · exact (List.forall_iff_forall_mem.mp hostOps1_6_arg) op hop
  · exact (List.forall_iff_forall_mem.mp hostOps1_7_arg) op hop
  · exact (List.forall_iff_forall_mem.mp hostOps1_8_arg) op hop
  · exact (List.forall_iff_forall_mem.mp hostOps1_9_arg) op hop
  · exact (List.forall_iff_forall_mem.mp hostOps1_10_arg) op hop
  · exact (List.forall_iff_forall_mem.mp hostOps1_11_arg) op hop
  · exact (List.forall_iff_forall_mem.mp hostOps1_12_arg) op hop
  · exact (List.forall_iff_forall_mem.mp hostOps1_13_arg) op hop
  · exact (List.forall_iff_forall_mem.mp hostOps1_14_arg) op hop
  · exact (List.forall_iff_forall_mem.mp hostOps1_15_arg) op hop
  · exact (List.forall_iff_forall_mem.mp hostOps1_16_arg) op hop
  · exact (List.forall_iff_forall_mem.mp hostOps1_17_arg) op hop
  · exact (List.forall_iff_forall_mem.mp hostOps1_18_arg) op hop
  · exact (List.forall_iff_forall_mem.mp hostOps1_19_arg) op hop
  · exact (List.forall_iff_forall_mem.mp hostOps1_20_arg) op hop
  · exact (List.forall_iff_forall_mem.mp hostOps1_21_arg) op hop
  · exact (List.forall_iff_forall_mem.mp hostOps1_22_arg) op hop
  · exact (List.forall_iff_forall_mem.mp hostOps1_23_arg) op hop
  · exact (List.forall_iff_forall_mem.mp hostOps1_24_arg) op hop
  · exact (List.forall_iff_forall_mem.mp hostOps1_25_arg) op hop
  · exact (List.forall_iff_forall_mem.mp hostOps1_26_arg) op hop
  · exact (List.forall_iff_forall_mem.mp hostOps1_27_arg) op hop
  · exact (List.forall_iff_forall_mem.mp hostOps1_28_arg) op hop
  · exact (List.forall_iff_forall_mem.mp hostOps1_29_arg) op hop
  · exact (List.forall_iff_forall_mem.mp hostOps1_30_arg) op hop
  · exact (List.forall_iff_forall_mem.mp hostOps1_31_arg) op hop

/-- The reshape before the region does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    exact StableHlo.devRef_ne_of_ne (by decide)))

/-- The argument after the later lines, from any exit contents of the region's arrays, is the argument as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ sfx_arg,
    Pipeline.withArrays_of_ne _ c (V0 m c) _ main_arg0 (by exact (by decide : ∀ w, Pipeline.arrRef spec0 w ≠ main_arg0))]
  exact V_main_arg0 m c

/-- The frame from a frame run: the run's post read at the argument array. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

end Cert.KernelIdeal.Hand

end
-- ==== Proof.KiBody.lean ====
/-
  The launched region's body, run once at a grid point: it loads the point's slab of eight channel planes, takes absolute
  values, the maximum over the eight channels, compares with 3, and stores the comparison's bit as a 32-bit word over the
  whole output plane (the plane's old contents are loaded first and not used). So after the body the output's staging
  buffer holds one function of the input slab, `planeOf`, whatever it held before; the input's buffer is unchanged.
  From this: the proof data of the region (each array as the region finds it, the input buffer at the point's slab, the
  output buffer at `planeOf` of it) and the body obligation at every point.
-/
import proofs.«133728_j60172491817011_1_alg».proof.Proof.KiTail
import proofs.«133728_j60172491817011_1_alg».proof.Proof.Gen.KernelIdeal.Skeleton
import proofs.«133728_j60172491817011_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output plane -/

/-- The whole slab of eight planes, as the rectangle the body loads. -/
abbrev slab : Rect S1x8x480x640 := Rect.unit (s := S1x8x480x640) ![0, 0, 0, 0] S1x8x480x640.size inb_S1x8x480x640_S1x8x480x640_0_0_0_0
/-- The whole output plane, as the rectangle the body stores. -/
abbrev plane : Rect S1x480x640 := Rect.unit (s := S1x480x640) ![0, 0, 0] S1x480x640.size inb_S1x480x640_S1x480x640_0_0_0

/-- The output plane after the body, from the input slab: its one store, of the comparison words. -/
def planeOf (x0 : Vec F S1x8x480x640 .f32) : Vec F S1x480x640 .i32 :=
  View.canon [⟨plane, k0_pay1 (View.ld x0 slab)⟩]

/-- The one store covers the plane. -/
theorem plane_cover (p0 : Vec F S1x480x640 .i32) (y : S1x480x640.Idx) :
    ∃ pc ∈ ([⟨plane, p0⟩] : List (View.Piece (Elt F) S1x480x640 .i32)), y ∈ pc.1.set :=
  View.cover_of_tiled [⟨plane, p0⟩] S1x480x640.size (by rfl) y

set_option maxHeartbeats 1000000 in
/-- The body on whole staging buffers, the input's at contents `x0` and the output's at anything, runs to the
    continuation holding the input's as it was and the output's at `planeOf x0`. -/
theorem sound_kernel (c : Dev nD) (E : Set ℕ) (i : grid0.Coords) (arg1 : Memref sig .tc .vmem S1x8x480x640 .f32) (harg1 : arg1.IsWhole)
    (arg2 : Memref sig .tc .vmem S1x480x640 .i32) (harg2 : arg2.IsWhole)
    (x0 : Vec F S1x8x480x640 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (planeOf x0)) -∗ K ⟨⟩))
      ⊢ wp frame (wpE (defs₀ (F := F)) Variants.none c none) E (cc0__mask_kernel i arg1 harg1 arg2 harg2) K := by
  simp only [cc0__mask_kernel_eq_skeleton]; unfold cc0__mask_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (plane_cover _)

/-! ## The region's proof data -/

/-- The proof data of the region on core `c`: the arrays as the region finds them; after the body at point `t` the input's
    buffer at its slab and the output's at `planeOf` of it; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => planeOf (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = planeOf (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiFrame.lean ====
/-
  The program's run: the reshape, the region at its 32 grid points — each staging one slab of eight planes in and one
  plane of words out —, then the later host lines. Every weakly fair execution terminates without a fault; the region's
  output array ends at what the points wrote back, every other unscoped buffer at what the later lines leave of the
  region's exit contents; and the argument array, which no line writes, ends as launched.
-/
import proofs.«133728_j60172491817011_1_alg».proof.Proof.KiBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- From any memory with zero counters: every weakly fair execution terminates, the region's arrays at what the proof
    data computes and every other unscoped buffer as the later lines leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.Hand

end
-- ==== Proof.RefOps.lean ====
/- The reference program's @main as a list of host operations.

   @main of `Cert.ReferenceIdeal` is a straight line: no kernel, no loop. Its first seven operations compute the
   mask `main_v4` — the operand reshaped to 32×8×480×640, its absolute value, the maximum over the axis of
   length 8 (from −∞), compared `>` with the constant 3 broadcast over 32×480×640. Everything after `main_v4` is the
   compaction of the mask's true positions and the gather of the rows they select; it is made of @main's own
   operations and of sixteen calls of module-local functions (@cumsum, @clip, @cumsum_1, @floor_divide, @remainder,
   @_where_4, @floor_divide_5, @_where_6, @_where_7), a call being the callee's body run on the operands with one
   buffer of @main's signature per value of the body.

   The list below is that line written out: `headOps` the seven operations up to the mask, then thirty-one
   stretches `tailOps1 … tailOps31`, alternately the operations of one call (the callee's operations, and those of
   the calls nested in it, over that call's buffers, the returned value in the `main_vN` it becomes) and @main's own
   operations up to the next call. Stretch k has the same operations in the same order as the k-th stretch of host
   operations after the region in the kernel program's @main (its `hostOps1_k`), over this program's buffers: the
   two programs differ, after the mask, only in how two constants are numbered (the first integer zero is `main_c`
   here, the final float zero `main_cst_26`).

   Beside each list: every operation touches TensorCore references only (`…_sub`), and determines its results
   (`…_fresh`: none allocates). -/
import proofs.«133728_j60172491817011_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The mask: `main_v4 = (max over the axis of length 8 of |reshape arg0|) > 3`, seven operations. -/
abbrev headOps : List (HloOp τ sig (Elt F)) :=
  [ StableHlo.reshape main_arg0 main_v0 rfl shapeCasts_S4x8x2x4x480x640_S32x8x480x640,
    StableHlo.unary main_v0 main_v1 (Host.absf : (⟨S32x8x480x640, .f32⟩ : BufTy).Contents (Elt F) → (⟨S32x8x480x640, .f32⟩ : BufTy).Contents (Elt F)),
    StableHlo.nullary main_cst (constant S_ .f32 0xFF800000#32),
    StableHlo.binary main_v1 main_cst main_v2 ((fun x v => Host.reduce FloatOps.maximumf x v reducesTo_S32x8x480x640_S32x480x640_d1 h_S_) : (⟨S32x8x480x640, .f32⟩ : BufTy).Contents (Elt F) → (⟨S_, .f32⟩ : BufTy).Contents (Elt F) → (⟨S32x480x640, .f32⟩ : BufTy).Contents (Elt F)),
    StableHlo.nullary main_cst_0 (constant S_ .f32 0x40400000#32),
    StableHlo.unary main_cst_0 main_v3 (broadcastInDim S32x480x640 ![] bcast_S_S32x480x640 : (⟨S_, .f32⟩ : BufTy).Contents (Elt F) → (⟨S32x480x640, .f32⟩ : BufTy).Contents (Elt F)),
    StableHlo.binary main_v2 main_v3 main_v4 (cmpf .ogt : (⟨S32x480x640, .f32⟩ : BufTy).Contents (Elt F) → (⟨S32x480x640, .f32⟩ : BufTy).Contents (Elt F) → (⟨S32x480x640, .i1⟩ : BufTy).Contents (Elt F)) ]
theorem headOps_sub : (headOps : List (HloOp τ sig (Elt F))).Forall fun op => op.bufs ⊆ StableHlo.tcRefs τ sig :=
  ⟨StableHlo.reshape_bufs_sub .., StableHlo.unary_bufs_sub .., StableHlo.nullary_bufs_sub .., StableHlo.binary_bufs_sub .., StableHlo.nullary_bufs_sub .., StableHlo.unary_bufs_sub .., StableHlo.binary_bufs_sub ..⟩
theorem headOps_fresh : (headOps : List (HloOp τ sig (Elt F))).Forall fun op => op.fresh = ∅ :=
  ⟨rfl, rfl, rfl, rfl, rfl, rfl, rfl⟩

/-- Stretch 1: the 5 operations of @cumsum's body at the call whose buffers are `main_call0`, nested calls' bodies in place. -/
abbrev tailOps1 : List (HloOp τ sig (Elt F)) :=
  [ StableHlo.TRef.reshape (.of main_v4 : StableHlo.TRef sig ⟨S32x480x640, .i1⟩) (.of main_call0_v0 : StableHlo.TRef sig ⟨S9830400, .i1⟩) rfl shapeCasts_S32x480x640_S9830400,
    StableHlo.TRef.unary (.of main_call0_v0 : StableHlo.TRef sig ⟨S9830400, .i1⟩) (.of main_call0_v1 : StableHlo.TRef sig ⟨S9830400, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v1 : StableHlo.TRef sig ⟨S9830400, .i32⟩) (.of main_call0_call0_v0 : StableHlo.TRef sig ⟨S_, .i32⟩) (.of main_v5 : StableHlo.TRef sig ⟨S9830400, .i32⟩) (fun x v => Host.reduceWindow IntOp.addi ![9830400] ![1] ![9830399] ![0] x v reduceWindows_S9830400_S9830400_w9830400s1p9830399_0 h_S_) ]
theorem tailOps1_sub : (tailOps1 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub ..⟩
theorem tailOps1_fresh : (tailOps1 : List (HloOp τ sig (Elt F))).Forall fun op => op.fresh = ∅ :=
  ⟨rfl, rfl, rfl, rfl, rfl⟩

/-- Stretch 2: 3 operations of @main's own, in order. -/
abbrev tailOps2 : List (HloOp τ sig (Elt F)) :=
  [ StableHlo.nullary main_c (constantI S_ 32 0#32),
    StableHlo.unary main_c main_v6 (broadcastInDim S200000 ![] bcast_S_S200000 : (⟨S_, .i32⟩ : BufTy).Contents (Elt F) → (⟨S200000, .i32⟩ : BufTy).Contents (Elt F)),
    StableHlo.nullary main_c_1 (constantI S_ 32 0#32) ]
theorem tailOps2_sub : (tailOps2 : List (HloOp τ sig (Elt F))).Forall fun op => op.bufs ⊆ StableHlo.tcRefs τ sig :=
  ⟨StableHlo.nullary_bufs_sub .., StableHlo.unary_bufs_sub .., StableHlo.nullary_bufs_sub ..⟩
theorem tailOps2_fresh : (tailOps2 : List (HloOp τ sig (Elt F))).Forall fun op => op.fresh = ∅ :=
  ⟨rfl, rfl, rfl⟩

/-- Stretch 3: the 3 operations of @clip's body at the call whose buffers are `main_call1`, nested calls' bodies in place. -/
abbrev tailOps3 : List (HloOp τ sig (Elt F)) :=
  [ StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S9830400, .i32⟩) (broadcastInDim S9830400 ![] bcast_S_S9830400),
    StableHlo.TRef.binary (.of main_call1_v1 : StableHlo.TRef sig ⟨S9830400, .i32⟩) (.of main_v5 : StableHlo.TRef sig ⟨S9830400, .i32⟩) (.of main_v7 : StableHlo.TRef sig ⟨S9830400, .i32⟩) maxsi ]
theorem tailOps3_sub : (tailOps3 : List (HloOp τ sig (Elt F))).Forall fun op => op.bufs ⊆ StableHlo.tcRefs τ sig :=
  ⟨StableHlo.unary_bufs_sub .., StableHlo.unary_bufs_sub .., StableHlo.binary_bufs_sub ..⟩
theorem tailOps3_fresh : (tailOps3 : List (HloOp τ sig (Elt F))).Forall fun op => op.fresh = ∅ :=
  ⟨rfl, rfl, rfl⟩

/-- Stretch 4: 11 operations of @main's own, in order. -/
abbrev tailOps4 : List (HloOp τ sig (Elt F)) :=
  [ StableHlo.nullary main_c_2 (constantI S_ 32 0#32),
    StableHlo.unary main_c_2 main_v8 (broadcastInDim S9830400 ![] bcast_S_S9830400 : (⟨S_, .i32⟩ : BufTy).Contents (Elt F) → (⟨S9830400, .i32⟩ : BufTy).Contents (Elt F)),
    StableHlo.binary main_v7 main_v8 main_v9 (cmpi .slt : (⟨S9830400, .i32⟩ : BufTy).Contents (Elt F) → (⟨S9830400, .i32⟩ : BufTy).Contents (Elt F) → (⟨S9830400, .i1⟩ : BufTy).Contents (Elt F)),
    StableHlo.nullary main_c_3 (constantI S_ 32 200000#32),
    StableHlo.unary main_c_3 main_v10 (broadcastInDim S9830400 ![] bcast_S_S9830400 : (⟨S_, .i32⟩ : BufTy).Contents (Elt F) → (⟨S9830400, .i32⟩ : BufTy).Contents (Elt F)),
    StableHlo.binary main_v7 main_v10 main_v11 (addi : (⟨S9830400, .i32⟩ : BufTy).Contents (Elt F) → (⟨S9830400, .i32⟩ : BufTy).Contents (Elt F) → (⟨S9830400, .i32⟩ : BufTy).Contents (Elt F)),
    StableHlo.ternary main_v9 main_v11 main_v7 main_v12 (select : (⟨S9830400, .i1⟩ : BufTy).Contents (Elt F) → (⟨S9830400, .i32⟩ : BufTy).Contents (Elt F) → (⟨S9830400, .i32⟩ : BufTy).Contents (Elt F) → (⟨S9830400, .i32⟩ : BufTy).Contents (Elt F)),
    StableHlo.unary main_v12 main_v13 (broadcastInDim S9830400x1 ![0] bcast_S9830400_S9830400x1_0 : (⟨S9830400, .i32⟩ : BufTy).Contents (Elt F) → (⟨S9830400x1, .i32⟩ : BufTy).Contents (Elt F)),
    StableHlo.nullary main_c_4 (constantI S_ 32 1#32),
    StableHlo.unary main_c_4 main_v14 (broadcastInDim S9830400 ![] bcast_S_S9830400 : (⟨S_, .i32⟩ : BufTy).Contents (Elt F) → (⟨S9830400, .i32⟩ : BufTy).Contents (Elt F)),
    StableHlo.ternary main_v6 main_v13 main_v14 main_v15 ((fun x i u => Host.scatter scatter_S200000_S9830400x1_S9830400_n_0_0_1 IntOp.addi x i u) : (⟨S200000, .i32⟩ : BufTy).Contents (Elt F) → (⟨S9830400x1, .i32⟩ : BufTy).Contents (Elt F) → (⟨S9830400, .i32⟩ : BufTy).Contents (Elt F) → (⟨S200000, .i32⟩ : BufTy).Contents (Elt F)) ]
theorem tailOps4_sub : (tailOps4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem tailOps4_fresh : (tailOps4 : List (HloOp τ sig (Elt F))).Forall fun op => op.fresh = ∅ :=
  ⟨rfl, rfl, rfl, rfl, rfl, rfl, rfl, rfl, rfl, rfl, rfl⟩

/-- Stretch 5: the 3 operations of @cumsum_1's body at the call whose buffers are `main_call2`, nested calls' bodies in place. -/
abbrev tailOps5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v15 : StableHlo.TRef sig ⟨S200000, .i32⟩) (.of main_call2_call0_v0 : StableHlo.TRef sig ⟨S_, .i32⟩) (.of main_v16 : StableHlo.TRef sig ⟨S200000, .i32⟩) (fun x v => Host.reduceWindow IntOp.addi ![200000] ![1] ![199999] ![0] x v reduceWindows_S200000_S200000_w200000s1p199999_0 h_S_) ]
theorem tailOps5_sub : (tailOps5 : List (HloOp τ sig (Elt F))).Forall fun op => op.bufs ⊆ StableHlo.tcRefs τ sig :=
  ⟨StableHlo.nullary_bufs_sub .., StableHlo.unary_bufs_sub .., StableHlo.binary_bufs_sub ..⟩
theorem tailOps5_fresh : (tailOps5 : List (HloOp τ sig (Elt F))).Forall fun op => op.fresh = ∅ :=
  ⟨rfl, rfl, rfl⟩

/-- Stretch 6: 1 operation of @main's own, in order. -/
abbrev tailOps6 : List (HloOp τ sig (Elt F)) :=
  [ StableHlo.nullary main_c_5 (constantI S_ 32 307200#32) ]
theorem tailOps6_sub : (tailOps6 : List (HloOp τ sig (Elt F))).Forall fun op => op.bufs ⊆ StableHlo.tcRefs τ sig :=
  StableHlo.nullary_bufs_sub ..
theorem tailOps6_fresh : (tailOps6 : List (HloOp τ sig (Elt F))).Forall fun op => op.fresh = ∅ :=
  rfl

/-- Stretch 7: the 16 operations of @floor_divide's body at the call whose buffers are `main_call3`, nested calls' bodies in place. -/
abbrev tailOps7 : List (HloOp τ sig (Elt F)) :=
  [ StableHlo.TRef.unary (.of main_c_5 : StableHlo.TRef sig ⟨S_, .i32⟩) (.of main_call3_v0 : StableHlo.TRef sig ⟨S200000, .i32⟩) (broadcastInDim S200000 ![] bcast_S_S200000),
    StableHlo.TRef.binary (.of main_v16 : StableHlo.TRef sig ⟨S200000, .i32⟩) (.of main_call3_v0 : StableHlo.TRef sig ⟨S200000, .i32⟩) (.of main_call3_v1 : StableHlo.TRef sig ⟨S200000, .i32⟩) Host.divsi,
    StableHlo.TRef.unary (.of main_v16 : StableHlo.TRef sig ⟨S200000, .i32⟩) (.of main_call3_v2 : StableHlo.TRef sig ⟨S200000, .i32⟩) signi,
    StableHlo.TRef.unary (.of main_c_5 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S200000, .i32⟩) (broadcastInDim S200000 ![] bcast_S_S200000),
    StableHlo.TRef.binary (.of main_call3_v2 : StableHlo.TRef sig ⟨S200000, .i32⟩) (.of main_call3_v4 : StableHlo.TRef sig ⟨S200000, .i32⟩) (.of main_call3_v5 : StableHlo.TRef sig ⟨S200000, .i1⟩) (cmpi .ne),
    StableHlo.TRef.unary (.of main_c_5 : StableHlo.TRef sig ⟨S_, .i32⟩) (.of main_call3_v6 : StableHlo.TRef sig ⟨S200000, .i32⟩) (broadcastInDim S200000 ![] bcast_S_S200000),
    StableHlo.TRef.binary (.of main_v16 : StableHlo.TRef sig ⟨S200000, .i32⟩) (.of main_call3_v6 : StableHlo.TRef sig ⟨S200000, .i32⟩) (.of main_call3_v7 : StableHlo.TRef sig ⟨S200000, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S200000, .i32⟩) (broadcastInDim S200000 ![] bcast_S_S200000),
    StableHlo.TRef.binary (.of main_call3_v7 : StableHlo.TRef sig ⟨S200000, .i32⟩) (.of main_call3_v8 : StableHlo.TRef sig ⟨S200000, .i32⟩) (.of main_call3_v9 : StableHlo.TRef sig ⟨S200000, .i1⟩) (cmpi .ne),
    StableHlo.TRef.binary (.of main_call3_v5 : StableHlo.TRef sig ⟨S200000, .i1⟩) (.of main_call3_v9 : StableHlo.TRef sig ⟨S200000, .i1⟩) (.of main_call3_v10 : StableHlo.TRef sig ⟨S200000, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S200000, .i32⟩) (broadcastInDim S200000 ![] bcast_S_S200000),
    StableHlo.TRef.binary (.of main_call3_v1 : StableHlo.TRef sig ⟨S200000, .i32⟩) (.of main_call3_v11 : StableHlo.TRef sig ⟨S200000, .i32⟩) (.of main_call3_v12 : StableHlo.TRef sig ⟨S200000, .i32⟩) subi,
    StableHlo.TRef.ternary (.of main_call3_v10 : StableHlo.TRef sig ⟨S200000, .i1⟩) (.of main_call3_v12 : StableHlo.TRef sig ⟨S200000, .i32⟩) (.of main_call3_v1 : StableHlo.TRef sig ⟨S200000, .i32⟩) (.of main_v17 : StableHlo.TRef sig ⟨S200000, .i32⟩) select ]
theorem tailOps7_sub : (tailOps7 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem tailOps7_fresh : (tailOps7 : List (HloOp τ sig (Elt F))).Forall fun op => op.fresh = ∅ :=
  ⟨rfl, rfl, rfl, rfl, rfl, rfl, rfl, rfl, rfl, rfl, rfl, rfl, rfl, rfl, rfl, rfl⟩

/-- Stretch 8: 1 operation of @main's own, in order. -/
abbrev tailOps8 : List (HloOp τ sig (Elt F)) :=
  [ StableHlo.nullary main_c_6 (constantI S_ 32 32#32) ]
theorem tailOps8_sub : (tailOps8 : List (HloOp τ sig (Elt F))).Forall fun op => op.bufs ⊆ StableHlo.tcRefs τ sig :=
  StableHlo.nullary_bufs_sub ..
theorem tailOps8_fresh : (tailOps8 : List (HloOp τ sig (Elt F))).Forall fun op => op.fresh = ∅ :=
  rfl

/-- Stretch 9: the 21 operations of @remainder's body at the call whose buffers are `main_call4`, nested calls' bodies in place. -/
abbrev tailOps9 : List (HloOp τ sig (Elt F)) :=
  [ StableHlo.TRef.unary (.of main_c_6 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S200000, .i32⟩) (broadcastInDim S200000 ![] bcast_S_S200000),
    StableHlo.TRef.binary (.of main_v17 : StableHlo.TRef sig ⟨S200000, .i32⟩) (.of main_call4_v3 : StableHlo.TRef sig ⟨S200000, .i32⟩) (.of main_call4_v4 : StableHlo.TRef sig ⟨S200000, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S200000, .i32⟩) (broadcastInDim S200000 ![] bcast_S_S200000),
    StableHlo.TRef.binary (.of main_call4_v4 : StableHlo.TRef sig ⟨S200000, .i32⟩) (.of main_call4_v5 : StableHlo.TRef sig ⟨S200000, .i32⟩) (.of main_call4_v6 : StableHlo.TRef sig ⟨S200000, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S200000, .i32⟩) (broadcastInDim S200000 ![] bcast_S_S200000),
    StableHlo.TRef.binary (.of main_call4_v4 : StableHlo.TRef sig ⟨S200000, .i32⟩) (.of main_call4_v7 : StableHlo.TRef sig ⟨S200000, .i32⟩) (.of main_call4_v8 : StableHlo.TRef sig ⟨S200000, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S200000, .i1⟩) (broadcastInDim S200000 ![] bcast_S_S200000),
    StableHlo.TRef.binary (.of main_call4_v8 : StableHlo.TRef sig ⟨S200000, .i1⟩) (.of main_call4_v10 : StableHlo.TRef sig ⟨S200000, .i1⟩) (.of main_call4_v11 : StableHlo.TRef sig ⟨S200000, .i1⟩) (cmpi .ne),
    StableHlo.TRef.binary (.of main_call4_v11 : StableHlo.TRef sig ⟨S200000, .i1⟩) (.of main_call4_v6 : StableHlo.TRef sig ⟨S200000, .i1⟩) (.of main_call4_v12 : StableHlo.TRef sig ⟨S200000, .i1⟩) andi,
    StableHlo.TRef.unary (.of main_call4_v2 : StableHlo.TRef sig ⟨S_, .i32⟩) (.of main_call4_v13 : StableHlo.TRef sig ⟨S200000, .i32⟩) (broadcastInDim S200000 ![] bcast_S_S200000),
    StableHlo.TRef.binary (.of main_call4_v4 : StableHlo.TRef sig ⟨S200000, .i32⟩) (.of main_call4_v13 : StableHlo.TRef sig ⟨S200000, .i32⟩) (.of main_call4_v14 : StableHlo.TRef sig ⟨S200000, .i32⟩) addi,
    StableHlo.TRef.ternary (.of main_call4_v12 : StableHlo.TRef sig ⟨S200000, .i1⟩) (.of main_call4_v14 : StableHlo.TRef sig ⟨S200000, .i32⟩) (.of main_call4_v4 : StableHlo.TRef sig ⟨S200000, .i32⟩) (.of main_v18 : StableHlo.TRef sig ⟨S200000, .i32⟩) select ]
theorem tailOps9_sub : (tailOps9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem tailOps9_fresh : (tailOps9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Stretch 10: 1 operation of @main's own, in order. -/
abbrev tailOps10 : List (HloOp τ sig (Elt F)) :=
  [ StableHlo.nullary main_c_7 (constantI S_ 32 640#32) ]
theorem tailOps10_sub : (tailOps10 : List (HloOp τ sig (Elt F))).Forall fun op => op.bufs ⊆ StableHlo.tcRefs τ sig :=
  StableHlo.nullary_bufs_sub ..
theorem tailOps10_fresh : (tailOps10 : List (HloOp τ sig (Elt F))).Forall fun op => op.fresh = ∅ :=
  rfl

/-- Stretch 11: the 16 operations of @floor_divide's body at the call whose buffers are `main_call5`, nested calls' bodies in place. -/
abbrev tailOps11 : List (HloOp τ sig (Elt F)) :=
  [ StableHlo.TRef.unary (.of main_c_7 : StableHlo.TRef sig ⟨S_, .i32⟩) (.of main_call5_v0 : StableHlo.TRef sig ⟨S200000, .i32⟩) (broadcastInDim S200000 ![] bcast_S_S200000),
    StableHlo.TRef.binary (.of main_v16 : StableHlo.TRef sig ⟨S200000, .i32⟩) (.of main_call5_v0 : StableHlo.TRef sig ⟨S200000, .i32⟩) (.of main_call5_v1 : StableHlo.TRef sig ⟨S200000, .i32⟩) Host.divsi,
    StableHlo.TRef.unary (.of main_v16 : StableHlo.TRef sig ⟨S200000, .i32⟩) (.of main_call5_v2 : StableHlo.TRef sig ⟨S200000, .i32⟩) signi,
    StableHlo.TRef.unary (.of main_c_7 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S200000, .i32⟩) (broadcastInDim S200000 ![] bcast_S_S200000),
    StableHlo.TRef.binary (.of main_call5_v2 : StableHlo.TRef sig ⟨S200000, .i32⟩) (.of main_call5_v4 : StableHlo.TRef sig ⟨S200000, .i32⟩) (.of main_call5_v5 : StableHlo.TRef sig ⟨S200000, .i1⟩) (cmpi .ne),
    StableHlo.TRef.unary (.of main_c_7 : StableHlo.TRef sig ⟨S_, .i32⟩) (.of main_call5_v6 : StableHlo.TRef sig ⟨S200000, .i32⟩) (broadcastInDim S200000 ![] bcast_S_S200000),
    StableHlo.TRef.binary (.of main_v16 : StableHlo.TRef sig ⟨S200000, .i32⟩) (.of main_call5_v6 : StableHlo.TRef sig ⟨S200000, .i32⟩) (.of main_call5_v7 : StableHlo.TRef sig ⟨S200000, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S200000, .i32⟩) (broadcastInDim S200000 ![] bcast_S_S200000),
    StableHlo.TRef.binary (.of main_call5_v7 : StableHlo.TRef sig ⟨S200000, .i32⟩) (.of main_call5_v8 : StableHlo.TRef sig ⟨S200000, .i32⟩) (.of main_call5_v9 : StableHlo.TRef sig ⟨S200000, .i1⟩) (cmpi .ne),
    StableHlo.TRef.binary (.of main_call5_v5 : StableHlo.TRef sig ⟨S200000, .i1⟩) (.of main_call5_v9 : StableHlo.TRef sig ⟨S200000, .i1⟩) (.of main_call5_v10 : StableHlo.TRef sig ⟨S200000, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S200000, .i32⟩) (broadcastInDim S200000 ![] bcast_S_S200000),
    StableHlo.TRef.binary (.of main_call5_v1 : StableHlo.TRef sig ⟨S200000, .i32⟩) (.of main_call5_v11 : StableHlo.TRef sig ⟨S200000, .i32⟩) (.of main_call5_v12 : StableHlo.TRef sig ⟨S200000, .i32⟩) subi,
    StableHlo.TRef.ternary (.of main_call5_v10 : StableHlo.TRef sig ⟨S200000, .i1⟩) (.of main_call5_v12 : StableHlo.TRef sig ⟨S200000, .i32⟩) (.of main_call5_v1 : StableHlo.TRef sig ⟨S200000, .i32⟩) (.of main_v19 : StableHlo.TRef sig ⟨S200000, .i32⟩) select ]
theorem tailOps11_sub : (tailOps11 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem tailOps11_fresh : (tailOps11 : List (HloOp τ sig (Elt F))).Forall fun op => op.fresh = ∅ :=
  ⟨rfl, rfl, rfl, rfl, rfl, rfl, rfl, rfl, rfl, rfl, rfl, rfl, rfl, rfl, rfl, rfl⟩

/-- Stretch 12: 1 operation of @main's own, in order. -/
abbrev tailOps12 : List (HloOp τ sig (Elt F)) :=
  [ StableHlo.nullary main_c_8 (constantI S_ 32 480#32) ]
theorem tailOps12_sub : (tailOps12 : List (HloOp τ sig (Elt F))).Forall fun op => op.bufs ⊆ StableHlo.tcRefs τ sig :=
  StableHlo.nullary_bufs_sub ..
theorem tailOps12_fresh : (tailOps12 : List (HloOp τ sig (Elt F))).Forall fun op => op.fresh = ∅ :=
  rfl

/-- Stretch 13: the 21 operations of @remainder's body at the call whose buffers are `main_call6`, nested calls' bodies in place. -/
abbrev tailOps13 : List (HloOp τ sig (Elt F)) :=
  [ StableHlo.TRef.unary (.of main_c_8 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S200000, .i32⟩) (broadcastInDim S200000 ![] bcast_S_S200000),
    StableHlo.TRef.binary (.of main_v19 : StableHlo.TRef sig ⟨S200000, .i32⟩) (.of main_call6_v3 : StableHlo.TRef sig ⟨S200000, .i32⟩) (.of main_call6_v4 : StableHlo.TRef sig ⟨S200000, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S200000, .i32⟩) (broadcastInDim S200000 ![] bcast_S_S200000),
    StableHlo.TRef.binary (.of main_call6_v4 : StableHlo.TRef sig ⟨S200000, .i32⟩) (.of main_call6_v5 : StableHlo.TRef sig ⟨S200000, .i32⟩) (.of main_call6_v6 : StableHlo.TRef sig ⟨S200000, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S200000, .i32⟩) (broadcastInDim S200000 ![] bcast_S_S200000),
    StableHlo.TRef.binary (.of main_call6_v4 : StableHlo.TRef sig ⟨S200000, .i32⟩) (.of main_call6_v7 : StableHlo.TRef sig ⟨S200000, .i32⟩) (.of main_call6_v8 : StableHlo.TRef sig ⟨S200000, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S200000, .i1⟩) (broadcastInDim S200000 ![] bcast_S_S200000),
    StableHlo.TRef.binary (.of main_call6_v8 : StableHlo.TRef sig ⟨S200000, .i1⟩) (.of main_call6_v10 : StableHlo.TRef sig ⟨S200000, .i1⟩) (.of main_call6_v11 : StableHlo.TRef sig ⟨S200000, .i1⟩) (cmpi .ne),
    StableHlo.TRef.binary (.of main_call6_v11 : StableHlo.TRef sig ⟨S200000, .i1⟩) (.of main_call6_v6 : StableHlo.TRef sig ⟨S200000, .i1⟩) (.of main_call6_v12 : StableHlo.TRef sig ⟨S200000, .i1⟩) andi,
    StableHlo.TRef.unary (.of main_call6_v2 : StableHlo.TRef sig ⟨S_, .i32⟩) (.of main_call6_v13 : StableHlo.TRef sig ⟨S200000, .i32⟩) (broadcastInDim S200000 ![] bcast_S_S200000),
    StableHlo.TRef.binary (.of main_call6_v4 : StableHlo.TRef sig ⟨S200000, .i32⟩) (.of main_call6_v13 : StableHlo.TRef sig ⟨S200000, .i32⟩) (.of main_call6_v14 : StableHlo.TRef sig ⟨S200000, .i32⟩) addi,
    StableHlo.TRef.ternary (.of main_call6_v12 : StableHlo.TRef sig ⟨S200000, .i1⟩) (.of main_call6_v14 : StableHlo.TRef sig ⟨S200000, .i32⟩) (.of main_call6_v4 : StableHlo.TRef sig ⟨S200000, .i32⟩) (.of main_v20 : StableHlo.TRef sig ⟨S200000, .i32⟩) select ]
theorem tailOps13_sub : (tailOps13 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem tailOps13_fresh : (tailOps13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Stretch 14: 1 operation of @main's own, in order. -/
abbrev tailOps14 : List (HloOp τ sig (Elt F)) :=
  [ StableHlo.nullary main_c_9 (constantI S_ 32 1#32) ]
theorem tailOps14_sub : (tailOps14 : List (HloOp τ sig (Elt F))).Forall fun op => op.bufs ⊆ StableHlo.tcRefs τ sig :=
  StableHlo.nullary_bufs_sub ..
theorem tailOps14_fresh : (tailOps14 : List (HloOp τ sig (Elt F))).Forall fun op => op.fresh = ∅ :=
  rfl

/-- Stretch 15: the 16 operations of @floor_divide's body at the call whose buffers are `main_call7`, nested calls' bodies in place. -/
abbrev tailOps15 : List (HloOp τ sig (Elt F)) :=
  [ StableHlo.TRef.unary (.of main_c_9 : StableHlo.TRef sig ⟨S_, .i32⟩) (.of main_call7_v0 : StableHlo.TRef sig ⟨S200000, .i32⟩) (broadcastInDim S200000 ![] bcast_S_S200000),
    StableHlo.TRef.binary (.of main_v16 : StableHlo.TRef sig ⟨S200000, .i32⟩) (.of main_call7_v0 : StableHlo.TRef sig ⟨S200000, .i32⟩) (.of main_call7_v1 : StableHlo.TRef sig ⟨S200000, .i32⟩) Host.divsi,
    StableHlo.TRef.unary (.of main_v16 : StableHlo.TRef sig ⟨S200000, .i32⟩) (.of main_call7_v2 : StableHlo.TRef sig ⟨S200000, .i32⟩) signi,
    StableHlo.TRef.unary (.of main_c_9 : StableHlo.TRef sig ⟨S_, .i32⟩) (.of main_call7_v3 : StableHlo.TRef sig ⟨S_, .i32⟩) signi,
    StableHlo.TRef.unary (.of main_call7_v3 : StableHlo.TRef sig ⟨S_, .i32⟩) (.of main_call7_v4 : StableHlo.TRef sig ⟨S200000, .i32⟩) (broadcastInDim S200000 ![] bcast_S_S200000),
    StableHlo.TRef.binary (.of main_call7_v2 : StableHlo.TRef sig ⟨S200000, .i32⟩) (.of main_call7_v4 : StableHlo.TRef sig ⟨S200000, .i32⟩) (.of main_call7_v5 : StableHlo.TRef sig ⟨S200000, .i1⟩) (cmpi .ne),
    StableHlo.TRef.unary (.of main_c_9 : StableHlo.TRef sig ⟨S_, .i32⟩) (.of main_call7_v6 : StableHlo.TRef sig ⟨S200000, .i32⟩) (broadcastInDim S200000 ![] bcast_S_S200000),
    StableHlo.TRef.binary (.of main_v16 : StableHlo.TRef sig ⟨S200000, .i32⟩) (.of main_call7_v6 : StableHlo.TRef sig ⟨S200000, .i32⟩) (.of main_call7_v7 : StableHlo.TRef sig ⟨S200000, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v8 : StableHlo.TRef sig ⟨S200000, .i32⟩) (broadcastInDim S200000 ![] bcast_S_S200000),
    StableHlo.TRef.binary (.of main_call7_v7 : StableHlo.TRef sig ⟨S200000, .i32⟩) (.of main_call7_v8 : StableHlo.TRef sig ⟨S200000, .i32⟩) (.of main_call7_v9 : StableHlo.TRef sig ⟨S200000, .i1⟩) (cmpi .ne),
    StableHlo.TRef.binary (.of main_call7_v5 : StableHlo.TRef sig ⟨S200000, .i1⟩) (.of main_call7_v9 : StableHlo.TRef sig ⟨S200000, .i1⟩) (.of main_call7_v10 : StableHlo.TRef sig ⟨S200000, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v11 : StableHlo.TRef sig ⟨S200000, .i32⟩) (broadcastInDim S200000 ![] bcast_S_S200000),
    StableHlo.TRef.binary (.of main_call7_v1 : StableHlo.TRef sig ⟨S200000, .i32⟩) (.of main_call7_v11 : StableHlo.TRef sig ⟨S200000, .i32⟩) (.of main_call7_v12 : StableHlo.TRef sig ⟨S200000, .i32⟩) subi,
    StableHlo.TRef.ternary (.of main_call7_v10 : StableHlo.TRef sig ⟨S200000, .i1⟩) (.of main_call7_v12 : StableHlo.TRef sig ⟨S200000, .i32⟩) (.of main_call7_v1 : StableHlo.TRef sig ⟨S200000, .i32⟩) (.of main_v21 : StableHlo.TRef sig ⟨S200000, .i32⟩) select ]
theorem tailOps15_sub : (tailOps15 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem tailOps15_fresh : (tailOps15 : List (HloOp τ sig (Elt F))).Forall fun op => op.fresh = ∅ :=
  ⟨rfl, rfl, rfl, rfl, rfl, rfl, rfl, rfl, rfl, rfl, rfl, rfl, rfl, rfl, rfl, rfl⟩

/-- Stretch 16: 1 operation of @main's own, in order. -/
abbrev tailOps16 : List (HloOp τ sig (Elt F)) :=
  [ StableHlo.nullary main_c_10 (constantI S_ 32 640#32) ]
theorem tailOps16_sub : (tailOps16 : List (HloOp τ sig (Elt F))).Forall fun op => op.bufs ⊆ StableHlo.tcRefs τ sig :=
  StableHlo.nullary_bufs_sub ..
theorem tailOps16_fresh : (tailOps16 : List (HloOp τ sig (Elt F))).Forall fun op => op.fresh = ∅ :=
  rfl

/-- Stretch 17: the 21 operations of @remainder's body at the call whose buffers are `main_call8`, nested calls' bodies in place. -/
abbrev tailOps17 : List (HloOp τ sig (Elt F)) :=
  [ StableHlo.TRef.unary (.of main_c_10 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary (.of main_call8_v2 : StableHlo.TRef sig ⟨S_, .i32⟩) (.of main_call8_v3 : StableHlo.TRef sig ⟨S200000, .i32⟩) (broadcastInDim S200000 ![] bcast_S_S200000),
    StableHlo.TRef.binary (.of main_v21 : StableHlo.TRef sig ⟨S200000, .i32⟩) (.of main_call8_v3 : StableHlo.TRef sig ⟨S200000, .i32⟩) (.of main_call8_v4 : StableHlo.TRef sig ⟨S200000, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S200000, .i32⟩) (broadcastInDim S200000 ![] bcast_S_S200000),
    StableHlo.TRef.binary (.of main_call8_v4 : StableHlo.TRef sig ⟨S200000, .i32⟩) (.of main_call8_v5 : StableHlo.TRef sig ⟨S200000, .i32⟩) (.of main_call8_v6 : StableHlo.TRef sig ⟨S200000, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S200000, .i32⟩) (broadcastInDim S200000 ![] bcast_S_S200000),
    StableHlo.TRef.binary (.of main_call8_v4 : StableHlo.TRef sig ⟨S200000, .i32⟩) (.of main_call8_v7 : StableHlo.TRef sig ⟨S200000, .i32⟩) (.of main_call8_v8 : StableHlo.TRef sig ⟨S200000, .i1⟩) (cmpi .slt),
    StableHlo.TRef.nullary (.of main_call8_c_3 : StableHlo.TRef sig ⟨S_, .i32⟩) (constantI S_ 32 0#32),
    StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S200000, .i1⟩) (broadcastInDim S200000 ![] bcast_S_S200000),
    StableHlo.TRef.binary (.of main_call8_v8 : StableHlo.TRef sig ⟨S200000, .i1⟩) (.of main_call8_v10 : StableHlo.TRef sig ⟨S200000, .i1⟩) (.of main_call8_v11 : StableHlo.TRef sig ⟨S200000, .i1⟩) (cmpi .ne),
    StableHlo.TRef.binary (.of main_call8_v11 : StableHlo.TRef sig ⟨S200000, .i1⟩) (.of main_call8_v6 : StableHlo.TRef sig ⟨S200000, .i1⟩) (.of main_call8_v12 : StableHlo.TRef sig ⟨S200000, .i1⟩) andi,
    StableHlo.TRef.unary (.of main_call8_v2 : StableHlo.TRef sig ⟨S_, .i32⟩) (.of main_call8_v13 : StableHlo.TRef sig ⟨S200000, .i32⟩) (broadcastInDim S200000 ![] bcast_S_S200000),
    StableHlo.TRef.binary (.of main_call8_v4 : StableHlo.TRef sig ⟨S200000, .i32⟩) (.of main_call8_v13 : StableHlo.TRef sig ⟨S200000, .i32⟩) (.of main_call8_v14 : StableHlo.TRef sig ⟨S200000, .i32⟩) addi,
    StableHlo.TRef.ternary (.of main_call8_v12 : StableHlo.TRef sig ⟨S200000, .i1⟩) (.of main_call8_v14 : StableHlo.TRef sig ⟨S200000, .i32⟩) (.of main_call8_v4 : StableHlo.TRef sig ⟨S200000, .i32⟩) (.of main_v22 : StableHlo.TRef sig ⟨S200000, .i32⟩) select ]
theorem tailOps17_sub : (tailOps17 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem tailOps17_fresh : (tailOps17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Stretch 18: 7 operations of @main's own, in order. -/
abbrev tailOps18 : List (HloOp τ sig (Elt F)) :=
  [ StableHlo.nullary main_v23 (iotaInDim S200000 32 0),
    StableHlo.unary main_v4 main_v24 ((extui 32 · natLt_1_32) : (⟨S32x480x640, .i1⟩ : BufTy).Contents (Elt F) → (⟨S32x480x640, .i32⟩ : BufTy).Contents (Elt F)),
    StableHlo.nullary main_c_11 (constantI S_ 32 0#32),
    StableHlo.binary main_v24 main_c_11 main_v25 ((fun x v => Host.reduce IntOp.addi x v reducesTo_S32x480x640_S_d0_1_2 h_S_) : (⟨S32x480x640, .i32⟩ : BufTy).Contents (Elt F) → (⟨S_, .i32⟩ : BufTy).Contents (Elt F) → (⟨S_, .i32⟩ : BufTy).Contents (Elt F)),
    StableHlo.unary main_v25 main_v26 (broadcastInDim S200000 ![] bcast_S_S200000 : (⟨S_, .i32⟩ : BufTy).Contents (Elt F) → (⟨S200000, .i32⟩ : BufTy).Contents (Elt F)),
    StableHlo.binary main_v23 main_v26 main_v27 (cmpi .sge : (⟨S200000, .i32⟩ : BufTy).Contents (Elt F) → (⟨S200000, .i32⟩ : BufTy).Contents (Elt F) → (⟨S200000, .i1⟩ : BufTy).Contents (Elt F)),
    StableHlo.nullary main_c_12 (constantI S_ 32 0#32) ]
theorem tailOps18_sub : (tailOps18 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.unary_bufs_sub .., StableHlo.binary_bufs_sub .., StableHlo.nullary_bufs_sub ..⟩
theorem tailOps18_fresh : (tailOps18 : List (HloOp τ sig (Elt F))).Forall fun op => op.fresh = ∅ :=
  ⟨rfl, rfl, rfl, rfl, rfl, rfl, rfl⟩

/-- Stretch 19: the 3 operations of @_where_4's body at the call whose buffers are `main_call9`, nested calls' bodies in place. -/
abbrev tailOps19 : List (HloOp τ sig (Elt F)) :=
  [ StableHlo.TRef.unary (.of main_c_12 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S200000, .i32⟩) (broadcastInDim S200000 ![] bcast_S_S200000),
    StableHlo.TRef.ternary (.of main_v27 : StableHlo.TRef sig ⟨S200000, .i1⟩) (.of main_call9_v1 : StableHlo.TRef sig ⟨S200000, .i32⟩) (.of main_v18 : StableHlo.TRef sig ⟨S200000, .i32⟩) (.of main_v28 : StableHlo.TRef sig ⟨S200000, .i32⟩) select ]
theorem tailOps19_sub : (tailOps19 : List (HloOp τ sig (Elt F))).Forall fun op => op.bufs ⊆ StableHlo.tcRefs τ sig :=
  ⟨StableHlo.unary_bufs_sub .., StableHlo.unary_bufs_sub .., StableHlo.ternary_bufs_sub ..⟩
theorem tailOps19_fresh : (tailOps19 : List (HloOp τ sig (Elt F))).Forall fun op => op.fresh = ∅ :=
  ⟨rfl, rfl, rfl⟩

/-- Stretch 20: 1 operation of @main's own, in order. -/
abbrev tailOps20 : List (HloOp τ sig (Elt F)) :=
  [ StableHlo.nullary main_c_13 (constantI S_ 32 0#32) ]
theorem tailOps20_sub : (tailOps20 : List (HloOp τ sig (Elt F))).Forall fun op => op.bufs ⊆ StableHlo.tcRefs τ sig :=
  StableHlo.nullary_bufs_sub ..
theorem tailOps20_fresh : (tailOps20 : List (HloOp τ sig (Elt F))).Forall fun op => op.fresh = ∅ :=
  rfl

/-- Stretch 21: the 3 operations of @_where_4's body at the call whose buffers are `main_call10`, nested calls' bodies in place. -/
abbrev tailOps21 : List (HloOp τ sig (Elt F)) :=
  [ StableHlo.TRef.unary (.of main_c_13 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S200000, .i32⟩) (broadcastInDim S200000 ![] bcast_S_S200000),
    StableHlo.TRef.ternary (.of main_v27 : StableHlo.TRef sig ⟨S200000, .i1⟩) (.of main_call10_v1 : StableHlo.TRef sig ⟨S200000, .i32⟩) (.of main_v20 : StableHlo.TRef sig ⟨S200000, .i32⟩) (.of main_v29 : StableHlo.TRef sig ⟨S200000, .i32⟩) select ]
theorem tailOps21_sub : (tailOps21 : List (HloOp τ sig (Elt F))).Forall fun op => op.bufs ⊆ StableHlo.tcRefs τ sig :=
  ⟨StableHlo.unary_bufs_sub .., StableHlo.unary_bufs_sub .., StableHlo.ternary_bufs_sub ..⟩
theorem tailOps21_fresh : (tailOps21 : List (HloOp τ sig (Elt F))).Forall fun op => op.fresh = ∅ :=
  ⟨rfl, rfl, rfl⟩

/-- Stretch 22: 1 operation of @main's own, in order. -/
abbrev tailOps22 : List (HloOp τ sig (Elt F)) :=
  [ StableHlo.nullary main_c_14 (constantI S_ 32 0#32) ]
theorem tailOps22_sub : (tailOps22 : List (HloOp τ sig (Elt F))).Forall fun op => op.bufs ⊆ StableHlo.tcRefs τ sig :=
  StableHlo.nullary_bufs_sub ..
theorem tailOps22_fresh : (tailOps22 : List (HloOp τ sig (Elt F))).Forall fun op => op.fresh = ∅ :=
  rfl

/-- Stretch 23: the 3 operations of @_where_4's body at the call whose buffers are `main_call11`, nested calls' bodies in place. -/
abbrev tailOps23 : List (HloOp τ sig (Elt F)) :=
  [ StableHlo.TRef.unary (.of main_c_14 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S200000, .i32⟩) (broadcastInDim S200000 ![] bcast_S_S200000),
    StableHlo.TRef.ternary (.of main_v27 : StableHlo.TRef sig ⟨S200000, .i1⟩) (.of main_call11_v1 : StableHlo.TRef sig ⟨S200000, .i32⟩) (.of main_v22 : StableHlo.TRef sig ⟨S200000, .i32⟩) (.of main_v30 : StableHlo.TRef sig ⟨S200000, .i32⟩) select ]
theorem tailOps23_sub : (tailOps23 : List (HloOp τ sig (Elt F))).Forall fun op => op.bufs ⊆ StableHlo.tcRefs τ sig :=
  ⟨StableHlo.unary_bufs_sub .., StableHlo.unary_bufs_sub .., StableHlo.ternary_bufs_sub ..⟩
theorem tailOps23_fresh : (tailOps23 : List (HloOp τ sig (Elt F))).Forall fun op => op.fresh = ∅ :=
  ⟨rfl, rfl, rfl⟩

/-- Stretch 24: 9 operations of @main's own, in order. -/
abbrev tailOps24 : List (HloOp τ sig (Elt F)) :=
  [ StableHlo.unary main_v4 main_v31 ((extui 32 · natLt_1_32) : (⟨S32x480x640, .i1⟩ : BufTy).Contents (Elt F) → (⟨S32x480x640, .i32⟩ : BufTy).Contents (Elt F)),
    StableHlo.nullary main_c_15 (constantI S_ 32 0#32),
    StableHlo.binary main_v31 main_c_15 main_v32 ((fun x v => Host.reduce IntOp.addi x v reducesTo_S32x480x640_S_d0_1_2 h_S_) : (⟨S32x480x640, .i32⟩ : BufTy).Contents (Elt F) → (⟨S_, .i32⟩ : BufTy).Contents (Elt F) → (⟨S_, .i32⟩ : BufTy).Contents (Elt F)),
    StableHlo.nullary main_c_16 (constantI S_ 32 200000#32),
    StableHlo.binary main_v32 main_c_16 main_v33 (minsi : (⟨S_, .i32⟩ : BufTy).Contents (Elt F) → (⟨S_, .i32⟩ : BufTy).Contents (Elt F) → (⟨S_, .i32⟩ : BufTy).Contents (Elt F)),
    StableHlo.nullary main_v34 (iotaInDim S200000 32 0),
    StableHlo.unary main_v33 main_v35 (broadcastInDim S200000 ![] bcast_S_S200000 : (⟨S_, .i32⟩ : BufTy).Contents (Elt F) → (⟨S200000, .i32⟩ : BufTy).Contents (Elt F)),
    StableHlo.binary main_v34 main_v35 main_v36 (cmpi .slt : (⟨S200000, .i32⟩ : BufTy).Contents (Elt F) → (⟨S200000, .i32⟩ : BufTy).Contents (Elt F) → (⟨S200000, .i1⟩ : BufTy).Contents (Elt F)),
    StableHlo.nullary main_c_17 (constantI S_ 32 8#32) ]
theorem tailOps24_sub : (tailOps24 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem tailOps24_fresh : (tailOps24 : List (HloOp τ sig (Elt F))).Forall fun op => op.fresh = ∅ :=
  ⟨rfl, rfl, rfl, rfl, rfl, rfl, rfl, rfl, rfl⟩

/-- Stretch 25: the 17 operations of @floor_divide_5's body at the call whose buffers are `main_call12`, nested calls' bodies in place. -/
abbrev tailOps25 : List (HloOp τ sig (Elt F)) :=
  [ StableHlo.TRef.unary (.of main_c_17 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S200000, .i32⟩) (broadcastInDim S200000 ![] bcast_S_S200000),
    StableHlo.TRef.binary (.of main_v28 : StableHlo.TRef sig ⟨S200000, .i32⟩) (.of main_call12_v1 : StableHlo.TRef sig ⟨S200000, .i32⟩) (.of main_call12_v2 : StableHlo.TRef sig ⟨S200000, .i32⟩) Host.divsi,
    StableHlo.TRef.unary (.of main_v28 : StableHlo.TRef sig ⟨S200000, .i32⟩) (.of main_call12_v3 : StableHlo.TRef sig ⟨S200000, .i32⟩) signi,
    StableHlo.TRef.unary (.of main_call12_v0 : StableHlo.TRef sig ⟨S_, .i32⟩) (.of main_call12_v4 : StableHlo.TRef sig ⟨S_, .i32⟩) signi,
    StableHlo.TRef.unary (.of main_call12_v4 : StableHlo.TRef sig ⟨S_, .i32⟩) (.of main_call12_v5 : StableHlo.TRef sig ⟨S200000, .i32⟩) (broadcastInDim S200000 ![] bcast_S_S200000),
    StableHlo.TRef.binary (.of main_call12_v3 : StableHlo.TRef sig ⟨S200000, .i32⟩) (.of main_call12_v5 : StableHlo.TRef sig ⟨S200000, .i32⟩) (.of main_call12_v6 : StableHlo.TRef sig ⟨S200000, .i1⟩) (cmpi .ne),
    StableHlo.TRef.unary (.of main_call12_v0 : StableHlo.TRef sig ⟨S_, .i32⟩) (.of main_call12_v7 : StableHlo.TRef sig ⟨S200000, .i32⟩) (broadcastInDim S200000 ![] bcast_S_S200000),
    StableHlo.TRef.binary (.of main_v28 : StableHlo.TRef sig ⟨S200000, .i32⟩) (.of main_call12_v7 : StableHlo.TRef sig ⟨S200000, .i32⟩) (.of main_call12_v8 : StableHlo.TRef sig ⟨S200000, .i32⟩) Host.remsi,
    StableHlo.TRef.nullary (.of main_call12_c : StableHlo.TRef sig ⟨S_, .i32⟩) (constantI S_ 32 0#32),
    StableHlo.TRef.unary (.of main_call12_c : StableHlo.TRef sig ⟨S_, .i32⟩) (.of main_call12_v9 : StableHlo.TRef sig ⟨S200000, .i32⟩) (broadcastInDim S200000 ![] bcast_S_S200000),
    StableHlo.TRef.binary (.of main_call12_v8 : StableHlo.TRef sig ⟨S200000, .i32⟩) (.of main_call12_v9 : StableHlo.TRef sig ⟨S200000, .i32⟩) (.of main_call12_v10 : StableHlo.TRef sig ⟨S200000, .i1⟩) (cmpi .ne),
    StableHlo.TRef.binary (.of main_call12_v6 : StableHlo.TRef sig ⟨S200000, .i1⟩) (.of main_call12_v10 : StableHlo.TRef sig ⟨S200000, .i1⟩) (.of main_call12_v11 : StableHlo.TRef sig ⟨S200000, .i1⟩) andi,
    StableHlo.TRef.nullary (.of main_call12_c_0 : StableHlo.TRef sig ⟨S_, .i32⟩) (constantI S_ 32 1#32),
    StableHlo.TRef.unary (.of main_call12_c_0 : StableHlo.TRef sig ⟨S_, .i32⟩) (.of main_call12_v12 : StableHlo.TRef sig ⟨S200000, .i32⟩) (broadcastInDim S200000 ![] bcast_S_S200000),
    StableHlo.TRef.binary (.of main_call12_v2 : StableHlo.TRef sig ⟨S200000, .i32⟩) (.of main_call12_v12 : StableHlo.TRef sig ⟨S200000, .i32⟩) (.of main_call12_v13 : StableHlo.TRef sig ⟨S200000, .i32⟩) subi,
    StableHlo.TRef.ternary (.of main_call12_v11 : StableHlo.TRef sig ⟨S200000, .i1⟩) (.of main_call12_v13 : StableHlo.TRef sig ⟨S200000, .i32⟩) (.of main_call12_v2 : StableHlo.TRef sig ⟨S200000, .i32⟩) (.of main_v37 : StableHlo.TRef sig ⟨S200000, .i32⟩) select ]
theorem tailOps25_sub : (tailOps25 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem tailOps25_fresh : (tailOps25 : List (HloOp τ sig (Elt F))).Forall fun op => op.fresh = ∅ :=
  ⟨rfl, rfl, rfl, rfl, rfl, rfl, rfl, rfl, rfl, rfl, rfl, rfl, rfl, rfl, rfl, rfl, rfl⟩

/-- Stretch 26: 1 operation of @main's own, in order. -/
abbrev tailOps26 : List (HloOp τ sig (Elt F)) :=
  [ StableHlo.nullary main_c_18 (constantI S_ 32 8#32) ]
theorem tailOps26_sub : (tailOps26 : List (HloOp τ sig (Elt F))).Forall fun op => op.bufs ⊆ StableHlo.tcRefs τ sig :=
  StableHlo.nullary_bufs_sub ..
theorem tailOps26_fresh : (tailOps26 : List (HloOp τ sig (Elt F))).Forall fun op => op.fresh = ∅ :=
  rfl

/-- Stretch 27: the 21 operations of @remainder's body at the call whose buffers are `main_call13`, nested calls' bodies in place. -/
abbrev tailOps27 : List (HloOp τ sig (Elt F)) :=
  [ StableHlo.TRef.unary (.of main_c_18 : StableHlo.TRef sig ⟨S_, .i32⟩) (.of main_call13_v0 : StableHlo.TRef sig ⟨S_, .i32⟩) id,
    StableHlo.TRef.nullary (.of main_call13_c : StableHlo.TRef sig ⟨S_, .i32⟩) (constantI S_ 32 0#32),
    StableHlo.TRef.binary (.of main_call13_v0 : StableHlo.TRef sig ⟨S_, .i32⟩) (.of main_call13_c : StableHlo.TRef sig ⟨S_, .i32⟩) (.of main_call13_v1 : StableHlo.TRef sig ⟨S_, .i1⟩) (cmpi .eq),
    StableHlo.TRef.nullary (.of main_call13_c_0 : StableHlo.TRef sig ⟨S_, .i32⟩) (constantI S_ 32 1#32),
    StableHlo.TRef.ternary (.of main_call13_v1 : StableHlo.TRef sig ⟨S_, .i1⟩) (.of main_call13_c_0 : StableHlo.TRef sig ⟨S_, .i32⟩) (.of main_call13_v0 : StableHlo.TRef sig ⟨S_, .i32⟩) (.of main_call13_v2 : StableHlo.TRef sig ⟨S_, .i32⟩) select,
    StableHlo.TRef.unary (.of main_call13_v2 : StableHlo.TRef sig ⟨S_, .i32⟩) (.of main_call13_v3 : StableHlo.TRef sig ⟨S200000, .i32⟩) (broadcastInDim S200000 ![] bcast_S_S200000),
    StableHlo.TRef.binary (.of main_v28 : StableHlo.TRef sig ⟨S200000, .i32⟩) (.of main_call13_v3 : StableHlo.TRef sig ⟨S200000, .i32⟩) (.of main_call13_v4 : StableHlo.TRef sig ⟨S200000, .i32⟩) Host.remsi,
    StableHlo.TRef.nullary (.of main_call13_c_1 : StableHlo.TRef sig ⟨S_, .i32⟩) (constantI S_ 32 0#32),
    StableHlo.TRef.unary (.of main_call13_c_1 : StableHlo.TRef sig ⟨S_, .i32⟩) (.of main_call13_v5 : StableHlo.TRef sig ⟨S200000, .i32⟩) (broadcastInDim S200000 ![] bcast_S_S200000),
    StableHlo.TRef.binary (.of main_call13_v4 : StableHlo.TRef sig ⟨S200000, .i32⟩) (.of main_call13_v5 : StableHlo.TRef sig ⟨S200000, .i32⟩) (.of main_call13_v6 : StableHlo.TRef sig ⟨S200000, .i1⟩) (cmpi .ne),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v7 : StableHlo.TRef sig ⟨S200000, .i32⟩) (broadcastInDim S200000 ![] bcast_S_S200000),
    StableHlo.TRef.binary (.of main_call13_v4 : StableHlo.TRef sig ⟨S200000, .i32⟩) (.of main_call13_v7 : StableHlo.TRef sig ⟨S200000, .i32⟩) (.of main_call13_v8 : StableHlo.TRef sig ⟨S200000, .i1⟩) (cmpi .slt),
    StableHlo.TRef.nullary (.of main_call13_c_3 : StableHlo.TRef sig ⟨S_, .i32⟩) (constantI S_ 32 0#32),
    StableHlo.TRef.binary (.of main_call13_v2 : StableHlo.TRef sig ⟨S_, .i32⟩) (.of main_call13_c_3 : StableHlo.TRef sig ⟨S_, .i32⟩) (.of main_call13_v9 : StableHlo.TRef sig ⟨S_, .i1⟩) (cmpi .slt),
    StableHlo.TRef.unary (.of main_call13_v9 : StableHlo.TRef sig ⟨S_, .i1⟩) (.of main_call13_v10 : StableHlo.TRef sig ⟨S200000, .i1⟩) (broadcastInDim S200000 ![] bcast_S_S200000),
    StableHlo.TRef.binary (.of main_call13_v8 : StableHlo.TRef sig ⟨S200000, .i1⟩) (.of main_call13_v10 : StableHlo.TRef sig ⟨S200000, .i1⟩) (.of main_call13_v11 : StableHlo.TRef sig ⟨S200000, .i1⟩) (cmpi .ne),
    StableHlo.TRef.binary (.of main_call13_v11 : StableHlo.TRef sig ⟨S200000, .i1⟩) (.of main_call13_v6 : StableHlo.TRef sig ⟨S200000, .i1⟩) (.of main_call13_v12 : StableHlo.TRef sig ⟨S200000, .i1⟩) andi,
    StableHlo.TRef.unary (.of main_call13_v2 : StableHlo.TRef sig ⟨S_, .i32⟩) (.of main_call13_v13 : StableHlo.TRef sig ⟨S200000, .i32⟩) (broadcastInDim S200000 ![] bcast_S_S200000),
    StableHlo.TRef.binary (.of main_call13_v4 : StableHlo.TRef sig ⟨S200000, .i32⟩) (.of main_call13_v13 : StableHlo.TRef sig ⟨S200000, .i32⟩) (.of main_call13_v14 : StableHlo.TRef sig ⟨S200000, .i32⟩) addi,
    StableHlo.TRef.ternary (.of main_call13_v12 : StableHlo.TRef sig ⟨S200000, .i1⟩) (.of main_call13_v14 : StableHlo.TRef sig ⟨S200000, .i32⟩) (.of main_call13_v4 : StableHlo.TRef sig ⟨S200000, .i32⟩) (.of main_v38 : StableHlo.TRef sig ⟨S200000, .i32⟩) select ]
theorem tailOps27_sub : (tailOps27 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem tailOps27_fresh : (tailOps27 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Stretch 28: 7 operations of @main's own, in order. -/
abbrev tailOps28 : List (HloOp τ sig (Elt F)) :=
  [ StableHlo.unary main_v37 main_v39 (broadcastInDim S200000x1 ![0] bcast_S200000_S200000x1_0 : (⟨S200000, .i32⟩ : BufTy).Contents (Elt F) → (⟨S200000x1, .i32⟩ : BufTy).Contents (Elt F)),
    StableHlo.unary main_v38 main_v40 (broadcastInDim S200000x1 ![0] bcast_S200000_S200000x1_0 : (⟨S200000, .i32⟩ : BufTy).Contents (Elt F) → (⟨S200000x1, .i32⟩ : BufTy).Contents (Elt F)),
    StableHlo.unary main_v29 main_v41 (broadcastInDim S200000x1 ![0] bcast_S200000_S200000x1_0 : (⟨S200000, .i32⟩ : BufTy).Contents (Elt F) → (⟨S200000x1, .i32⟩ : BufTy).Contents (Elt F)),
    StableHlo.unary main_v30 main_v42 (broadcastInDim S200000x1 ![0] bcast_S200000_S200000x1_0 : (⟨S200000, .i32⟩ : BufTy).Contents (Elt F) → (⟨S200000x1, .i32⟩ : BufTy).Contents (Elt F)),
    StableHlo.nary ![main_v39, main_v40, main_v41, main_v42] main_v43 (fun u => concatenate S200000x4 1 [⟨S200000x1, u 0⟩, ⟨S200000x1, u 1⟩, ⟨S200000x1, u 2⟩, ⟨S200000x1, u 3⟩] concatenates_S200000x1_S200000x1_S200000x1_S200000x1_S200000x4_d1),
    StableHlo.unary main_v36 main_v44 (broadcastInDim S200000x1 ![0] bcast_S200000_S200000x1_0 : (⟨S200000, .i1⟩ : BufTy).Contents (Elt F) → (⟨S200000x1, .i1⟩ : BufTy).Contents (Elt F)),
    StableHlo.nullary main_c_19 (constantI S_ 32 0#32) ]
theorem tailOps28_sub : (tailOps28 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.nullary_bufs_sub ..⟩
theorem tailOps28_fresh : (tailOps28 : List (HloOp τ sig (Elt F))).Forall fun op => op.fresh = ∅ :=
  ⟨rfl, rfl, rfl, rfl, rfl, rfl, rfl⟩

/-- Stretch 29: the 4 operations of @_where_6's body at the call whose buffers are `main_call14`, nested calls' bodies in place. -/
abbrev tailOps29 : List (HloOp τ sig (Elt F)) :=
  [ StableHlo.TRef.unary (.of main_c_19 : StableHlo.TRef sig ⟨S_, .i32⟩) (.of main_call14_v0 : StableHlo.TRef sig ⟨S_, .i32⟩) id,
    StableHlo.TRef.unary (.of main_v44 : StableHlo.TRef sig ⟨S200000x1, .i1⟩) (.of main_call14_v1 : StableHlo.TRef sig ⟨S200000x4, .i1⟩) (broadcastInDim S200000x4 ![0, 1] bcast_S200000x1_S200000x4_0_1),
    StableHlo.TRef.unary (.of main_call14_v0 : StableHlo.TRef sig ⟨S_, .i32⟩) (.of main_call14_v2 : StableHlo.TRef sig ⟨S200000x4, .i32⟩) (broadcastInDim S200000x4 ![] bcast_S_S200000x4),
    StableHlo.TRef.ternary (.of main_call14_v1 : StableHlo.TRef sig ⟨S200000x4, .i1⟩) (.of main_v43 : StableHlo.TRef sig ⟨S200000x4, .i32⟩) (.of main_call14_v2 : StableHlo.TRef sig ⟨S200000x4, .i32⟩) (.of main_v45 : StableHlo.TRef sig ⟨S200000x4, .i32⟩) select ]
theorem tailOps29_sub : (tailOps29 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem tailOps29_fresh : (tailOps29 : List (HloOp τ sig (Elt F))).Forall fun op => op.fresh = ∅ :=
  ⟨rfl, rfl, rfl, rfl⟩

/-- Stretch 30: 28 operations of @main's own, in order. -/
abbrev tailOps30 : List (HloOp τ sig (Elt F)) :=
  [ StableHlo.nullary main_c_20 (constantI S_ 32 0#32),
    StableHlo.unary main_c_20 main_v46 (broadcastInDim S200000 ![] bcast_S_S200000 : (⟨S_, .i32⟩ : BufTy).Contents (Elt F) → (⟨S200000, .i32⟩ : BufTy).Contents (Elt F)),
    StableHlo.binary main_v28 main_v46 main_v47 (cmpi .slt : (⟨S200000, .i32⟩ : BufTy).Contents (Elt F) → (⟨S200000, .i32⟩ : BufTy).Contents (Elt F) → (⟨S200000, .i1⟩ : BufTy).Contents (Elt F)),
    StableHlo.nullary main_c_21 (constantI S_ 32 32#32),
    StableHlo.unary main_c_21 main_v48 (broadcastInDim S200000 ![] bcast_S_S200000 : (⟨S_, .i32⟩ : BufTy).Contents (Elt F) → (⟨S200000, .i32⟩ : BufTy).Contents (Elt F)),
    StableHlo.binary main_v28 main_v48 main_v49 (addi : (⟨S200000, .i32⟩ : BufTy).Contents (Elt F) → (⟨S200000, .i32⟩ : BufTy).Contents (Elt F) → (⟨S200000, .i32⟩ : BufTy).Contents (Elt F)),
    StableHlo.ternary main_v47 main_v49 main_v28 main_v50 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.nullary main_c_22 (constantI S_ 32 0#32),
    StableHlo.unary main_c_22 main_v51 (broadcastInDim S200000 ![] bcast_S_S200000 : (⟨S_, .i32⟩ : BufTy).Contents (Elt F) → (⟨S200000, .i32⟩ : BufTy).Contents (Elt F)),
    StableHlo.binary main_v29 main_v51 main_v52 (cmpi .slt : (⟨S200000, .i32⟩ : BufTy).Contents (Elt F) → (⟨S200000, .i32⟩ : BufTy).Contents (Elt F) → (⟨S200000, .i1⟩ : BufTy).Contents (Elt F)),
    StableHlo.nullary main_c_23 (constantI S_ 32 480#32),
    StableHlo.unary main_c_23 main_v53 (broadcastInDim S200000 ![] bcast_S_S200000 : (⟨S_, .i32⟩ : BufTy).Contents (Elt F) → (⟨S200000, .i32⟩ : BufTy).Contents (Elt F)),
    StableHlo.binary main_v29 main_v53 main_v54 (addi : (⟨S200000, .i32⟩ : BufTy).Contents (Elt F) → (⟨S200000, .i32⟩ : BufTy).Contents (Elt F) → (⟨S200000, .i32⟩ : BufTy).Contents (Elt F)),
    StableHlo.ternary main_v52 main_v54 main_v29 main_v55 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.nullary main_c_24 (constantI S_ 32 0#32),
    StableHlo.unary main_c_24 main_v56 (broadcastInDim S200000 ![] bcast_S_S200000 : (⟨S_, .i32⟩ : BufTy).Contents (Elt F) → (⟨S200000, .i32⟩ : BufTy).Contents (Elt F)),
    StableHlo.binary main_v30 main_v56 main_v57 (cmpi .slt : (⟨S200000, .i32⟩ : BufTy).Contents (Elt F) → (⟨S200000, .i32⟩ : BufTy).Contents (Elt F) → (⟨S200000, .i1⟩ : BufTy).Contents (Elt F)),
    StableHlo.nullary main_c_25 (constantI S_ 32 640#32),
    StableHlo.unary main_c_25 main_v58 (broadcastInDim S200000 ![] bcast_S_S200000 : (⟨S_, .i32⟩ : BufTy).Contents (Elt F) → (⟨S200000, .i32⟩ : BufTy).Contents (Elt F)),
    StableHlo.binary main_v30 main_v58 main_v59 (addi : (⟨S200000, .i32⟩ : BufTy).Contents (Elt F) → (⟨S200000, .i32⟩ : BufTy).Contents (Elt F) → (⟨S200000, .i32⟩ : BufTy).Contents (Elt F)),
    StableHlo.ternary main_v57 main_v59 main_v30 main_v60 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v50 main_v61 (broadcastInDim S200000x1 ![0] bcast_S200000_S200000x1_0 : (⟨S200000, .i32⟩ : BufTy).Contents (Elt F) → (⟨S200000x1, .i32⟩ : BufTy).Contents (Elt F)),
    StableHlo.unary main_v55 main_v62 (broadcastInDim S200000x1 ![0] bcast_S200000_S200000x1_0 : (⟨S200000, .i32⟩ : BufTy).Contents (Elt F) → (⟨S200000x1, .i32⟩ : BufTy).Contents (Elt F)),
    StableHlo.unary main_v60 main_v63 (broadcastInDim S200000x1 ![0] bcast_S200000_S200000x1_0 : (⟨S200000, .i32⟩ : BufTy).Contents (Elt F) → (⟨S200000x1, .i32⟩ : BufTy).Contents (Elt F)),
    StableHlo.nary ![main_v61, main_v62, main_v63] main_v64 (fun u => concatenate S200000x3 1 [⟨S200000x1, u 0⟩, ⟨S200000x1, u 1⟩, ⟨S200000x1, u 2⟩] concatenates_S200000x1_S200000x1_S200000x1_S200000x3_d1),
    StableHlo.binary main_v0 main_v64 main_v65 ((fun x i => Host.gather gather_S32x8x480x640_S200000x3_S200000x8_1_023_n_n_023_1_1811 x i) : (⟨S32x8x480x640, .f32⟩ : BufTy).Contents (Elt F) → (⟨S200000x3, .i32⟩ : BufTy).Contents (Elt F) → (⟨S200000x8, .f32⟩ : BufTy).Contents (Elt F)),
    StableHlo.unary main_v36 main_v66 (broadcastInDim S200000x1 ![0] bcast_S200000_S200000x1_0 : (⟨S200000, .i1⟩ : BufTy).Contents (Elt F) → (⟨S200000x1, .i1⟩ : BufTy).Contents (Elt F)),
    StableHlo.nullary main_cst_26 (constant S_ .f32 0x00000000#32) ]
theorem tailOps30_sub : (tailOps30 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.nary_bufs_sub .., StableHlo.binary_bufs_sub .., StableHlo.unary_bufs_sub .., StableHlo.nullary_bufs_sub ..⟩
theorem tailOps30_fresh : (tailOps30 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- Stretch 31: the 4 operations of @_where_7's body at the call whose buffers are `main_call15`, nested calls' bodies in place. -/
abbrev tailOps31 : List (HloOp τ sig (Elt F)) :=
  [ StableHlo.TRef.unary (.of main_cst_26 : StableHlo.TRef sig ⟨S_, .f32⟩) (.of main_call15_v0 : StableHlo.TRef sig ⟨S_, .f32⟩) id,
    StableHlo.TRef.unary (.of main_v66 : StableHlo.TRef sig ⟨S200000x1, .i1⟩) (.of main_call15_v1 : StableHlo.TRef sig ⟨S200000x8, .i1⟩) (broadcastInDim S200000x8 ![0, 1] bcast_S200000x1_S200000x8_0_1),
    StableHlo.TRef.unary (.of main_call15_v0 : StableHlo.TRef sig ⟨S_, .f32⟩) (.of main_call15_v2 : StableHlo.TRef sig ⟨S200000x8, .f32⟩) (broadcastInDim S200000x8 ![] bcast_S_S200000x8),
    StableHlo.TRef.ternary (.of main_call15_v1 : StableHlo.TRef sig ⟨S200000x8, .i1⟩) (.of main_v65 : StableHlo.TRef sig ⟨S200000x8, .f32⟩) (.of main_call15_v2 : StableHlo.TRef sig ⟨S200000x8, .f32⟩) (.of main_v67 : StableHlo.TRef sig ⟨S200000x8, .f32⟩) select ]
theorem tailOps31_sub : (tailOps31 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem tailOps31_fresh : (tailOps31 : List (HloOp τ sig (Elt F))).Forall fun op => op.fresh = ∅ :=
  ⟨rfl, rfl, rfl, rfl⟩

/-- The thirty-one stretches after the mask, in order. -/
abbrev tailOpss : List (List (HloOp τ sig (Elt F))) :=
  [tailOps1, tailOps2, tailOps3, tailOps4, tailOps5, tailOps6, tailOps7, tailOps8, tailOps9, tailOps10, tailOps11, tailOps12, tailOps13, tailOps14, tailOps15, tailOps16, tailOps17, tailOps18, tailOps19, tailOps20, tailOps21, tailOps22, tailOps23, tailOps24, tailOps25, tailOps26, tailOps27, tailOps28, tailOps29, tailOps30, tailOps31]

/-- @main's 258 operations, in order: the mask's seven, then the stretches end to end. -/
abbrev ops : List (HloOp τ sig (Elt F)) := headOps ++ tailOpss.flatten

theorem tailOpss_sub : (tailOpss : List (List (HloOp τ sig (Elt F)))).Forall fun l => l.Forall fun op => op.bufs ⊆ StableHlo.tcRefs τ sig :=
  ⟨tailOps1_sub, tailOps2_sub, tailOps3_sub, tailOps4_sub, tailOps5_sub, tailOps6_sub, tailOps7_sub, tailOps8_sub, tailOps9_sub, tailOps10_sub, tailOps11_sub, tailOps12_sub, tailOps13_sub, tailOps14_sub, tailOps15_sub, tailOps16_sub, tailOps17_sub, tailOps18_sub, tailOps19_sub, tailOps20_sub, tailOps21_sub, tailOps22_sub, tailOps23_sub, tailOps24_sub, tailOps25_sub, tailOps26_sub, tailOps27_sub, tailOps28_sub, tailOps29_sub, tailOps30_sub, tailOps31_sub⟩
theorem tailOpss_fresh : (tailOpss : List (List (HloOp τ sig (Elt F)))).Forall fun l => l.Forall fun op => op.fresh = ∅ :=
  ⟨tailOps1_fresh, tailOps2_fresh, tailOps3_fresh, tailOps4_fresh, tailOps5_fresh, tailOps6_fresh, tailOps7_fresh, tailOps8_fresh, tailOps9_fresh, tailOps10_fresh, tailOps11_fresh, tailOps12_fresh, tailOps13_fresh, tailOps14_fresh, tailOps15_fresh, tailOps16_fresh, tailOps17_fresh, tailOps18_fresh, tailOps19_fresh, tailOps20_fresh, tailOps21_fresh, tailOps22_fresh, tailOps23_fresh, tailOps24_fresh, tailOps25_fresh, tailOps26_fresh, tailOps27_fresh, tailOps28_fresh, tailOps29_fresh, tailOps30_fresh, tailOps31_fresh⟩

/-- A property of every element of every list of a list of lists holds of every element of their concatenation. -/
theorem forall_flatten {α : Type} {p : α → Prop} {ls : List (List α)} (h : ls.Forall fun l => l.Forall p) : ls.flatten.Forall p := by
  rw [List.forall_iff_forall_mem] at h ⊢
  intro x hx
  obtain ⟨l, hl, hxl⟩ := List.mem_flatten.mp hx
  exact List.forall_iff_forall_mem.mp (h l hl) x hxl

/-- A property of every element of two lists holds of every element of their concatenation. -/
theorem forall_append {α : Type} {p : α → Prop} {l₁ l₂ : List α} (h₁ : l₁.Forall p) (h₂ : l₂.Forall p) : (l₁ ++ l₂).Forall p := by
  rw [List.forall_iff_forall_mem] at h₁ h₂ ⊢
  intro x hx
  rcases List.mem_append.mp hx with h | h
  · exact h₁ x h
  · exact h₂ x h

theorem ops_sub : (ops : List (HloOp τ sig (Elt F))).Forall fun op => op.bufs ⊆ StableHlo.tcRefs τ sig :=
  forall_append headOps_sub (forall_flatten tailOpss_sub)
theorem ops_fresh : ∀ op ∈ (ops : List (HloOp τ sig (Elt F))), op.fresh = ∅ :=
  List.forall_iff_forall_mem.mp (forall_append headOps_fresh (forall_flatten tailOpss_fresh))

end Cert.ReferenceIdeal.Hand

end
-- ==== Proof.RefRun.lean ====
/- The reference program's run, read off its list of operations.

   `main_eq`: @main of `Cert.ReferenceIdeal` IS the straight line `seq ops` (the list of the neighbouring module: the
   mask's seven operations, then the thirty-one stretches). Both sides are chains of `hlo` steps; on the left the
   sixteen calls are applications of the callees' bodies to the calls' buffer records, and unfolding a body at its
   record (Lean's unfolding of the application is the inlining of the call) and re-associating the sequencing gives
   the right-hand side operation for operation — each typed reference of a record's field computes to the literal
   reference the list names — so the equation holds by computation.

   `run`: the signature scopes no buffer and no semaphore, every operation touches TensorCore references only and
   determines its results, so every weakly fair execution of @main from any memory with zero counters terminates
   with each TensorCore buffer at the fold `after ops` of the operations' results over the launch contents.

   `arg0_kept`: the program is in single-assignment form — each of the 258 buffers other than the argument is the
   result of exactly one operation, and no operation's result is `main_arg0` — so the fold leaves the argument's
   buffer at its launch contents. -/
import proofs.«133728_j60172491817011_1_alg».proof.Proof.RefOps

noncomputable section

namespace Cert.ReferenceIdeal.Hand

open Cert.ReferenceIdeal Cert.ReferenceIdeal.Gen Idealize.ShloMosaic Idealize.ShloMosaic.TcCoe Idealize.SL.Sem

variable {F : FTy → Type} [FloatOps F]

-- 258 `hlo` steps compared one under the other: the comparison recurses once per step
set_option maxRecDepth 16384 in
/-- @main is the straight line of its operations: the two windows in order, each call the callee's body over the
    call's buffers, the sequencing re-associated — all by unfolding definitions. -/
theorem main_eq (c : Dev nD) : main (F := F) c = StableHlo.seq ops := rfl

-- the enumerations over the signature's 259 references recurse past the default depth
set_option maxRecDepth 4096 in
/-- The signature scopes no buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- At the compiled mesh, for any float values, from any memory with zero counters: every weakly fair execution of
    @main on the TensorCore terminates, and every final state has each TensorCore buffer at the operations' fold over
    the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ (fun _ => ops_fresh)

/-! ## The argument is never written -/

/-- An operation whose one result buffer is the reference `y` does not write a reference other than `y`. -/
theorem not_written {op : HloOp τ sig (Elt F)} {r : Ref sig .tc} (y : Ref sig .tc)
    (hw : op.writes = {Proc.devRef .tc y}) (h : r ≠ y) : (Proc.devRef .tc r : DevRef τ sig) ∉ op.writes := by
  rw [hw, Finset.mem_singleton]
  exact StableHlo.devRef_ne_of_ne h

/-- No operation of the mask writes the argument: their results are `main_v0 … main_v4` and two constants. -/
theorem headOps_arg0 : (headOps : List (HloOp τ sig (Elt F))).Forall fun op => (Proc.devRef .tc main_arg0 : DevRef τ sig) ∉ op.writes :=
  ⟨not_written main_v0 rfl (by decide), not_written main_v1 rfl (by decide), not_written main_cst rfl (by decide), not_written main_v2 rfl (by decide), not_written main_cst_0 rfl (by decide), not_written main_v3 rfl (by decide), not_written main_v4 rfl (by decide)⟩
theorem tailOps1_arg0 : (tailOps1 : List (HloOp τ sig (Elt F))).Forall fun op => (Proc.devRef .tc main_arg0 : DevRef τ sig) ∉ op.writes :=
  ⟨not_written main_call0_v0 rfl (by decide), not_written main_call0_v1 rfl (by decide), not_written main_call0_call0_c rfl (by decide), not_written main_call0_call0_v0 rfl (by decide), not_written main_v5 rfl (by decide)⟩
theorem tailOps2_arg0 : (tailOps2 : List (HloOp τ sig (Elt F))).Forall fun op => (Proc.devRef .tc main_arg0 : DevRef τ sig) ∉ op.writes :=
  ⟨not_written main_c rfl (by decide), not_written main_v6 rfl (by decide), not_written main_c_1 rfl (by decide)⟩
theorem tailOps3_arg0 : (tailOps3 : List (HloOp τ sig (Elt F))).Forall fun op => (Proc.devRef .tc main_arg0 : DevRef τ sig) ∉ op.writes :=
  ⟨not_written main_call1_v0 rfl (by decide), not_written main_call1_v1 rfl (by decide), not_written main_v7 rfl (by decide)⟩
theorem tailOps4_arg0 : (tailOps4 : List (HloOp τ sig (Elt F))).Forall fun op => (Proc.devRef .tc main_arg0 : DevRef τ sig) ∉ op.writes :=
  ⟨not_written main_c_2 rfl (by decide), not_written main_v8 rfl (by decide), not_written main_v9 rfl (by decide), not_written main_c_3 rfl (by decide), not_written main_v10 rfl (by decide), not_written main_v11 rfl (by decide), not_written main_v12 rfl (by decide), not_written main_v13 rfl (by decide), not_written main_c_4 rfl (by decide), not_written main_v14 rfl (by decide), not_written main_v15 rfl (by decide)⟩
theorem tailOps5_arg0 : (tailOps5 : List (HloOp τ sig (Elt F))).Forall fun op => (Proc.devRef .tc main_arg0 : DevRef τ sig) ∉ op.writes :=
  ⟨not_written main_call2_call0_c rfl (by decide), not_written main_call2_call0_v0 rfl (by decide), not_written main_v16 rfl (by decide)⟩
theorem tailOps6_arg0 : (tailOps6 : List (HloOp τ sig (Elt F))).Forall fun op => (Proc.devRef .tc main_arg0 : DevRef τ sig) ∉ op.writes :=
  not_written main_c_5 rfl (by decide)
theorem tailOps7_arg0 : (tailOps7 : List (HloOp τ sig (Elt F))).Forall fun op => (Proc.devRef .tc main_arg0 : DevRef τ sig) ∉ op.writes :=
  ⟨not_written main_call3_v0 rfl (by decide), not_written main_call3_v1 rfl (by decide), not_written main_call3_v2 rfl (by decide), not_written main_call3_v3 rfl (by decide), not_written main_call3_v4 rfl (by decide), not_written main_call3_v5 rfl (by decide), not_written main_call3_v6 rfl (by decide), not_written main_call3_v7 rfl (by decide), not_written main_call3_c rfl (by decide), not_written main_call3_v8 rfl (by decide), not_written main_call3_v9 rfl (by decide), not_written main_call3_v10 rfl (by decide), not_written main_call3_c_0 rfl (by decide), not_written main_call3_v11 rfl (by decide), not_written main_call3_v12 rfl (by decide), not_written main_v17 rfl (by decide)⟩
theorem tailOps8_arg0 : (tailOps8 : List (HloOp τ sig (Elt F))).Forall fun op => (Proc.devRef .tc main_arg0 : DevRef τ sig) ∉ op.writes :=
  not_written main_c_6 rfl (by decide)
theorem tailOps9_arg0 : (tailOps9 : List (HloOp τ sig (Elt F))).Forall fun op => (Proc.devRef .tc main_arg0 : DevRef τ sig) ∉ op.writes :=
  ⟨not_written main_call4_v0 rfl (by decide), not_written main_call4_c rfl (by decide), not_written main_call4_v1 rfl (by decide), not_written main_call4_c_0 rfl (by decide), not_written main_call4_v2 rfl (by decide), not_written main_call4_v3 rfl (by decide), not_written main_call4_v4 rfl (by decide), not_written main_call4_c_1 rfl (by decide), not_written main_call4_v5 rfl (by decide), not_written main_call4_v6 rfl (by decide), not_written main_call4_c_2 rfl (by decide), not_written main_call4_v7 rfl (by decide), not_written main_call4_v8 rfl (by decide), not_written main_call4_c_3 rfl (by decide), not_written main_call4_v9 rfl (by decide), not_written main_call4_v10 rfl (by decide), not_written main_call4_v11 rfl (by decide), not_written main_call4_v12 rfl (by decide), not_written main_call4_v13 rfl (by decide), not_written main_call4_v14 rfl (by decide), not_written main_v18 rfl (by decide)⟩
theorem tailOps10_arg0 : (tailOps10 : List (HloOp τ sig (Elt F))).Forall fun op => (Proc.devRef .tc main_arg0 : DevRef τ sig) ∉ op.writes :=
  not_written main_c_7 rfl (by decide)
theorem tailOps11_arg0 : (tailOps11 : List (HloOp τ sig (Elt F))).Forall fun op => (Proc.devRef .tc main_arg0 : DevRef τ sig) ∉ op.writes :=
  ⟨not_written main_call5_v0 rfl (by decide), not_written main_call5_v1 rfl (by decide), not_written main_call5_v2 rfl (by decide), not_written main_call5_v3 rfl (by decide), not_written main_call5_v4 rfl (by decide), not_written main_call5_v5 rfl (by decide), not_written main_call5_v6 rfl (by decide), not_written main_call5_v7 rfl (by decide), not_written main_call5_c rfl (by decide), not_written main_call5_v8 rfl (by decide), not_written main_call5_v9 rfl (by decide), not_written main_call5_v10 rfl (by decide), not_written main_call5_c_0 rfl (by decide), not_written main_call5_v11 rfl (by decide), not_written main_call5_v12 rfl (by decide), not_written main_v19 rfl (by decide)⟩
theorem tailOps12_arg0 : (tailOps12 : List (HloOp τ sig (Elt F))).Forall fun op => (Proc.devRef .tc main_arg0 : DevRef τ sig) ∉ op.writes :=
  not_written main_c_8 rfl (by decide)
theorem tailOps13_arg0 : (tailOps13 : List (HloOp τ sig (Elt F))).Forall fun op => (Proc.devRef .tc main_arg0 : DevRef τ sig) ∉ op.writes :=
  ⟨not_written main_call6_v0 rfl (by decide), not_written main_call6_c rfl (by decide), not_written main_call6_v1 rfl (by decide), not_written main_call6_c_0 rfl (by decide), not_written main_call6_v2 rfl (by decide), not_written main_call6_v3 rfl (by decide), not_written main_call6_v4 rfl (by decide), not_written main_call6_c_1 rfl (by decide), not_written main_call6_v5 rfl (by decide), not_written main_call6_v6 rfl (by decide), not_written main_call6_c_2 rfl (by decide), not_written main_call6_v7 rfl (by decide), not_written main_call6_v8 rfl (by decide), not_written main_call6_c_3 rfl (by decide), not_written main_call6_v9 rfl (by decide), not_written main_call6_v10 rfl (by decide), not_written main_call6_v11 rfl (by decide), not_written main_call6_v12 rfl (by decide), not_written main_call6_v13 rfl (by decide), not_written main_call6_v14 rfl (by decide), not_written main_v20 rfl (by decide)⟩
theorem tailOps14_arg0 : (tailOps14 : List (HloOp τ sig (Elt F))).Forall fun op => (Proc.devRef .tc main_arg0 : DevRef τ sig) ∉ op.writes :=
  not_written main_c_9 rfl (by decide)
theorem tailOps15_arg0 : (tailOps15 : List (HloOp τ sig (Elt F))).Forall fun op => (Proc.devRef .tc main_arg0 : DevRef τ sig) ∉ op.writes :=
  ⟨not_written main_call7_v0 rfl (by decide), not_written main_call7_v1 rfl (by decide), not_written main_call7_v2 rfl (by decide), not_written main_call7_v3 rfl (by decide), not_written main_call7_v4 rfl (by decide), not_written main_call7_v5 rfl (by decide), not_written main_call7_v6 rfl (by decide), not_written main_call7_v7 rfl (by decide), not_written main_call7_c rfl (by decide), not_written main_call7_v8 rfl (by decide), not_written main_call7_v9 rfl (by decide), not_written main_call7_v10 rfl (by decide), not_written main_call7_c_0 rfl (by decide), not_written main_call7_v11 rfl (by decide), not_written main_call7_v12 rfl (by decide), not_written main_v21 rfl (by decide)⟩
theorem tailOps16_arg0 : (tailOps16 : List (HloOp τ sig (Elt F))).Forall fun op => (Proc.devRef .tc main_arg0 : DevRef τ sig) ∉ op.writes :=
  not_written main_c_10 rfl (by decide)
theorem tailOps17_arg0 : (tailOps17 : List (HloOp τ sig (Elt F))).Forall fun op => (Proc.devRef .tc main_arg0 : DevRef τ sig) ∉ op.writes :=
  ⟨not_written main_call8_v0 rfl (by decide), not_written main_call8_c rfl (by decide), not_written main_call8_v1 rfl (by decide), not_written main_call8_c_0 rfl (by decide), not_written main_call8_v2 rfl (by decide), not_written main_call8_v3 rfl (by decide), not_written main_call8_v4 rfl (by decide), not_written main_call8_c_1 rfl (by decide), not_written main_call8_v5 rfl (by decide), not_written main_call8_v6 rfl (by decide), not_written main_call8_c_2 rfl (by decide), not_written main_call8_v7 rfl (by decide), not_written main_call8_v8 rfl (by decide), not_written main_call8_c_3 rfl (by decide), not_written main_call8_v9 rfl (by decide), not_written main_call8_v10 rfl (by decide), not_written main_call8_v11 rfl (by decide), not_written main_call8_v12 rfl (by decide), not_written main_call8_v13 rfl (by decide), not_written main_call8_v14 rfl (by decide), not_written main_v22 rfl (by decide)⟩
theorem tailOps18_arg0 : (tailOps18 : List (HloOp τ sig (Elt F))).Forall fun op => (Proc.devRef .tc main_arg0 : DevRef τ sig) ∉ op.writes :=
  ⟨not_written main_v23 rfl (by decide), not_written main_v24 rfl (by decide), not_written main_c_11 rfl (by decide), not_written main_v25 rfl (by decide), not_written main_v26 rfl (by decide), not_written main_v27 rfl (by decide), not_written main_c_12 rfl (by decide)⟩
theorem tailOps19_arg0 : (tailOps19 : List (HloOp τ sig (Elt F))).Forall fun op => (Proc.devRef .tc main_arg0 : DevRef τ sig) ∉ op.writes :=
  ⟨not_written main_call9_v0 rfl (by decide), not_written main_call9_v1 rfl (by decide), not_written main_v28 rfl (by decide)⟩
theorem tailOps20_arg0 : (tailOps20 : List (HloOp τ sig (Elt F))).Forall fun op => (Proc.devRef .tc main_arg0 : DevRef τ sig) ∉ op.writes :=
  not_written main_c_13 rfl (by decide)
theorem tailOps21_arg0 : (tailOps21 : List (HloOp τ sig (Elt F))).Forall fun op => (Proc.devRef .tc main_arg0 : DevRef τ sig) ∉ op.writes :=
  ⟨not_written main_call10_v0 rfl (by decide), not_written main_call10_v1 rfl (by decide), not_written main_v29 rfl (by decide)⟩
theorem tailOps22_arg0 : (tailOps22 : List (HloOp τ sig (Elt F))).Forall fun op => (Proc.devRef .tc main_arg0 : DevRef τ sig) ∉ op.writes :=
  not_written main_c_14 rfl (by decide)
theorem tailOps23_arg0 : (tailOps23 : List (HloOp τ sig (Elt F))).Forall fun op => (Proc.devRef .tc main_arg0 : DevRef τ sig) ∉ op.writes :=
  ⟨not_written main_call11_v0 rfl (by decide), not_written main_call11_v1 rfl (by decide), not_written main_v30 rfl (by decide)⟩
theorem tailOps24_arg0 : (tailOps24 : List (HloOp τ sig (Elt F))).Forall fun op => (Proc.devRef .tc main_arg0 : DevRef τ sig) ∉ op.writes :=
  ⟨not_written main_v31 rfl (by decide), not_written main_c_15 rfl (by decide), not_written main_v32 rfl (by decide), not_written main_c_16 rfl (by decide), not_written main_v33 rfl (by decide), not_written main_v34 rfl (by decide), not_written main_v35 rfl (by decide), not_written main_v36 rfl (by decide), not_written main_c_17 rfl (by decide)⟩
theorem tailOps25_arg0 : (tailOps25 : List (HloOp τ sig (Elt F))).Forall fun op => (Proc.devRef .tc main_arg0 : DevRef τ sig) ∉ op.writes :=
  ⟨not_written main_call12_v0 rfl (by decide), not_written main_call12_v1 rfl (by decide), not_written main_call12_v2 rfl (by decide), not_written main_call12_v3 rfl (by decide), not_written main_call12_v4 rfl (by decide), not_written main_call12_v5 rfl (by decide), not_written main_call12_v6 rfl (by decide), not_written main_call12_v7 rfl (by decide), not_written main_call12_v8 rfl (by decide), not_written main_call12_c rfl (by decide), not_written main_call12_v9 rfl (by decide), not_written main_call12_v10 rfl (by decide), not_written main_call12_v11 rfl (by decide), not_written main_call12_c_0 rfl (by decide), not_written main_call12_v12 rfl (by decide), not_written main_call12_v13 rfl (by decide), not_written main_v37 rfl (by decide)⟩
theorem tailOps26_arg0 : (tailOps26 : List (HloOp τ sig (Elt F))).Forall fun op => (Proc.devRef .tc main_arg0 : DevRef τ sig) ∉ op.writes :=
  not_written main_c_18 rfl (by decide)
theorem tailOps27_arg0 : (tailOps27 : List (HloOp τ sig (Elt F))).Forall fun op => (Proc.devRef .tc main_arg0 : DevRef τ sig) ∉ op.writes :=
  ⟨not_written main_call13_v0 rfl (by decide), not_written main_call13_c rfl (by decide), not_written main_call13_v1 rfl (by decide), not_written main_call13_c_0 rfl (by decide), not_written main_call13_v2 rfl (by decide), not_written main_call13_v3 rfl (by decide), not_written main_call13_v4 rfl (by decide), not_written main_call13_c_1 rfl (by decide), not_written main_call13_v5 rfl (by decide), not_written main_call13_v6 rfl (by decide), not_written main_call13_c_2 rfl (by decide), not_written main_call13_v7 rfl (by decide), not_written main_call13_v8 rfl (by decide), not_written main_call13_c_3 rfl (by decide), not_written main_call13_v9 rfl (by decide), not_written main_call13_v10 rfl (by decide), not_written main_call13_v11 rfl (by decide), not_written main_call13_v12 rfl (by decide), not_written main_call13_v13 rfl (by decide), not_written main_call13_v14 rfl (by decide), not_written main_v38 rfl (by decide)⟩
theorem tailOps28_arg0 : (tailOps28 : List (HloOp τ sig (Elt F))).Forall fun op => (Proc.devRef .tc main_arg0 : DevRef τ sig) ∉ op.writes :=
  ⟨not_written main_v39 rfl (by decide), not_written main_v40 rfl (by decide), not_written main_v41 rfl (by decide), not_written main_v42 rfl (by decide), not_written main_v43 rfl (by decide), not_written main_v44 rfl (by decide), not_written main_c_19 rfl (by decide)⟩
theorem tailOps29_arg0 : (tailOps29 : List (HloOp τ sig (Elt F))).Forall fun op => (Proc.devRef .tc main_arg0 : DevRef τ sig) ∉ op.writes :=
  ⟨not_written main_call14_v0 rfl (by decide), not_written main_call14_v1 rfl (by decide), not_written main_call14_v2 rfl (by decide), not_written main_v45 rfl (by decide)⟩
theorem tailOps30_arg0 : (tailOps30 : List (HloOp τ sig (Elt F))).Forall fun op => (Proc.devRef .tc main_arg0 : DevRef τ sig) ∉ op.writes :=
  ⟨not_written main_c_20 rfl (by decide), not_written main_v46 rfl (by decide), not_written main_v47 rfl (by decide), not_written main_c_21 rfl (by decide), not_written main_v48 rfl (by decide), not_written main_v49 rfl (by decide), not_written main_v50 rfl (by decide), not_written main_c_22 rfl (by decide), not_written main_v51 rfl (by decide), not_written main_v52 rfl (by decide), not_written main_c_23 rfl (by decide), not_written main_v53 rfl (by decide), not_written main_v54 rfl (by decide), not_written main_v55 rfl (by decide), not_written main_c_24 rfl (by decide), not_written main_v56 rfl (by decide), not_written main_v57 rfl (by decide), not_written main_c_25 rfl (by decide), not_written main_v58 rfl (by decide), not_written main_v59 rfl (by decide), not_written main_v60 rfl (by decide), not_written main_v61 rfl (by decide), not_written main_v62 rfl (by decide), not_written main_v63 rfl (by decide), not_written main_v64 rfl (by decide), not_written main_v65 rfl (by decide), not_written main_v66 rfl (by decide), not_written main_cst_26 rfl (by decide)⟩
theorem tailOps31_arg0 : (tailOps31 : List (HloOp τ sig (Elt F))).Forall fun op => (Proc.devRef .tc main_arg0 : DevRef τ sig) ∉ op.writes :=
  ⟨not_written main_call15_v0 rfl (by decide), not_written main_call15_v1 rfl (by decide), not_written main_call15_v2 rfl (by decide), not_written main_v67 rfl (by decide)⟩
theorem tailOpss_arg0 : (tailOpss : List (List (HloOp τ sig (Elt F)))).Forall fun l => l.Forall fun op => (Proc.devRef .tc main_arg0 : DevRef τ sig) ∉ op.writes :=
  ⟨tailOps1_arg0, tailOps2_arg0, tailOps3_arg0, tailOps4_arg0, tailOps5_arg0, tailOps6_arg0, tailOps7_arg0, tailOps8_arg0, tailOps9_arg0, tailOps10_arg0, tailOps11_arg0, tailOps12_arg0, tailOps13_arg0, tailOps14_arg0, tailOps15_arg0, tailOps16_arg0, tailOps17_arg0, tailOps18_arg0, tailOps19_arg0, tailOps20_arg0, tailOps21_arg0, tailOps22_arg0, tailOps23_arg0, tailOps24_arg0, tailOps25_arg0, tailOps26_arg0, tailOps27_arg0, tailOps28_arg0, tailOps29_arg0, tailOps30_arg0, tailOps31_arg0⟩

/-- The argument's buffer after the whole line is what it was: no operation writes it. -/
theorem arg0_kept (V : Valuation τ sig (Elt F)) :
    StableHlo.after ops V (Proc.devRef .tc main_arg0) = V (Proc.devRef .tc main_arg0) :=
  StableHlo.after_of_forall_not_mem ops V
    (List.forall_iff_forall_mem.mp (forall_append headOps_arg0 (forall_flatten tailOpss_arg0)))

end Cert.ReferenceIdeal.Hand

end
-- ==== Proof.MaskWord.lean ====
import Idealize.ShloMosaic.PureOps.Ideal.Laws
import Idealize.ShloMosaic.Lib.ValueIdx
import Idealize.ShloMosaic.Lib.Pipeline.Value

/-!
Two pointwise facts about the mask word, at the ideal values (a float is an extended real and every
operation is exact), over literal shapes and free of any program.

* `planeWord_eq`: for one plane `t` of a `32 × 8 × 480 × 640` array `x`, the word "the maximum over the eight
  channels `k` of `|x (t, k, h, w)|` exceeds `3`", computed from the plane alone, is the word the whole-array
  formula gives at `(t, h, w)`.
* `ne_zero_extui`: a bit zero-extended to a word is nonzero exactly when the bit is one.
-/

namespace Cert.MaskWord

open Idealize.ShloMosaic Idealize.ShloMosaic.ValueIdx

abbrev S4 : Shape := ⟨4, ![32, 8, 480, 640]⟩
abbrev B4 : Shape := ⟨4, ![1, 8, 480, 640]⟩
abbrev S3 : Shape := ⟨3, ![32, 480, 640]⟩
abbrev B3 : Shape := ⟨3, ![1, 480, 640]⟩
abbrev S0 : Shape := ⟨0, ![]⟩

section PlaneWord

/-! ### The word of one plane is the word of the whole array

Write `m (t, h, w) = max_{k < 8} |x (t, k, h, w)|`, the fold of `max` from `-∞` over the eight channels. A reduction
over the channel axis of a `n × 8 × 480 × 640` array, read at `(a, h, w)`, is the fold over the eight indices
`(a, k, h, w)`. For the plane (`n = 1`, `a = 0`) the entries are `x (t, k, h, w)` by hypothesis; for the whole array
(`n = 32`, `a = t`) they are so literally. Both sides then compare `m (t, h, w)` with the same constant `3` and
zero-extend the same bit. -/

/-- The reduced index `(a, h, w)` with the channel `k` put back on axis 1 is `(a, k, h, w)`. -/
private theorem lift_ix3 {n : Nat} (hR : (⟨4, ![n, 8, 480, 640]⟩ : Shape).Reduces [1] (⟨3, ![n, 480, 640]⟩ : Shape))
    (a : Fin n) (h : Fin 480) (w : Fin 640) (k : Fin ((⟨4, ![n, 8, 480, 640]⟩ : Shape).size 1)) :
    hR.lift (ix3 a h w) k = ix4 a (⟨k.val, k.isLt⟩ : Fin 8) h w := by
  funext c; apply Fin.ext
  fin_cases c <;> rfl

/-- `m (t, h, w)`: the maximum over the eight channels of `|x (t, k, h, w)|`, started from `-∞`. -/
private noncomputable abbrev chanMax (x : FVec Ideal S4 .f32) (t : Fin 32) (h : Fin 480) (w : Fin 640) : Ideal .f32 :=
  (Finset.univ : Finset (Fin 8)).fold max (Ideal.ofBits .f32 0xFF800000#32)
    (fun k : Fin 8 => FloatOps.absf (x (ix4 t k h w)))

/-- A one-plane array whose entry at `(0, k, h, w)` is `|x (t, k, h, w)|` for each channel `k`: its maximum over the channel
    axis, at `(0, h, w)`, is `m (t, h, w)`. -/
private theorem plane_max (x : FVec Ideal S4 .f32) (src : FVec Ideal B4 .f32) (t : Fin 32) (h : Fin 480) (w : Fin 640)
    (hsrc : ∀ (k : Fin 8), src (ix4 (0 : Fin 1) k h w) = FloatOps.absf (x (ix4 t k h w)))
    (hK : B4.Reduces [1] B3) (hφ : FKind.Formats .f32)
    (hacc : (0xFF800000#32 : BitVec 32) = FKind.maximumf.neutral .f32 hφ) :
    multiReduction .maximumf [1] B3 src 0xFF800000#32 hK hφ hacc (ix3 (0 : Fin 1) h w)
      = chanMax x t h w := by
  have e : multiReduction .maximumf [1] B3 src 0xFF800000#32 hK hφ hacc (ix3 (0 : Fin 1) h w)
      = (Finset.univ : Finset (Fin (B4.size 1))).fold max (FloatOps.ofBits .f32 0xFF800000#32)
          (src ∘ hK.lift (ix3 (0 : Fin 1) h w)) :=
    Ideal.multiReduction_maximumf_single src 0xFF800000#32 hK hφ hacc (ix3 (0 : Fin 1) h w)
  refine e.trans ?_
  have hf : (src ∘ hK.lift (ix3 (0 : Fin 1) h w)) = fun k : Fin 8 => FloatOps.absf (x (ix4 t k h w)) :=
    funext fun k => (congrArg src (lift_ix3 hK (0 : Fin 1) h w k)).trans (hsrc _)
  exact congrArg (fun f => Finset.fold max (Ideal.ofBits .f32 0xFF800000#32) f (Finset.univ : Finset (Fin 8))) hf

/-- The whole array's reduction of `|x|` over the channel axis, from `-∞`, at `(t, h, w)` is `m (t, h, w)`. -/
private theorem whole_max (x : FVec Ideal S4 .f32) (t : Fin 32) (h' : S4.ReducesTo [1] S3) (hu : 0 < S0.numel)
    (h : Fin 480) (w : Fin 640) :
    Host.reduce FloatOps.maximumf (Host.absf x) (constant (F := Ideal) S0 .f32 0xFF800000#32) h' hu (ix3 t h w)
      = chanMax x t h w := by
  have hR : S4.Reduces [1] S3 := by decide
  have e : Host.reduce FloatOps.maximumf (Host.absf x) (constant (F := Ideal) S0 .f32 0xFF800000#32) h' hu (ix3 t h w)
      = (Finset.univ : Finset (Fin (S4.size 1))).fold FloatOps.maximumf
          ((constant (F := Ideal) S0 .f32 0xFF800000#32) (Shape.Idx.first hu))
          ((Host.absf x : FVec Ideal S4 .f32) ∘ hR.lift (ix3 t h w)) :=
    Host.reduce_eq_fold_single FloatOps.maximumf (Host.absf x) (constant (F := Ideal) S0 .f32 0xFF800000#32) h' hR hu
      (ix3 t h w)
  refine e.trans ?_
  have hf : ((Host.absf x : FVec Ideal S4 .f32) ∘ hR.lift (ix3 t h w))
      = fun k : Fin 8 => FloatOps.absf (x (ix4 t k h w)) :=
    funext fun k => congrArg (fun i => FloatOps.absf (x i)) (lift_ix3 hR t h w k)
  exact congrArg (fun f => Finset.fold max (Ideal.ofBits .f32 0xFF800000#32) f (Finset.univ : Finset (Fin 8))) hf

/-- The bit of a comparison, zero-extended, depends only on the two compared values at the index read. -/
private theorem word_congr {s s' : Shape} (A B : FVec Ideal s .f32) (A' B' : FVec Ideal s' .f32) (hlt : 1 < 32)
    (i : s.Idx) (i' : s'.Idx) (hA : A i = A' i') (hB : B i = B' i') :
    (extui 32 (cmpf .ogt A B) hlt : IVec s 32) i = (extui 32 (cmpf .ogt A' B') hlt : IVec s' 32) i' := by
  rw [extui_apply, extui_apply, cmpf_apply, cmpf_apply, hA, hB]

/-- **The word one plane computes is the word of the whole-array formula.** Both sides are the bit of
    "the maximum over the eight channels `k` of `|x (t, k, h, w)|` exceeds `3`", zero-extended to 32 bits: each reduction is
    the fold of `max` from `-∞` over the same eight terms, and the threshold is the same constant on both sides. -/
theorem planeWord_eq (x : FVec Ideal S4 .f32) (blk : Vec Ideal B4 .f32) (t : Fin 32)
    (hblk : ∀ (k : Fin 8) (h : Fin 480) (w : Fin 640), blk (ix4 (0 : Fin 1) k h w) = x (ix4 t k h w))
    (hsc : B4.ShapeCasts B4) (hK : B4.Reduces [1] B3) (hφ : FKind.Formats .f32)
    (hacc : (0xFF800000#32 : BitVec 32) = FKind.maximumf.neutral .f32 hφ) (hlt : 1 < 32)
    (h' : S4.ReducesTo [1] S3) (hu : 0 < S0.numel) (hb : S0.BroadcastsInDim S3 (![] : Fin 0 → Fin S3.rank))
    (h : Fin 480) (w : Fin 640) :
    (extui 32 (cmpf .ogt (multiReduction .maximumf [1] B3 (absf (shapeCast B4 blk hsc)) 0xFF800000#32 hK hφ hacc)
        (broadcast B3 (Scalar.ofBits .f32 0x40400000#32 : Ideal .f32))) hlt : IVec B3 32) (ix3 (0 : Fin 1) h w)
    = (extui 32 (cmpf .ogt (Host.reduce FloatOps.maximumf (Host.absf x) (constant (F := Ideal) S0 .f32 0xFF800000#32) h' hu)
        (broadcastInDim S3 ![] hb (constant (F := Ideal) S0 .f32 0x40400000#32))) hlt : IVec S3 32) (ix3 t h w) := by
  -- the plane's absolute values are the array's
  have hsrc : ∀ k : Fin 8, (absf (shapeCast B4 blk hsc) : FVec Ideal B4 .f32) (ix4 (0 : Fin 1) k h w)
      = FloatOps.absf (x (ix4 t k h w)) := fun k =>
    (congrArg (fun v : FVec Ideal B4 .f32 => FloatOps.absf (v (ix4 (0 : Fin 1) k h w))) (shapeCast_self blk hsc)).trans
      (congrArg FloatOps.absf (hblk k h w))
  -- so the two maxima agree
  have hA := (plane_max x (absf (shapeCast B4 blk hsc)) t h w hsrc hK hφ hacc).trans (whole_max x t h' hu h w).symm
  -- and the scalar broadcast to the whole shape reads the scalar everywhere
  have hC : broadcastInDim S3 ![] hb (constant (F := Ideal) S0 .f32 0x40400000#32) (ix3 t h w)
      = (Scalar.ofBits .f32 0x40400000#32 : Ideal .f32) :=
    broadcastInDim_apply ![] hb (constant (F := Ideal) S0 .f32 0x40400000#32) (ix3 t h w) ix0 (fun a => a.elim0)
  exact word_congr _ _ _ _ hlt _ _ hA ((broadcast_apply (s := B3) _ _).trans hC.symm)

end PlaneWord

section BitWord

/-- **A bit, zero-extended to a word, is nonzero exactly when it is one**: comparing the word against the zero word with
    "not equal" gives back the bit, at every index (the bit is `0` or `1`; `0` extends to the zero word, `1` to the word `1`). -/
theorem ne_zero_extui (S : Shape) (b : IVec S 1) (hlt : 1 < 32) (hb : S0.BroadcastsInDim S (![] : Fin 0 → Fin S.rank)) :
    cmpi .ne (extui 32 b hlt) (broadcastInDim S ![] hb (constantI S0 32 0#32)) = b := by
  funext i
  have hz : broadcastInDim S ![] hb (constantI S0 32 0#32) i = 0#32 :=
    broadcastInDim_apply ![] hb (constantI S0 32 0#32) i ix0 (fun a => a.elim0)
  show IntOp.cmpi .ne ((b i).setWidth 32) (broadcastInDim S ![] hb (constantI S0 32 0#32) i) = b i
  rw [hz]
  rcases BitVec.eq_zero_or_eq_one (b i) with e | e <;> rw [e] <;> decide

end BitWord

end Cert.MaskWord
-- ==== Proof.KiMask.lean ====
/-
  The kernel's output array after the run, as one function of its input array, at the ideal values (a float an extended
  real, every operation exact).

  The region has 32 grid points. At point `t` the input window's block is the slab `(t, ·, ·, ·)` of the
  32 × 8 × 480 × 640 array the region finds in `main_v0` (block index `(t, 0, 0, 0)`, block shape 1 × 8 × 480 × 640), and the
  output window's block is the plane `(t, ·, ·)` of the 32 × 480 × 640 array `main_v1` (block index `(t, 0, 0)`, block shape
  1 × 480 × 640). The body leaves in the output plane, at `(0, h, w)`, the word of the bit
  "the maximum over the eight channels `k` of `|slab (0, k, h, w)|` exceeds 3". Since the slab's entry `(0, k, h, w)` is the
  array's entry `(t, k, h, w)`, that word is the whole-array formula's word at `(t, h, w)`: point `t` writes back plane `t`
  of `maskWords` of the input array. The 32 planes tile the output array (index `(p, h, w)` lies in the plane of point
  `p`), every point writes back, so the array ends holding `maskWords` of the input array, whole.
-/
import proofs.«133728_j60172491817011_1_alg».proof.Proof.KiBody
import proofs.«133728_j60172491817011_1_alg».proof.Proof.MaskWord
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Reducing 32 × 8 × 480 × 640 over its axis of length 8 leaves 32 × 480 × 640. -/
theorem redTo : S32x8x480x640.ReducesTo [1] S32x480x640 := by decide

/-- The whole mask as words: at `(t, h, w)` the bit of "the maximum over the eight channels `k` of `|x (t, k, h, w)|` exceeds 3",
    zero-extended to 32 bits — spelt with the host's operations (absolute value, the reduction by maximum from `-∞` over
    axis 1, the comparison with the constant 3 broadcast, the extension). -/
def maskWords (x : FVec Ideal S32x8x480x640 .f32) : IVec S32x480x640 32 :=
  extui 32 (cmpf .ogt (Host.reduce FloatOps.maximumf (Host.absf x) (constant (F := Ideal) S_ .f32 0xFF800000#32) redTo h_S_)
    (broadcastInDim S32x480x640 ![] bcast_S_S32x480x640 (constant (F := Ideal) S_ .f32 0x40400000#32))) natLt_1_32

/-! ## Where the blocks sit -/

/-- The two index maps over the grid: at point `t` the input's block index is `(t, 0, 0, 0)` and the output's `(t, 0, 0)`. -/
theorem block_index : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A grid point as the plane it names: the grid's 32 points are the 32 planes. -/
abbrev pl (t : Fin cfg0.N) : Fin 32 := ⟨t.val, t.isLt⟩

/-- The input slab at point `t`, at `(0, k, h, w)`, is the input array at `(t, k, h, w)`: on each axis the array coordinate
    is block index × block size + the coordinate inside the block. -/
theorem slab_at (c : Dev nD) (t : Fin cfg0.N) (k : Fin 8) (h : Fin 480) (w : Fin 640) :
    iblk m c 0 t (ix4 (0 : Fin 1) k h w) = V m c main_v0 (ix4 (pl t) k h w) := by
  obtain ⟨e0, e1, e2, e3, -⟩ := block_index t
  show V m c main_v0 (((cfg0.win 0).blk t).view.emb (ix4 (0 : Fin 1) k h w)) = V m c main_v0 (ix4 (pl t) k h w)
  refine congrArg (V m c main_v0) ?_
  funext a; apply Fin.ext
  match a with
  | ⟨0, _⟩ => show win0_0.index t (0 : Fin 4) * 1 + 1 * (0 : Nat) = t.val; omega
  | ⟨1, _⟩ => show win0_0.index t (1 : Fin 4) * 8 + 1 * k.val = k.val; omega
  | ⟨2, _⟩ => show win0_0.index t (2 : Fin 4) * 480 + 1 * h.val = h.val; omega
  | ⟨3, _⟩ => show win0_0.index t (3 : Fin 4) * 640 + 1 * w.val = w.val; omega

/-! ## The word a plane computes -/

/-- For any array `x` and any slab whose entries are those of `x`'s plane `t`, the body's payload at `(0, h, w)` is the
    whole mask of `x` at `(t, h, w)`: both are the word of "the maximum of the same eight absolute values exceeds 3". -/
theorem plane_word (x : FVec Ideal S32x8x480x640 .f32) (blk : Vec Ideal S1x8x480x640 .f32) (t : Fin 32)
    (hblk : ∀ (k : Fin 8) (h : Fin 480) (w : Fin 640), blk (ix4 (0 : Fin 1) k h w) = x (ix4 t k h w)) (h : Fin 480) (w : Fin 640) :
    k0_pay1 blk (ix3 (0 : Fin 1) h w) = maskWords x (ix3 t h w) :=
  Cert.MaskWord.planeWord_eq x blk t hblk _ _ _ _ _ _ _ _ h w

/-- What point `t` writes back is plane `t` of the whole mask of the input array. -/
theorem flushed_eq (c : Dev nD) (t : Fin cfg0.N) :
    (dats m 0 c).flushed 1 t = ((cfg0.win 1).blk t).view.read (Elt Ideal) (maskWords (V m c main_v0)) := by
  show (cfg0.win 1).cut (grid0.coords t) ((dats m 0 c).after 1 t) = _
  rw [after_out]
  unfold planeOf
  rw [View.canon_unit_zero zeros3]
  simp only [View.ld_unit_zero (S := S1x8x480x640) zeros4]
  obtain ⟨-, -, -, -, e0, e1, e2⟩ := block_index t
  funext j
  have hj0 : (j 0).val < 1 := (j 0).isLt
  -- the index inside the block is (0, j₁, j₂) …
  have eL : (cfg0.win 1).xinj (grid0.coords t) j = ix3 (0 : Fin 1) (⟨(j 1).val, (j 1).isLt⟩ : Fin 480) (⟨(j 2).val, (j 2).isLt⟩ : Fin 640) := by
    funext a; apply Fin.ext
    match a with
    | ⟨0, _⟩ => show (j 0).val = 0; omega
    | ⟨1, _⟩ => rfl
    | ⟨2, _⟩ => rfl
  -- … and sits in the array at (t, j₁, j₂)
  have eR : ((cfg0.win 1).blk t).view.emb j = ix3 (pl t) (⟨(j 1).val, (j 1).isLt⟩ : Fin 480) (⟨(j 2).val, (j 2).isLt⟩ : Fin 640) := by
    funext a; apply Fin.ext
    match a with
    | ⟨0, _⟩ => show win0_1.index t (0 : Fin 3) * 1 + 1 * (j 0).val = t.val; omega
    | ⟨1, _⟩ => show win0_1.index t (1 : Fin 3) * 480 + 1 * (j 1).val = (j 1).val; omega
    | ⟨2, _⟩ => show win0_1.index t (2 : Fin 3) * 640 + 1 * (j 2).val = (j 2).val; omega
  show k0_pay1 (iblk m c 0 t) ((cfg0.win 1).xinj (grid0.coords t) j) = maskWords (V m c main_v0) (((cfg0.win 1).blk t).view.emb j)
  rw [eL, eR]
  exact plane_word (V m c main_v0) (iblk m c 0 t) (pl t) (slab_at m c t) _ _

/-! ## The planes tile the array -/

/-- An index of the output array is in point `t`'s block iff each coordinate is in the block's range on its axis. -/
theorem mem_plane (t : Fin cfg0.N) (i : S32x480x640.Idx) :
    i ∈ ((cfg0.win 1).blk t).view.set ↔ ∀ a : Fin 3, win0_1.index t a * S1x480x640.size a ≤ (i a).val ∧ (i a).val < win0_1.index t a * S1x480x640.size a + S1x480x640.size a := by
  show i ∈ ((View.whole main_v1).slice (win0_1.rect t)).set ↔ _
  rw [View.set_slice_whole, Rect.mem_set_unit]
  exact Iff.rfl

/-- Every index `(p, h, w)` of the output array is in the block of the point `p`, which writes back. -/
theorem planes_cover (i : S32x480x640.Idx) :
    ∃ t : Fin cfg0.N, (cfg0.win 1).flush t = true ∧ i ∈ ((cfg0.win 1).blk t).view.set := by
  have hi0 : (i 0).val < 32 := (i 0).isLt
  have hi1 : (i 1).val < 480 := (i 1).isLt
  have hi2 : (i 2).val < 640 := (i 2).isLt
  refine ⟨⟨(i 0).val, hi0⟩, flush0_1 _, ?_⟩
  obtain ⟨-, -, -, -, e0, e1, e2⟩ := block_index ⟨(i 0).val, hi0⟩
  have e0' : win0_1.index ⟨(i 0).val, hi0⟩ (0 : Fin 3) = (i 0).val := e0
  rw [mem_plane]
  intro a
  match a with
  | ⟨0, _⟩ => show win0_1.index ⟨(i 0).val, hi0⟩ (0 : Fin 3) * 1 ≤ (i 0).val ∧ (i 0).val < win0_1.index ⟨(i 0).val, hi0⟩ (0 : Fin 3) * 1 + 1; omega
  | ⟨1, _⟩ => show win0_1.index ⟨(i 0).val, hi0⟩ (1 : Fin 3) * 480 ≤ (i 1).val ∧ (i 1).val < win0_1.index ⟨(i 0).val, hi0⟩ (1 : Fin 3) * 480 + 480; omega
  | ⟨2, _⟩ => show win0_1.index ⟨(i 0).val, hi0⟩ (2 : Fin 3) * 640 ≤ (i 2).val ∧ (i 2).val < win0_1.index ⟨(i 0).val, hi0⟩ (2 : Fin 3) * 640 + 640; omega

/-! ## The array after the run -/

/-- The output array after the run is the whole mask of the input array as the region finds it. -/
theorem final_mask (c : Dev nD) : (dats m 0 c).arrAt 1 cfg0.N = maskWords (V m c main_v0) :=
  (dats m 0 c).arrAt_eq_of_cover 1 (maskWords (V m c main_v0)) (fun t _ => flushed_eq m c t) planes_cover

end Cert.KernelIdeal.HandValue

end
-- ==== Proof.LibStretch.lean ====
/-
  Three small tools for reading what a line of array operations leaves in a buffer (`StableHlo.after ops V b`), general in
  the program's signature and in the float values.

  * `after_append`: what two lists of operations run one after the other leave is what the second leaves of what the first
    left. It lets a long line be read in consecutive parts, each over an ARBITRARY valuation `V` — which matters: a part's
    lemma stated over a valuation that is itself an earlier fold lets a definitional check open that fold and evaluate it.
  * `ofBuf_toBuf`: contents carried to a typed reference's own buffer type and back are the contents (the transport is
    along an equation of buffer types; substitute it). Functions jax outlined are printed over typed references, so their
    operations' results come wrapped in such pairs.
  * `results_inside`: a reading of the whole line in one simplification pass cannot rewrite under the dependent pairs
    ⟨shape, contents⟩ of a concatenation's operand list; this tactic finishes those positions by rewriting with the
    operations' result lemmas.
-/
import Idealize.ShloMosaic.Lib.StableHlo.Run

noncomputable section

namespace Cert.LibStretch

open Idealize.ShloMosaic Idealize.ShloMosaic.StableHlo

variable {τ : Topo} {sig : RefSig} {Val : EltTy → Type}

/-- What two lists of operations run one after the other leave is what the second leaves of what the first left. -/
theorem after_append : ∀ (l₁ l₂ : List (HloOp τ sig Val)) (V : Valuation τ sig Val),
    after (l₁ ++ l₂) V = after l₂ (after l₁ V)
  | [], _, _ => rfl
  | op :: l, l₂, V => by rw [List.cons_append, after_cons, after_cons, after_append l l₂]

/-- Contents carried to a typed reference's own buffer type and back are the contents. -/
theorem ofBuf_toBuf {T : BufTy} (x : TRef sig T) (v : T.Contents Val) : x.ofBuf (Val := Val) (x.toBuf v) = v := by
  obtain ⟨r, h, h2, h3⟩ := x
  subst h
  rfl

/-- The remnants of a one-pass reading: contents read inside the operand list of a concatenation. -/
macro "results_inside" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.LibStretch

end
-- ==== Proof.BridgeDefs.lean ====
/-
  After the mask, the kernel program and the reference run the same lines: thirty-one stretches that compact the marked
  positions (a running count of the mask, a scatter of ones at the counts, a second running count), split each position
  into batch, row and column, pad beyond the number of marked positions, stack the coordinates, and gather the eight
  channel values at each position. The two programs name their buffers in two different signatures, so the lines are
  two lists; here they are cut at the same places into a first part (stretches 1 to 27: the six coordinate vectors)
  and a second part (stretches 28 to 31: the two results), for both programs.
-/
import proofs.«133728_j60172491817011_1_alg».proof.Proof.Gen.KernelIdeal.Launch
import proofs.«133728_j60172491817011_1_alg».proof.Proof.RefOps
import proofs.«133728_j60172491817011_1_alg».proof.Proof.LibStretch
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]

/-- The kernel program's lines from the mask to the coordinate vectors (stretches 1 to 27 after the region). -/
abbrev kA : List (HloOp Cert.KernelIdeal.τ Cert.KernelIdeal.sig (Elt F)) :=
  List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27]
/-- The reference's same lines. -/
abbrev rA : List (HloOp Cert.ReferenceIdeal.τ Cert.ReferenceIdeal.sig (Elt F)) :=
  List.flatten [Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
/-- The kernel program's last lines, from the coordinate vectors to the two results (stretches 28 to 31). -/
abbrev kB : List (HloOp Cert.KernelIdeal.τ Cert.KernelIdeal.sig (Elt F)) :=
  List.flatten [Cert.KernelIdeal.Gen.hostOps1_28, Cert.KernelIdeal.Gen.hostOps1_29, Cert.KernelIdeal.Gen.hostOps1_30, Cert.KernelIdeal.Gen.hostOps1_31]
/-- The reference's same lines. -/
abbrev rB : List (HloOp Cert.ReferenceIdeal.τ Cert.ReferenceIdeal.sig (Elt F)) :=
  List.flatten [Cert.ReferenceIdeal.Hand.tailOps28, Cert.ReferenceIdeal.Hand.tailOps29, Cert.ReferenceIdeal.Hand.tailOps30, Cert.ReferenceIdeal.Hand.tailOps31]

end Cert.Bridge

end
-- ==== Proof.KiValue.lean ====
/-
  What the kernel program's results are, at the ideal instance. When the region exits, its output array holds the whole
  mask as words (one word per position: the bit of "the largest absolute value over the eight channels exceeds 3"), and
  the dense array is as the region found it. The first later stretch compares the words with zero, which gives back the
  mask's bits; the remaining stretches are the shared lines, cut in the same two parts as in the reference.
-/
import proofs.«133728_j60172491817011_1_alg».proof.Proof.KiFrame
import proofs.«133728_j60172491817011_1_alg».proof.Proof.KiMask
import proofs.«133728_j60172491817011_1_alg».proof.Proof.MaskWord
import proofs.«133728_j60172491817011_1_alg».proof.Proof.BridgeDefs

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- A core's buffer contents when the region exits: its arrays at what the points wrote back, the rest as at entry. -/
abbrev exitV (c : Dev nD) : Valuation τ sig (Elt Ideal) :=
  Pipeline.withArrays spec0 c (V0 m c) fun w => (dats m 0 c).arrAt w cfg0.N

/-- The later stretches are the comparison with zero, then the two parts of the shared lines. -/
theorem tail_split : (tailOpss (F := Ideal)).flatten = hostOps1 ++ (Cert.Bridge.kA ++ Cert.Bridge.kB) := by
  simp only [tailOpss, Cert.Bridge.kA, Cert.Bridge.kB, List.flatten_cons, List.flatten_nil, List.append_nil, List.append_assoc]

/-- At the exit the output array holds the mask's words. -/
theorem exit_words (c : Dev nD) : exitV m c (Proc.devRef .tc main_v1) = maskWords (V m c main_v0) :=
  (Pipeline.withArrays_arr spec0 launch0.win.arr_inj c _ _ 1).trans (final_mask m c)

/-- At the exit the dense array is as the region found it. -/
theorem exit_dense (c : Dev nD) : exitV m c (Proc.devRef .tc main_v0) = V m c main_v0 :=
  (Pipeline.withArrays_arr spec0 launch0.win.arr_inj c _ _ 0).trans (((dats m 0 c).arrAt_in 0 rfl _).trans (A_eq m c 0))

/-- A word of the mask compared with zero gives back its bit. -/
theorem bits_of_words (x : FVec Ideal S32x8x480x640 .f32) :
    cmpi .ne (maskWords x) (broadcastInDim S32x480x640 ![] bcast_S_S32x480x640 (constantI S_ 32 0#32))
      = cmpf .ogt (Host.reduce FloatOps.maximumf (Host.absf x) (constant (F := Ideal) S_ .f32 0xFF800000#32) redTo h_S_)
          (broadcastInDim S32x480x640 ![] bcast_S_S32x480x640 (constant (F := Ideal) S_ .f32 0x40400000#32)) :=
  Cert.MaskWord.ne_zero_extui S32x480x640 _ natLt_1_32 bcast_S_S32x480x640

/-- The first later stretch reads the words back into the mask's bits. -/
theorem mask_bits (c : Dev nD) :
    after (hostOps1 (F := Ideal)) (exitV m c) (Proc.devRef .tc main_v4)
      = cmpf .ogt (Host.reduce FloatOps.maximumf (Host.absf (V m c main_v0)) (constant (F := Ideal) S_ .f32 0xFF800000#32) redTo h_S_)
          (broadcastInDim S32x480x640 ![] bcast_S_S32x480x640 (constant (F := Ideal) S_ .f32 0x40400000#32)) := by
  have e : ∀ W : Valuation τ sig (Elt Ideal), after (hostOps1 (F := Ideal)) W (Proc.devRef .tc main_v4)
      = cmpi .ne (W (Proc.devRef .tc main_v1)) (broadcastInDim S32x480x640 ![] bcast_S_S32x480x640 (constantI S_ 32 0#32)) := by
    intro W
    simp only [hostOps1]
    after_results_simp
    rfl
  rw [e, exit_words]
  exact bits_of_words (V m c main_v0)

/-- It leaves the dense array alone. -/
theorem dense_kept (c : Dev nD) :
    after (hostOps1 (F := Ideal)) (exitV m c) (Proc.devRef .tc main_v0) = V m c main_v0 := by
  have e : ∀ W : Valuation τ sig (Elt Ideal), after (hostOps1 (F := Ideal)) W (Proc.devRef .tc main_v0) = W (Proc.devRef .tc main_v0) := by
    intro W
    simp only [hostOps1]
    after_results_simp
  rw [e, exit_dense]

/-- Every buffer after the later lines: the shared lines run from what the comparison with zero leaves of the exit contents. -/
theorem result_eq (c : Dev nD) (b : Ref sig .tc) :
    Pipeline.afterTail₀ cfgs (dats m) 0 (V0 m) tailOpss c b
      = after (Cert.Bridge.kA (F := Ideal) ++ Cert.Bridge.kB) (after (hostOps1 (F := Ideal)) (exitV m c)) (Proc.devRef .tc b) := by
  unfold Pipeline.afterTail₀
  rw [tail_split, Cert.LibStretch.after_append]

end Cert.KernelIdeal.HandValue

end
-- ==== Proof.RefValue.lean ====
/-
  The reference's line read in two parts: its first seven operations compute the dense array (the argument reshaped to
  32×8×480×640) and the mask (the maximum over the eight channels of the absolute value, compared with 3); the rest is the
  shared lines.
-/
import proofs.«133728_j60172491817011_1_alg».proof.Proof.RefOps
import proofs.«133728_j60172491817011_1_alg».proof.Proof.BridgeDefs

set_option maxRecDepth 16384

noncomputable section

namespace Cert.ReferenceIdeal.HandValue

open Cert.ReferenceIdeal Cert.ReferenceIdeal.Gen Cert.ReferenceIdeal.Hand
open Idealize.ShloMosaic Idealize.ShloMosaic.TcCoe Idealize.SL.Sem Idealize.ShloMosaic.StableHlo

variable {F : FTy → Type} [FloatOps F]

/-- The whole line is the seven operations up to the mask, then the two parts of the shared lines. -/
theorem ops_split : (ops : List (HloOp τ sig (Elt F))) = headOps ++ (Cert.Bridge.rA ++ Cert.Bridge.rB) := by
  simp only [ops, tailOpss, Cert.Bridge.rA, Cert.Bridge.rB, List.flatten_cons, List.flatten_nil, List.append_nil, List.append_assoc]

/-- The mask the first seven operations leave, from the dense array they leave. -/
theorem head_mask (L : Valuation τ sig (Elt F)) :
    after (headOps (F := F)) L (Proc.devRef .tc main_v4)
      = cmpf .ogt (Host.reduce FloatOps.maximumf (Host.absf (after (headOps (F := F)) L (Proc.devRef .tc main_v0)))
            (constant S_ .f32 0xFF800000#32) reducesTo_S32x8x480x640_S32x480x640_d1 h_S_)
          (broadcastInDim S32x480x640 ![] bcast_S_S32x480x640 (constant S_ .f32 0x40400000#32)) := by
  simp only [headOps]
  after_results_simp

end Cert.ReferenceIdeal.HandValue

end
-- ==== Proof.BridgeA1.lean ====
/-
  From equal masks the first part of the shared lines leaves equal coordinate vectors in the two programs: each side's
  buffer is read as the composition of its lines' functions of the mask, and the two compositions are the same term.
-/
import proofs.«133728_j60172491817011_1_alg».proof.Proof.BridgeDefs

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 4000000 in
/-- From equal masks, the first part leaves equal contents in `main_v28`: both sides are read as the same composition of
    the lines' functions of the mask. -/
theorem stageA_main_v28 (W₁ : Valuation Cert.KernelIdeal.τ Cert.KernelIdeal.sig (Elt F)) (W₂ : Valuation Cert.ReferenceIdeal.τ Cert.ReferenceIdeal.sig (Elt F))
    (h : W₁ (Proc.devRef .tc Cert.KernelIdeal.main_v4) = W₂ (Proc.devRef .tc Cert.ReferenceIdeal.main_v4)) :
    after (kA (F := F)) W₁ (Proc.devRef .tc Cert.KernelIdeal.main_v28) = after (rA (F := F)) W₂ (Proc.devRef .tc Cert.ReferenceIdeal.main_v28) := by
  simp only [kA, rA, List.flatten_cons, List.flatten_nil, List.append_nil, List.cons_append, List.nil_append, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
  after_results_simp
  simp only [Cert.LibStretch.ofBuf_toBuf]
  rw [h]
  rfl

set_option maxHeartbeats 4000000 in
/-- From equal masks, the first part leaves equal contents in `main_v29`: both sides are read as the same composition of
    the lines' functions of the mask. -/
theorem stageA_main_v29 (W₁ : Valuation Cert.KernelIdeal.τ Cert.KernelIdeal.sig (Elt F)) (W₂ : Valuation Cert.ReferenceIdeal.τ Cert.ReferenceIdeal.sig (Elt F))
    (h : W₁ (Proc.devRef .tc Cert.KernelIdeal.main_v4) = W₂ (Proc.devRef .tc Cert.ReferenceIdeal.main_v4)) :
    after (kA (F := F)) W₁ (Proc.devRef .tc Cert.KernelIdeal.main_v29) = after (rA (F := F)) W₂ (Proc.devRef .tc Cert.ReferenceIdeal.main_v29) := by
  simp only [kA, rA, List.flatten_cons, List.flatten_nil, List.append_nil, List.cons_append, List.nil_append, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
  after_results_simp
  simp only [Cert.LibStretch.ofBuf_toBuf]
  rw [h]
  rfl

set_option maxHeartbeats 4000000 in
/-- From equal masks, the first part leaves equal contents in `main_v30`: both sides are read as the same composition of
    the lines' functions of the mask. -/
theorem stageA_main_v30 (W₁ : Valuation Cert.KernelIdeal.τ Cert.KernelIdeal.sig (Elt F)) (W₂ : Valuation Cert.ReferenceIdeal.τ Cert.ReferenceIdeal.sig (Elt F))
    (h : W₁ (Proc.devRef .tc Cert.KernelIdeal.main_v4) = W₂ (Proc.devRef .tc Cert.ReferenceIdeal.main_v4)) :
    after (kA (F := F)) W₁ (Proc.devRef .tc Cert.KernelIdeal.main_v30) = after (rA (F := F)) W₂ (Proc.devRef .tc Cert.ReferenceIdeal.main_v30) := by
  simp only [kA, rA, List.flatten_cons, List.flatten_nil, List.append_nil, List.cons_append, List.nil_append, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
  after_results_simp
  simp only [Cert.LibStretch.ofBuf_toBuf]
  rw [h]
  rfl

set_option maxHeartbeats 4000000 in
/-- No line of the first part writes the dense array. -/
theorem stageA_main_v0 (W₁ : Valuation Cert.KernelIdeal.τ Cert.KernelIdeal.sig (Elt F)) (W₂ : Valuation Cert.ReferenceIdeal.τ Cert.ReferenceIdeal.sig (Elt F))
    (h : W₁ (Proc.devRef .tc Cert.KernelIdeal.main_v0) = W₂ (Proc.devRef .tc Cert.ReferenceIdeal.main_v0)) :
    after (kA (F := F)) W₁ (Proc.devRef .tc Cert.KernelIdeal.main_v0) = after (rA (F := F)) W₂ (Proc.devRef .tc Cert.ReferenceIdeal.main_v0) := by
  simp only [kA, rA, List.flatten_cons, List.flatten_nil, List.append_nil, List.cons_append, List.nil_append, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
  after_results_simp
  exact h

end Cert.Bridge

end
-- ==== Proof.BridgeA2.lean ====
/-
  From equal masks the first part of the shared lines leaves equal coordinate vectors in the two programs: each side's
  buffer is read as the composition of its lines' functions of the mask, and the two compositions are the same term.
-/
import proofs.«133728_j60172491817011_1_alg».proof.Proof.BridgeDefs

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 4000000 in
/-- From equal masks, the first part leaves equal contents in `main_v36`: both sides are read as the same composition of
    the lines' functions of the mask. -/
theorem stageA_main_v36 (W₁ : Valuation Cert.KernelIdeal.τ Cert.KernelIdeal.sig (Elt F)) (W₂ : Valuation Cert.ReferenceIdeal.τ Cert.ReferenceIdeal.sig (Elt F))
    (h : W₁ (Proc.devRef .tc Cert.KernelIdeal.main_v4) = W₂ (Proc.devRef .tc Cert.ReferenceIdeal.main_v4)) :
    after (kA (F := F)) W₁ (Proc.devRef .tc Cert.KernelIdeal.main_v36) = after (rA (F := F)) W₂ (Proc.devRef .tc Cert.ReferenceIdeal.main_v36) := by
  simp only [kA, rA, List.flatten_cons, List.flatten_nil, List.append_nil, List.cons_append, List.nil_append, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
  after_results_simp
  try simp only [Cert.LibStretch.ofBuf_toBuf]
  rw [h]
  try rfl

set_option maxHeartbeats 4000000 in
/-- From equal masks, the first part leaves equal contents in `main_v37`: both sides are read as the same composition of
    the lines' functions of the mask. -/
theorem stageA_main_v37 (W₁ : Valuation Cert.KernelIdeal.τ Cert.KernelIdeal.sig (Elt F)) (W₂ : Valuation Cert.ReferenceIdeal.τ Cert.ReferenceIdeal.sig (Elt F))
    (h : W₁ (Proc.devRef .tc Cert.KernelIdeal.main_v4) = W₂ (Proc.devRef .tc Cert.ReferenceIdeal.main_v4)) :
    after (kA (F := F)) W₁ (Proc.devRef .tc Cert.KernelIdeal.main_v37) = after (rA (F := F)) W₂ (Proc.devRef .tc Cert.ReferenceIdeal.main_v37) := by
  simp only [kA, rA, List.flatten_cons, List.flatten_nil, List.append_nil, List.cons_append, List.nil_append, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
  after_results_simp
  try simp only [Cert.LibStretch.ofBuf_toBuf]
  rw [h]
  try rfl

set_option maxHeartbeats 4000000 in
/-- From equal masks, the first part leaves equal contents in `main_v38`: both sides are read as the same composition of
    the lines' functions of the mask. -/
theorem stageA_main_v38 (W₁ : Valuation Cert.KernelIdeal.τ Cert.KernelIdeal.sig (Elt F)) (W₂ : Valuation Cert.ReferenceIdeal.τ Cert.ReferenceIdeal.sig (Elt F))
    (h : W₁ (Proc.devRef .tc Cert.KernelIdeal.main_v4) = W₂ (Proc.devRef .tc Cert.ReferenceIdeal.main_v4)) :
    after (kA (F := F)) W₁ (Proc.devRef .tc Cert.KernelIdeal.main_v38) = after (rA (F := F)) W₂ (Proc.devRef .tc Cert.ReferenceIdeal.main_v38) := by
  simp only [kA, rA, List.flatten_cons, List.flatten_nil, List.append_nil, List.cons_append, List.nil_append, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.ReferenceIdeal.Hand.tailOps1, Cert.ReferenceIdeal.Hand.tailOps2, Cert.ReferenceIdeal.Hand.tailOps3, Cert.ReferenceIdeal.Hand.tailOps4, Cert.ReferenceIdeal.Hand.tailOps5, Cert.ReferenceIdeal.Hand.tailOps6, Cert.ReferenceIdeal.Hand.tailOps7, Cert.ReferenceIdeal.Hand.tailOps8, Cert.ReferenceIdeal.Hand.tailOps9, Cert.ReferenceIdeal.Hand.tailOps10, Cert.ReferenceIdeal.Hand.tailOps11, Cert.ReferenceIdeal.Hand.tailOps12, Cert.ReferenceIdeal.Hand.tailOps13, Cert.ReferenceIdeal.Hand.tailOps14, Cert.ReferenceIdeal.Hand.tailOps15, Cert.ReferenceIdeal.Hand.tailOps16, Cert.ReferenceIdeal.Hand.tailOps17, Cert.ReferenceIdeal.Hand.tailOps18, Cert.ReferenceIdeal.Hand.tailOps19, Cert.ReferenceIdeal.Hand.tailOps20, Cert.ReferenceIdeal.Hand.tailOps21, Cert.ReferenceIdeal.Hand.tailOps22, Cert.ReferenceIdeal.Hand.tailOps23, Cert.ReferenceIdeal.Hand.tailOps24, Cert.ReferenceIdeal.Hand.tailOps25, Cert.ReferenceIdeal.Hand.tailOps26, Cert.ReferenceIdeal.Hand.tailOps27]
  after_results_simp
  try simp only [Cert.LibStretch.ofBuf_toBuf]
  rw [h]
  try rfl

end Cert.Bridge

end
-- ==== Proof.BridgeRead.lean ====
/-
  Reading what a line of array operations leaves in a buffer when the line contains a concatenation of three or four
  operands. A concatenation's function takes its operands as one dependent family, and reads them inside a list of pairs
  ⟨shape, contents⟩, where a simplification pass no longer rewrites. Here the result of such an operation is restated with
  the operands' contents as ordinary arguments of a closed application (`held3`, `held4`): the pass reads the operands
  first, and the application is opened afterwards by unfolding.
-/
import Idealize.ShloMosaic.Lib.StableHlo.Run

noncomputable section

namespace Cert.BridgeRead

open Idealize.ShloMosaic Idealize.ShloMosaic.StableHlo

/-- `g p q r`, not opened by simplification. -/
def held3 {A B C D : Type} (g : A → B → C → D) (p : A) (q : B) (r : C) : D := g p q r
/-- `g p q r s`, not opened by simplification. -/
def held4 {A B C D E : Type} (g : A → B → C → D → E) (p : A) (q : B) (r : C) (s : D) : E := g p q r s

variable {τ : Topo} {sig : RefSig} {Val : EltTy → Type} {x a b c y : Ref sig .tc}

/-- A three-operand concatenation's result at its own buffer, each operand's contents at its own reference. -/
theorem nary3_held
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = held3 (fun p q r => f (Fin.cons p (Fin.cons q (Fin.cons r (fun i => i.elim0)))))
          (F (Proc.devRef .tc x)) (F (Proc.devRef .tc a)) (F (Proc.devRef .tc b)) := by
  rw [nary_result]; unfold held3; congr 1; funext k; fin_cases k <;> rfl

/-- A four-operand concatenation's. -/
theorem nary4_held
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = held4 (fun p q r s => f (Fin.cons p (Fin.cons q (Fin.cons r (Fin.cons s (fun i => i.elim0))))))
          (F (Proc.devRef .tc x)) (F (Proc.devRef .tc a)) (F (Proc.devRef .tc b)) (F (Proc.devRef .tc c)) := by
  rw [nary_result]; unfold held4; congr 1; funext k; fin_cases k <;> rfl

/-- What a literal line leaves in a buffer, concatenations of three or four operands included: one pass, then the held
    applications opened. -/
macro "read_through" : tactic =>
  `(tactic| (simp (disch := decide) only [after_cons, after_nil,
      nullary_result', unary_result', binary_result', ternary_result', quaternary_result', reshape_result', nary3_held, nary4_held,
      nullary_result_ne', unary_result_ne', binary_result_ne', ternary_result_ne', quaternary_result_ne', reshape_result_ne',
      nary_result_ne']; dsimp only [held3, held4]))

end Cert.BridgeRead

end
-- ==== Proof.BridgeB.lean ====
/-
  From equal coordinate vectors and the same dense array, the last lines — the coordinates stacked and padded, the
  channel values gathered and padded — leave equal results in the two programs.
-/
import proofs.«133728_j60172491817011_1_alg».proof.Proof.BridgeDefs
import proofs.«133728_j60172491817011_1_alg».proof.Proof.BridgeRead

set_option maxRecDepth 16384

noncomputable section

namespace Cert.Bridge

open Cert.BridgeRead Idealize.ShloMosaic Idealize.ShloMosaic.TcCoe Idealize.SL.Sem Idealize.ShloMosaic.StableHlo

variable {F : FTy → Type} [FloatOps F]

set_option maxHeartbeats 2000000 in
/-- From equal coordinate vectors (and the same dense array) the last lines leave equal contents in `main_v45`. -/
theorem stageB_main_v45 (W₁ : Valuation Cert.KernelIdeal.τ Cert.KernelIdeal.sig (Elt F)) (W₂ : Valuation Cert.ReferenceIdeal.τ Cert.ReferenceIdeal.sig (Elt F))
    (h_main_v28 : W₁ (Proc.devRef .tc Cert.KernelIdeal.main_v28) = W₂ (Proc.devRef .tc Cert.ReferenceIdeal.main_v28))
    (h_main_v29 : W₁ (Proc.devRef .tc Cert.KernelIdeal.main_v29) = W₂ (Proc.devRef .tc Cert.ReferenceIdeal.main_v29))
    (h_main_v30 : W₁ (Proc.devRef .tc Cert.KernelIdeal.main_v30) = W₂ (Proc.devRef .tc Cert.ReferenceIdeal.main_v30))
    (h_main_v36 : W₁ (Proc.devRef .tc Cert.KernelIdeal.main_v36) = W₂ (Proc.devRef .tc Cert.ReferenceIdeal.main_v36))
    (h_main_v37 : W₁ (Proc.devRef .tc Cert.KernelIdeal.main_v37) = W₂ (Proc.devRef .tc Cert.ReferenceIdeal.main_v37))
    (h_main_v38 : W₁ (Proc.devRef .tc Cert.KernelIdeal.main_v38) = W₂ (Proc.devRef .tc Cert.ReferenceIdeal.main_v38))
    (h_main_v0 : W₁ (Proc.devRef .tc Cert.KernelIdeal.main_v0) = W₂ (Proc.devRef .tc Cert.ReferenceIdeal.main_v0)) :
    after (kB (F := F)) W₁ (Proc.devRef .tc Cert.KernelIdeal.main_v45) = after (rB (F := F)) W₂ (Proc.devRef .tc Cert.ReferenceIdeal.main_v45) := by
  simp only [kB, rB, List.flatten_cons, List.flatten_nil, List.append_nil, List.cons_append, List.nil_append, Cert.KernelIdeal.Gen.hostOps1_28, Cert.KernelIdeal.Gen.hostOps1_29, Cert.KernelIdeal.Gen.hostOps1_30, Cert.KernelIdeal.Gen.hostOps1_31, Cert.ReferenceIdeal.Hand.tailOps28, Cert.ReferenceIdeal.Hand.tailOps29, Cert.ReferenceIdeal.Hand.tailOps30, Cert.ReferenceIdeal.Hand.tailOps31]
  read_through
  simp only [Cert.LibStretch.ofBuf_toBuf]
  generalize W₁ (Proc.devRef .tc Cert.KernelIdeal.main_v28) = x_main_v28 at h_main_v28 ⊢
  subst h_main_v28
  generalize W₁ (Proc.devRef .tc Cert.KernelIdeal.main_v29) = x_main_v29 at h_main_v29 ⊢
  subst h_main_v29
  generalize W₁ (Proc.devRef .tc Cert.KernelIdeal.main_v30) = x_main_v30 at h_main_v30 ⊢
  subst h_main_v30
  generalize W₁ (Proc.devRef .tc Cert.KernelIdeal.main_v36) = x_main_v36 at h_main_v36 ⊢
  subst h_main_v36
  generalize W₁ (Proc.devRef .tc Cert.KernelIdeal.main_v37) = x_main_v37 at h_main_v37 ⊢
  subst h_main_v37
  generalize W₁ (Proc.devRef .tc Cert.KernelIdeal.main_v38) = x_main_v38 at h_main_v38 ⊢
  subst h_main_v38
  generalize W₁ (Proc.devRef .tc Cert.KernelIdeal.main_v0) = x_main_v0 at h_main_v0 ⊢
  subst h_main_v0
  rfl

set_option maxHeartbeats 2000000 in
/-- From equal coordinate vectors (and the same dense array) the last lines leave equal contents in `main_v67`. -/
theorem stageB_main_v67 (W₁ : Valuation Cert.KernelIdeal.τ Cert.KernelIdeal.sig (Elt F)) (W₂ : Valuation Cert.ReferenceIdeal.τ Cert.ReferenceIdeal.sig (Elt F))
    (h_main_v28 : W₁ (Proc.devRef .tc Cert.KernelIdeal.main_v28) = W₂ (Proc.devRef .tc Cert.ReferenceIdeal.main_v28))
    (h_main_v29 : W₁ (Proc.devRef .tc Cert.KernelIdeal.main_v29) = W₂ (Proc.devRef .tc Cert.ReferenceIdeal.main_v29))
    (h_main_v30 : W₁ (Proc.devRef .tc Cert.KernelIdeal.main_v30) = W₂ (Proc.devRef .tc Cert.ReferenceIdeal.main_v30))
    (h_main_v36 : W₁ (Proc.devRef .tc Cert.KernelIdeal.main_v36) = W₂ (Proc.devRef .tc Cert.ReferenceIdeal.main_v36))
    (h_main_v37 : W₁ (Proc.devRef .tc Cert.KernelIdeal.main_v37) = W₂ (Proc.devRef .tc Cert.ReferenceIdeal.main_v37))
    (h_main_v38 : W₁ (Proc.devRef .tc Cert.KernelIdeal.main_v38) = W₂ (Proc.devRef .tc Cert.ReferenceIdeal.main_v38))
    (h_main_v0 : W₁ (Proc.devRef .tc Cert.KernelIdeal.main_v0) = W₂ (Proc.devRef .tc Cert.ReferenceIdeal.main_v0)) :
    after (kB (F := F)) W₁ (Proc.devRef .tc Cert.KernelIdeal.main_v67) = after (rB (F := F)) W₂ (Proc.devRef .tc Cert.ReferenceIdeal.main_v67) := by
  simp only [kB, rB, List.flatten_cons, List.flatten_nil, List.append_nil, List.cons_append, List.nil_append, Cert.KernelIdeal.Gen.hostOps1_28, Cert.KernelIdeal.Gen.hostOps1_29, Cert.KernelIdeal.Gen.hostOps1_30, Cert.KernelIdeal.Gen.hostOps1_31, Cert.ReferenceIdeal.Hand.tailOps28, Cert.ReferenceIdeal.Hand.tailOps29, Cert.ReferenceIdeal.Hand.tailOps30, Cert.ReferenceIdeal.Hand.tailOps31]
  read_through
  simp only [Cert.LibStretch.ofBuf_toBuf]
  generalize W₁ (Proc.devRef .tc Cert.KernelIdeal.main_v28) = x_main_v28 at h_main_v28 ⊢
  subst h_main_v28
  generalize W₁ (Proc.devRef .tc Cert.KernelIdeal.main_v29) = x_main_v29 at h_main_v29 ⊢
  subst h_main_v29
  generalize W₁ (Proc.devRef .tc Cert.KernelIdeal.main_v30) = x_main_v30 at h_main_v30 ⊢
  subst h_main_v30
  generalize W₁ (Proc.devRef .tc Cert.KernelIdeal.main_v36) = x_main_v36 at h_main_v36 ⊢
  subst h_main_v36
  generalize W₁ (Proc.devRef .tc Cert.KernelIdeal.main_v37) = x_main_v37 at h_main_v37 ⊢
  subst h_main_v37
  generalize W₁ (Proc.devRef .tc Cert.KernelIdeal.main_v38) = x_main_v38 at h_main_v38 ⊢
  subst h_main_v38
  generalize W₁ (Proc.devRef .tc Cert.KernelIdeal.main_v0) = x_main_v0 at h_main_v0 ⊢
  subst h_main_v0
  rfl

end Cert.Bridge

end
-- ==== Proof.Bridge.lean ====
/-
  The shared lines, whole: from equal masks and the same dense array, the thirty-one stretches leave equal results — the
  padded coordinates and the padded gathered features — in the two programs. The first part gives equal coordinate vectors
  (and keeps the dense array), the second part equal results from those.
-/
import proofs.«133728_j60172491817011_1_alg».proof.Proof.BridgeA1
import proofs.«133728_j60172491817011_1_alg».proof.Proof.BridgeA2
import proofs.«133728_j60172491817011_1_alg».proof.Proof.BridgeB

set_option maxRecDepth 16384

noncomputable section

namespace Cert.Bridge

open Idealize.ShloMosaic Idealize.ShloMosaic.TcCoe Idealize.SL.Sem Idealize.ShloMosaic.StableHlo

variable {F : FTy → Type} [FloatOps F]

/-- Equal masks and dense arrays in, equal `main_v45` out. -/
theorem shared_main_v45 (W₁ : Valuation Cert.KernelIdeal.τ Cert.KernelIdeal.sig (Elt F)) (W₂ : Valuation Cert.ReferenceIdeal.τ Cert.ReferenceIdeal.sig (Elt F))
    (h4 : W₁ (Proc.devRef .tc Cert.KernelIdeal.main_v4) = W₂ (Proc.devRef .tc Cert.ReferenceIdeal.main_v4))
    (h0 : W₁ (Proc.devRef .tc Cert.KernelIdeal.main_v0) = W₂ (Proc.devRef .tc Cert.ReferenceIdeal.main_v0)) :
    after (kA (F := F) ++ kB) W₁ (Proc.devRef .tc Cert.KernelIdeal.main_v45) = after (rA (F := F) ++ rB) W₂ (Proc.devRef .tc Cert.ReferenceIdeal.main_v45) := by
  rw [Cert.LibStretch.after_append, Cert.LibStretch.after_append]
  exact stageB_main_v45 _ _ (stageA_main_v28 W₁ W₂ h4) (stageA_main_v29 W₁ W₂ h4) (stageA_main_v30 W₁ W₂ h4)
    (stageA_main_v36 W₁ W₂ h4) (stageA_main_v37 W₁ W₂ h4) (stageA_main_v38 W₁ W₂ h4) (stageA_main_v0 W₁ W₂ h0)

/-- Equal masks and dense arrays in, equal `main_v67` out. -/
theorem shared_main_v67 (W₁ : Valuation Cert.KernelIdeal.τ Cert.KernelIdeal.sig (Elt F)) (W₂ : Valuation Cert.ReferenceIdeal.τ Cert.ReferenceIdeal.sig (Elt F))
    (h4 : W₁ (Proc.devRef .tc Cert.KernelIdeal.main_v4) = W₂ (Proc.devRef .tc Cert.ReferenceIdeal.main_v4))
    (h0 : W₁ (Proc.devRef .tc Cert.KernelIdeal.main_v0) = W₂ (Proc.devRef .tc Cert.ReferenceIdeal.main_v0)) :
    after (kA (F := F) ++ kB) W₁ (Proc.devRef .tc Cert.KernelIdeal.main_v67) = after (rA (F := F) ++ rB) W₂ (Proc.devRef .tc Cert.ReferenceIdeal.main_v67) := by
  rw [Cert.LibStretch.after_append, Cert.LibStretch.after_append]
  exact stageB_main_v67 _ _ (stageA_main_v28 W₁ W₂ h4) (stageA_main_v29 W₁ W₂ h4) (stageA_main_v30 W₁ W₂ h4)
    (stageA_main_v36 W₁ W₂ h4) (stageA_main_v37 W₁ W₂ h4) (stageA_main_v38 W₁ W₂ h4) (stageA_main_v0 W₁ W₂ h0)

end Cert.Bridge

end
-- ==== Proof.Algebraic.lean ====
/-
  The two idealized programs end with equal results. The kernel program's region leaves the mask as words, which its next
  line turns back into bits; those bits are the reference's mask, because both are the comparison with 3 of the maximum
  over the eight channels of the absolute value of the same dense array (the argument reshaped). From equal masks and the
  same dense array the shared lines leave equal results. Neither program writes its argument.
-/
import proofs.«133728_j60172491817011_1_alg».proof.Defs
import proofs.«133728_j60172491817011_1_alg».proof.Proof.KiValue
import proofs.«133728_j60172491817011_1_alg».proof.Proof.RefValue
import proofs.«133728_j60172491817011_1_alg».proof.Proof.RefRun
import proofs.«133728_j60172491817011_1_alg».proof.Proof.Bridge
import proofs.«133728_j60172491817011_1_alg».proof.Proof.Gen.Pre_finite_inputs
import Idealize.ShloMosaic.PureOps.Ideal

set_option maxRecDepth 16384

noncomputable section

namespace Cert.Proof.Alg

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
  (c : Dev Cert.KernelIdeal.nD)
  (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))

include h

/-- The dense arrays agree when the arguments do: each is the argument reshaped. -/
theorem dense_eq :
    Cert.KernelIdeal.Hand.V m c Cert.KernelIdeal.main_v0 = after (Cert.ReferenceIdeal.Hand.headOps (F := Ideal)) (launchContents m' c) (Proc.devRef .tc Cert.ReferenceIdeal.main_v0) := by
  show after (List.flatten [Cert.KernelIdeal.Gen.hostOps0 (F := Ideal)]) (fun b => m (c, b)) (Proc.devRef .tc Cert.KernelIdeal.main_v0) = _
  simp only [Cert.KernelIdeal.Gen.hostOps0, Cert.ReferenceIdeal.Hand.headOps, List.flatten_cons, List.flatten_nil, List.append_nil]
  after_results_simp
  have h' : m (c, Proc.devRef .tc Cert.KernelIdeal.main_arg0) = launchContents m' c (Proc.devRef .tc Cert.ReferenceIdeal.main_arg0) := h.symm
  generalize m (c, Proc.devRef .tc Cert.KernelIdeal.main_arg0) = a at h' ⊢
  subst h'
  rfl

/-- The masks agree: the bits read back from the region's words are the reference's comparison. -/
theorem mask_eq :
    after (Cert.KernelIdeal.Gen.hostOps1 (F := Ideal)) (Cert.KernelIdeal.HandValue.exitV m c) (Proc.devRef .tc Cert.KernelIdeal.main_v4)
      = after (Cert.ReferenceIdeal.Hand.headOps (F := Ideal)) (launchContents m' c) (Proc.devRef .tc Cert.ReferenceIdeal.main_v4) := by
  rw [Cert.KernelIdeal.HandValue.mask_bits, Cert.ReferenceIdeal.HandValue.head_mask, dense_eq m m' c h]

/-- The dense array the shared lines start from is the same in both programs. -/
theorem dense_start :
    after (Cert.KernelIdeal.Gen.hostOps1 (F := Ideal)) (Cert.KernelIdeal.HandValue.exitV m c) (Proc.devRef .tc Cert.KernelIdeal.main_v0)
      = after (Cert.ReferenceIdeal.Hand.headOps (F := Ideal)) (launchContents m' c) (Proc.devRef .tc Cert.ReferenceIdeal.main_v0) :=
  (Cert.KernelIdeal.HandValue.dense_kept m c).trans (dense_eq m m' c h)

/-- The kernel program's gathered features are the reference's. -/
theorem features_eq :
    Pipeline.afterTail₀ Cert.KernelIdeal.cfgs (Cert.KernelIdeal.Hand.dats m) 0 (Cert.KernelIdeal.Hand.V0 m) Cert.KernelIdeal.Hand.tailOpss c Cert.KernelIdeal.main_v67
      = after (Cert.ReferenceIdeal.Hand.ops (F := Ideal)) (launchContents m' c) (Proc.devRef .tc Cert.ReferenceIdeal.main_v67) := by
  rw [Cert.KernelIdeal.HandValue.result_eq, Cert.ReferenceIdeal.HandValue.ops_split, Cert.LibStretch.after_append Cert.ReferenceIdeal.Hand.headOps]
  exact Cert.Bridge.shared_main_v67 _ _ (mask_eq m m' c h) (dense_start m m' c h)

/-- The kernel program's coordinates are the reference's. -/
theorem coords_eq :
    Pipeline.afterTail₀ Cert.KernelIdeal.cfgs (Cert.KernelIdeal.Hand.dats m) 0 (Cert.KernelIdeal.Hand.V0 m) Cert.KernelIdeal.Hand.tailOpss c Cert.KernelIdeal.main_v45
      = after (Cert.ReferenceIdeal.Hand.ops (F := Ideal)) (launchContents m' c) (Proc.devRef .tc Cert.ReferenceIdeal.main_v45) := by
  rw [Cert.KernelIdeal.HandValue.result_eq, Cert.ReferenceIdeal.HandValue.ops_split, Cert.LibStretch.after_append Cert.ReferenceIdeal.Hand.headOps]
  exact Cert.Bridge.shared_main_v45 _ _ (mask_eq m m' c h) (dense_start m m' c h)

end Cert.Proof.Alg

namespace Cert.Proof

open Idealize.ShloMosaic Idealize.ShloMosaic.TcCoe Idealize.SL.Sem Idealize.ShloMosaic.StableHlo

/-- Both idealized programs run, end with equal results, and leave their arguments unchanged. -/
theorem algebraic : Cert.algebraic_KernelIdeal_ReferenceIdeal
    (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => after (Cert.ReferenceIdeal.Hand.ops (F := Ideal)) (launchContents m' c) (Proc.devRef .tc Cert.ReferenceIdeal.main_v67),
    fun c => after (Cert.ReferenceIdeal.Hand.ops (F := Ideal)) (launchContents m' c) (Proc.devRef .tc Cert.ReferenceIdeal.main_v45), ?_, ?_⟩
  · refine (θ_run Cert.KernelIdeal.defs _ _).mono (fun r hr c => ⟨?_, ?_, ?_⟩) (Cert.KernelIdeal.Hand.run_main (F := Ideal) m ρ)
    · exact ((hr c).2 Cert.KernelIdeal.main_v67 (Pipeline.mem_restRefs_of Cert.KernelIdeal.main_v67 (by decide) (by decide))).trans
        (Alg.features_eq m m' c (hagree c))
    · exact ((hr c).2 Cert.KernelIdeal.main_v45 (Pipeline.mem_restRefs_of Cert.KernelIdeal.main_v45 (by decide) (by decide))).trans
        (Alg.coords_eq m m' c (hagree c))
    · exact ((hr c).2 Cert.KernelIdeal.main_arg0 (Pipeline.mem_restRefs_of Cert.KernelIdeal.main_arg0 (by decide) (by decide))).trans
        (Cert.KernelIdeal.Hand.W_main_arg0 m (Cert.KernelIdeal.Hand.dats m) c)
  · exact (θ_run Cert.ReferenceIdeal.defs _ _).mono (fun r hr c => ⟨hr c Cert.ReferenceIdeal.main_v67, hr c Cert.ReferenceIdeal.main_v45,
      (hr c Cert.ReferenceIdeal.main_arg0).trans (Cert.ReferenceIdeal.Hand.arg0_kept _)⟩) (Cert.ReferenceIdeal.Hand.run (F := Ideal) m' ρ')

end Cert.Proof

end
-- ==== Proof.lean ====
/-
  The certificate's claims, assembled. Each program is a straight line of array operations, the kernel program's with one
  launched region in it: at each of its 32 grid points the region's body reads a slab of eight channel planes and writes the
  plane of "largest absolute value exceeds 3" as words. The three frames: the kernel program at the bit level and at the
  ideal instance by the run of the line around the region (nothing writes the argument), the reference by the run of its
  line. The idealization rewrote nothing, so there is nothing to preserve. The idealized programs end with equal results:
  the words read back as bits are the reference's mask, and from the mask on the two programs run the same lines.
-/
import proofs.«133728_j60172491817011_1_alg».proof.Defs
import proofs.«133728_j60172491817011_1_alg».proof.Proof.KbFrame
import proofs.«133728_j60172491817011_1_alg».proof.Proof.KiFrame
import proofs.«133728_j60172491817011_1_alg».proof.Proof.RefRun
import proofs.«133728_j60172491817011_1_alg».proof.Proof.Algebraic
import proofs.«133728_j60172491817011_1_alg».proof.Proof.Gen.Kernel
import proofs.«133728_j60172491817011_1_alg».proof.Proof.Gen.KernelIdeal
import proofs.«133728_j60172491817011_1_alg».proof.Proof.Gen.ReferenceIdeal
import proofs.«133728_j60172491817011_1_alg».proof.Proof.Gen.Pre_finite_inputs
import Idealize.ShloMosaic.Adequacy
import Idealize.ShloMosaic.Init

noncomputable section

namespace Cert.Proof

open Idealize.ShloMosaic Idealize.SL.Sem

/-- The kernel program, as printed, runs and leaves its argument unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its argument unchanged: no operation of its line writes it. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => (h c Cert.ReferenceIdeal.main_arg0).trans (Cert.ReferenceIdeal.Hand.arg0_kept _))
    (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
